-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S5504x2048 : Shape := ⟨2, ![5504, 2048]⟩
abbrev S2048x5504 : Shape := ⟨2, ![2048, 5504]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S5504x2048 : S_.BroadcastsInDim S5504x2048 (![] : Fin 0 → Fin S5504x2048.rank)
  reducesTo_S5504x2048_S_d0_1 : S5504x2048.ReducesTo [0, 1] S_
  bcast_S_S2048x5504 : S_.BroadcastsInDim S2048x5504 (![] : Fin 0 → Fin S2048x5504.rank)
  reducesTo_S2048x5504_S_d0_1 : S2048x5504.ReducesTo [0, 1] S_

variable [Facts]

def fn_part1 {F : FTy → Type} [FloatOps F] (main_v13 : IVec S_ 1) (main_v16 : IVec S2048x5504 1) : IVec S_ 1 :=
  let main_c_5 : IVec S_ 1 := constantI S_ 1 1#1
  let main_v17 : IVec S_ 1 := (fun x v => Host.reduce IntOp.andi x v reducesTo_S2048x5504_S_d0_1 h_S_) main_v16 main_c_5
  let main_v18 : IVec S_ 1 := andi main_v13 main_v17
  main_v18

def fn {F : FTy → Type} [FloatOps F] (main_arg0 : FVec F S4x2048x2048 .f32) (main_arg1 : FVec F S5504x2048 .f32) (main_arg2 : FVec F S5504x2048 .f32) (main_arg3 : FVec F S2048x5504 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S5504x2048 .f32 := Host.absf main_arg1
  let main_cst_0 : FVec F S_ .f32 := constant S_ .f32 0x7F800000#32
  let main_v5 : FVec F S5504x2048 .f32 := broadcastInDim S5504x2048 ![] bcast_S_S5504x2048 main_cst_0
  let main_v6 : IVec S5504x2048 1 := cmpf .olt main_v4 main_v5
  let main_c_1 : IVec S_ 1 := constantI S_ 1 1#1
  let main_v7 : IVec S_ 1 := (fun x v => Host.reduce IntOp.andi x v reducesTo_S5504x2048_S_d0_1 h_S_) main_v6 main_c_1
  let main_v8 : IVec S_ 1 := andi main_v3 main_v7
  let main_v9 : FVec F S5504x2048 .f32 := Host.absf main_arg2
  let main_cst_2 : FVec F S_ .f32 := constant S_ .f32 0x7F800000#32
  let main_v10 : FVec F S5504x2048 .f32 := broadcastInDim S5504x2048 ![] bcast_S_S5504x2048 main_cst_2
  let main_v11 : IVec S5504x2048 1 := cmpf .olt main_v9 main_v10
  let main_c_3 : IVec S_ 1 := constantI S_ 1 1#1
  let main_v12 : IVec S_ 1 := (fun x v => Host.reduce IntOp.andi x v reducesTo_S5504x2048_S_d0_1 h_S_) main_v11 main_c_3
  let main_v13 : IVec S_ 1 := andi main_v8 main_v12
  let main_v14 : FVec F S2048x5504 .f32 := Host.absf main_arg3
  let main_cst_4 : FVec F S_ .f32 := constant S_ .f32 0x7F800000#32
  let main_v15 : FVec F S2048x5504 .f32 := broadcastInDim S2048x5504 ![] bcast_S_S2048x5504 main_cst_4
  let main_v16 : IVec S2048x5504 1 := cmpf .olt main_v14 main_v15
  fn_part1 (F := F) main_v13 main_v16
-- ==== Kernel.lean ====
abbrev S4x2048x2048 : Shape := ⟨3, ![4, 2048, 2048]⟩
abbrev S5504x2048 : Shape := ⟨2, ![5504, 2048]⟩
abbrev S2048x5504 : Shape := ⟨2, ![2048, 5504]⟩
abbrev S5504x16x128 : Shape := ⟨3, ![5504, 16, 128]⟩
abbrev S_ : Shape := ⟨0, ![]⟩
abbrev S5504x16 : Shape := ⟨2, ![5504, 16]⟩
abbrev S5504x16x1 : Shape := ⟨3, ![5504, 16, 1]⟩
abbrev S2048x43x128 : Shape := ⟨3, ![2048, 43, 128]⟩
abbrev S2048x43 : Shape := ⟨2, ![2048, 43]⟩
abbrev S2048x43x1 : Shape := ⟨3, ![2048, 43, 1]⟩
abbrev S5632x2048 : Shape := ⟨2, ![5632, 2048]⟩
abbrev S2048x5632 : Shape := ⟨2, ![2048, 5632]⟩
abbrev S8192x2048 : Shape := ⟨2, ![8192, 2048]⟩
abbrev S8192 : Shape := ⟨1, ![8192]⟩
abbrev S8192x1 : Shape := ⟨2, ![8192, 1]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩
abbrev S512x5632 : Shape := ⟨2, ![512, 5632]⟩
abbrev S512x512 : Shape := ⟨2, ![512, 512]⟩

abbrev nBuf : Space → Nat
  | .hbm => 146
  | .vmem => 14
  | .smem => 0
  | _ => 0

abbrev hbmTy0_0 (i : Nat) : BufTy := match i % 128 with
  | 0 => ⟨S4x2048x2048, .f32⟩
  | 1 => ⟨S5504x2048, .f32⟩
  | 2 => ⟨S5504x2048, .f32⟩
  | 3 => ⟨S2048x5504, .f32⟩
  | 4 => ⟨S5504x16x128, .f32⟩
  | 5 => ⟨S5504x16x128, .f32⟩
  | 6 => ⟨S_, .f32⟩
  | 7 => ⟨S5504x16, .f32⟩
  | 8 => ⟨S5504x16x1, .f32⟩
  | 9 => ⟨S_, .f32⟩
  | 10 => ⟨S5504x16x1, .f32⟩
  | 11 => ⟨S5504x16x1, .f32⟩
  | 12 => ⟨S_, .f32⟩
  | 13 => ⟨S5504x16x1, .f32⟩
  | 14 => ⟨S5504x16x1, .f32⟩
  | 15 => ⟨S5504x16x128, .f32⟩
  | 16 => ⟨S5504x16x128, .f32⟩
  | 17 => ⟨S_, .f32⟩
  | 18 => ⟨S_, .f32⟩
  | 19 => ⟨S_, .f32⟩
  | 20 => ⟨S5504x16x128, .f32⟩
  | 21 => ⟨S5504x16x128, .f32⟩
  | 22 => ⟨S_, .f32⟩
  | 23 => ⟨S5504x16x128, .f32⟩
  | 24 => ⟨S5504x16x128, .f32⟩
  | 25 => ⟨S5504x16x128, .f32⟩
  | 26 => ⟨S5504x16x128, .f32⟩
  | 27 => ⟨S5504x16x128, .f32⟩
  | 28 => ⟨S5504x2048, .f32⟩
  | 29 => ⟨S5504x2048, .bf16⟩
  | 30 => ⟨S5504x16x128, .f32⟩
  | 31 => ⟨S5504x16x128, .f32⟩
  | 32 => ⟨S_, .f32⟩
  | 33 => ⟨S5504x16, .f32⟩
  | 34 => ⟨S5504x16x1, .f32⟩
  | 35 => ⟨S_, .f32⟩
  | 36 => ⟨S5504x16x1, .f32⟩
  | 37 => ⟨S5504x16x1, .f32⟩
  | 38 => ⟨S_, .f32⟩
  | 39 => ⟨S5504x16x1, .f32⟩
  | 40 => ⟨S5504x16x1, .f32⟩
  | 41 => ⟨S5504x16x128, .f32⟩
  | 42 => ⟨S5504x16x128, .f32⟩
  | 43 => ⟨S_, .f32⟩
  | 44 => ⟨S_, .f32⟩
  | 45 => ⟨S_, .f32⟩
  | 46 => ⟨S5504x16x128, .f32⟩
  | 47 => ⟨S5504x16x128, .f32⟩
  | 48 => ⟨S_, .f32⟩
  | 49 => ⟨S5504x16x128, .f32⟩
  | 50 => ⟨S5504x16x128, .f32⟩
  | 51 => ⟨S5504x16x128, .f32⟩
  | 52 => ⟨S5504x16x128, .f32⟩
  | 53 => ⟨S5504x16x128, .f32⟩
  | 54 => ⟨S5504x2048, .f32⟩
  | 55 => ⟨S5504x2048, .bf16⟩
  | 56 => ⟨S2048x43x128, .f32⟩
  | 57 => ⟨S2048x43x128, .f32⟩
  | 58 => ⟨S_, .f32⟩
  | 59 => ⟨S2048x43, .f32⟩
  | 60 => ⟨S2048x43x1, .f32⟩
  | 61 => ⟨S_, .f32⟩
  | 62 => ⟨S2048x43x1, .f32⟩
  | 63 => ⟨S2048x43x1, .f32⟩
  | 64 => ⟨S_, .f32⟩
  | 65 => ⟨S2048x43x1, .f32⟩
  | 66 => ⟨S2048x43x1, .f32⟩
  | 67 => ⟨S2048x43x128, .f32⟩
  | 68 => ⟨S2048x43x128, .f32⟩
  | 69 => ⟨S_, .f32⟩
  | 70 => ⟨S_, .f32⟩
  | 71 => ⟨S_, .f32⟩
  | 72 => ⟨S2048x43x128, .f32⟩
  | 73 => ⟨S2048x43x128, .f32⟩
  | 74 => ⟨S_, .f32⟩
  | 75 => ⟨S2048x43x128, .f32⟩
  | 76 => ⟨S2048x43x128, .f32⟩
  | 77 => ⟨S2048x43x128, .f32⟩
  | 78 => ⟨S2048x43x128, .f32⟩
  | 79 => ⟨S2048x43x128, .f32⟩
  | 80 => ⟨S2048x5504, .f32⟩
  | 81 => ⟨S2048x5504, .bf16⟩
  | 82 => ⟨S_, .i32⟩
  | 83 => ⟨S_, .bf16⟩
  | 84 => ⟨S5632x2048, .bf16⟩
  | 85 => ⟨S_, .i32⟩
  | 86 => ⟨S_, .bf16⟩
  | 87 => ⟨S5632x2048, .bf16⟩
  | 88 => ⟨S_, .i32⟩
  | 89 => ⟨S_, .bf16⟩
  | 90 => ⟨S2048x5632, .bf16⟩
  | 91 => ⟨S8192x2048, .f32⟩
  | 92 => ⟨S8192x2048, .f32⟩
  | 93 => ⟨S_, .f32⟩
  | 94 => ⟨S8192, .f32⟩
  | 95 => ⟨S8192x1, .f32⟩
  | 96 => ⟨S_, .f32⟩
  | 97 => ⟨S_, .f32⟩
  | 98 => ⟨S8192x1, .f32⟩
  | 99 => ⟨S8192x1, .f32⟩
  | 100 => ⟨S_, .f32⟩
  | 101 => ⟨S8192x1, .f32⟩
  | 102 => ⟨S8192x1, .f32⟩
  | 103 => ⟨S8192x2048, .f32⟩
  | 104 => ⟨S8192x2048, .f32⟩
  | 105 => ⟨S8192x2048, .f32⟩
  | 106 => ⟨S_, .f32⟩
  | 107 => ⟨S_, .f32⟩
  | 108 => ⟨S_, .f32⟩
  | 109 => ⟨S8192x2048, .f32⟩
  | 110 => ⟨S8192x2048, .f32⟩
  | 111 => ⟨S_, .f32⟩
  | 112 => ⟨S8192x2048, .f32⟩
  | 113 => ⟨S8192x2048, .f32⟩
  | 114 => ⟨S8192x2048, .f32⟩
  | 115 => ⟨S8192x2048, .f32⟩
  | 116 => ⟨S8192x2048, .bf16⟩
  | 117 => ⟨S8192x5632, .bf16⟩
  | 118 => ⟨S8192x5632, .f32⟩
  | 119 => ⟨S8192x5632, .f32⟩
  | 120 => ⟨S_, .f32⟩
  | 121 => ⟨S8192, .f32⟩
  | 122 => ⟨S8192x1, .f32⟩
  | 123 => ⟨S_, .f32⟩
  | 124 => ⟨S_, .f32⟩
  | 125 => ⟨S8192x1, .f32⟩
  | 126 => ⟨S8192x1, .f32⟩
  | 127 => ⟨S_, .f32⟩
  | _ => ⟨S4x2048x2048, .f32⟩

abbrev hbmTy0_1 (i : Nat) : BufTy := match i % 128 with
  | 0 => ⟨S8192x1, .f32⟩
  | 1 => ⟨S8192x1, .f32⟩
  | 2 => ⟨S8192x5632, .f32⟩
  | 3 => ⟨S8192x5632, .f32⟩
  | 4 => ⟨S8192x5632, .f32⟩
  | 5 => ⟨S_, .f32⟩
  | 6 => ⟨S_, .f32⟩
  | 7 => ⟨S_, .f32⟩
  | 8 => ⟨S8192x5632, .f32⟩
  | 9 => ⟨S8192x5632, .f32⟩
  | 10 => ⟨S_, .f32⟩
  | 11 => ⟨S8192x5632, .f32⟩
  | 12 => ⟨S8192x5632, .f32⟩
  | 13 => ⟨S8192x5632, .f32⟩
  | 14 => ⟨S8192x5632, .f32⟩
  | 15 => ⟨S8192x5632, .bf16⟩
  | 16 => ⟨S8192x2048, .f32⟩
  | 17 => ⟨S4x2048x2048, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x512, .bf16⟩
  | .local _ .vmem, ⟨7, _⟩ => ⟨S1024x512, .bf16⟩
  | .local _ .vmem, ⟨8, _⟩ => ⟨S512x5632, .bf16⟩
  | .local _ .vmem, ⟨9, _⟩ => ⟨S512x5632, .bf16⟩
  | .local _ .vmem, ⟨10, _⟩ => ⟨S512x5632, .bf16⟩
  | .local _ .vmem, ⟨11, _⟩ => ⟨S512x5632, .bf16⟩
  | .local _ .vmem, ⟨12, _⟩ => ⟨S512x512, .f32⟩
  | .local _ .vmem, ⟨13, _⟩ => ⟨S512x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_cst_8 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_9 : Ref sig .tc := ⟨.hbm, 58, rfl⟩
abbrev main_v34 : Ref sig .tc := ⟨.hbm, 59, rfl⟩
abbrev main_v35 : Ref sig .tc := ⟨.hbm, 60, rfl⟩
abbrev main_cst_10 : Ref sig .tc := ⟨.hbm, 61, rfl⟩
abbrev main_v36 : Ref sig .tc := ⟨.hbm, 62, rfl⟩
abbrev main_v37 : Ref sig .tc := ⟨.hbm, 63, rfl⟩
abbrev main_cst_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_12 : Ref sig .tc := ⟨.hbm, 69, rfl⟩
abbrev main_cst_13 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_c : Ref sig .tc := ⟨.hbm, 82, rfl⟩
abbrev main_call6_v0 : Ref sig .tc := ⟨.hbm, 83, rfl⟩
abbrev main_v48 : Ref sig .tc := ⟨.hbm, 84, rfl⟩
abbrev main_c_14 : Ref sig .tc := ⟨.hbm, 85, rfl⟩
abbrev main_call7_v0 : Ref sig .tc := ⟨.hbm, 86, rfl⟩
abbrev main_v49 : Ref sig .tc := ⟨.hbm, 87, rfl⟩
abbrev main_c_15 : Ref sig .tc := ⟨.hbm, 88, rfl⟩
abbrev main_call8_v0 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_16 : Ref sig .tc := ⟨.hbm, 93, rfl⟩
abbrev main_v53 : Ref sig .tc := ⟨.hbm, 94, rfl⟩
abbrev main_v54 : Ref sig .tc := ⟨.hbm, 95, rfl⟩
abbrev main_cst_17 : Ref sig .tc := ⟨.hbm, 96, rfl⟩
abbrev main_call9_v0 : Ref sig .tc := ⟨.hbm, 97, rfl⟩
abbrev main_call9_v1 : Ref sig .tc := ⟨.hbm, 98, rfl⟩
abbrev main_v55 : Ref sig .tc := ⟨.hbm, 99, rfl⟩
abbrev main_cst_18 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_19 : Ref sig .tc := ⟨.hbm, 106, rfl⟩
abbrev main_cst_20 : Ref sig .tc := ⟨.hbm, 107, rfl⟩
abbrev main_call11_v0 : Ref sig .tc := ⟨.hbm, 108, rfl⟩
abbrev main_call11_v1 : Ref sig .tc := ⟨.hbm, 109, rfl⟩
abbrev main_call11_v2 : Ref sig .tc := ⟨.hbm, 110, rfl⟩
abbrev main_call11_v3 : Ref sig .tc := ⟨.hbm, 111, rfl⟩
abbrev main_call11_v4 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_cst_21 : Ref sig .tc := ⟨.hbm, 120, rfl⟩
abbrev main_v68 : Ref sig .tc := ⟨.hbm, 121, rfl⟩
abbrev main_v69 : Ref sig .tc := ⟨.hbm, 122, rfl⟩
abbrev main_cst_22 : Ref sig .tc := ⟨.hbm, 123, rfl⟩
abbrev main_call12_v0 : Ref sig .tc := ⟨.hbm, 124, rfl⟩
abbrev main_call12_v1 : Ref sig .tc := ⟨.hbm, 125, rfl⟩
abbrev main_v70 : Ref sig .tc := ⟨.hbm, 126, rfl⟩
abbrev main_cst_23 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_cst_24 : Ref sig .tc := ⟨.hbm, 133, rfl⟩
abbrev main_cst_25 : Ref sig .tc := ⟨.hbm, 134, rfl⟩
abbrev main_call14_v0 : Ref sig .tc := ⟨.hbm, 135, rfl⟩
abbrev main_call14_v1 : Ref sig .tc := ⟨.hbm, 136, rfl⟩
abbrev main_call14_v2 : Ref sig .tc := ⟨.hbm, 137, rfl⟩
abbrev main_call14_v3 : Ref sig .tc := ⟨.hbm, 138, rfl⟩
abbrev main_call14_v4 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x5632 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S5504x2048_S5504x16x128 : S5504x2048.ShapeCasts S5504x16x128
  reducesTo_S5504x16x128_S5504x16_d2 : S5504x16x128.ReducesTo [2] S5504x16
  h_S_ : 0 < S_.numel
  bcast_S5504x16_S5504x16x1_0_1 : S5504x16.BroadcastsInDim S5504x16x1 (![0, 1] : Fin 2 → Fin S5504x16x1.rank)
  bcast_S_S5504x16x1 : S_.BroadcastsInDim S5504x16x1 (![] : Fin 0 → Fin S5504x16x1.rank)
  bcast_S5504x16x1_S5504x16x128_0_1_2 : S5504x16x1.BroadcastsInDim S5504x16x128 (![0, 1, 2] : Fin 3 → Fin S5504x16x128.rank)
  bcast_S_S5504x16x128 : S_.BroadcastsInDim S5504x16x128 (![] : Fin 0 → Fin S5504x16x128.rank)
  shapeCasts_S5504x16x128_S5504x2048 : S5504x16x128.ShapeCasts S5504x2048
  bitsLt_bf16_f32 : FTy.bits .bf16 < FTy.bits .f32
  shapeCasts_S2048x5504_S2048x43x128 : S2048x5504.ShapeCasts S2048x43x128
  reducesTo_S2048x43x128_S2048x43_d2 : S2048x43x128.ReducesTo [2] S2048x43
  bcast_S2048x43_S2048x43x1_0_1 : S2048x43.BroadcastsInDim S2048x43x1 (![0, 1] : Fin 2 → Fin S2048x43x1.rank)
  bcast_S_S2048x43x1 : S_.BroadcastsInDim S2048x43x1 (![] : Fin 0 → Fin S2048x43x1.rank)
  bcast_S2048x43x1_S2048x43x128_0_1_2 : S2048x43x1.BroadcastsInDim S2048x43x128 (![0, 1, 2] : Fin 3 → Fin S2048x43x128.rank)
  bcast_S_S2048x43x128 : S_.BroadcastsInDim S2048x43x128 (![] : Fin 0 → Fin S2048x43x128.rank)
  shapeCasts_S2048x43x128_S2048x5504 : S2048x43x128.ShapeCasts S2048x5504
  pads_S5504x2048_S5632x2048_01280_000 : S5504x2048.Pads (![0, 0] : Fin 2 → Nat) ![128, 0] ![0, 0] S5632x2048
  pads_S2048x5504_S2048x5632_000_01280 : S2048x5504.Pads (![0, 0] : Fin 2 → Nat) ![0, 128] ![0, 0] S2048x5632
  shapeCasts_S4x2048x2048_S8192x2048 : S4x2048x2048.ShapeCasts S8192x2048
  reducesTo_S8192x2048_S8192_d1 : S8192x2048.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  reducesTo_S8192x5632_S8192_d1 : S8192x5632.ReducesTo [1] S8192
  bcast_S8192x1_S8192x5632_0_1 : S8192x1.BroadcastsInDim S8192x5632 (![0, 1] : Fin 2 → Fin S8192x5632.rank)
  bcast_S_S8192x5632 : S_.BroadcastsInDim S8192x5632 (![] : Fin 0 → Fin S8192x5632.rank)
  inb_S512x5632_S512x5632_0_0 : ∀ a, (![0, 0] : Fin 2 → Nat) a + S512x5632.size a ≤ S512x5632.size a
  h_S512x5632 : 0 < S512x5632.numel
  shapeCasts_S512x5632_S512x5632 : S512x5632.ShapeCasts S512x5632
  inb_S512x512_S512x512_0_0 : ∀ a, (![0, 0] : Fin 2 → Nat) a + S512x512.size a ≤ S512x512.size a
  h_S512x512 : 0 < S512x512.numel
  shapeCasts_S8192x2048_S4x2048x2048 : S8192x2048.ShapeCasts S4x2048x2048
  dot_S1024x2048_S512x2048_S1024x512_1_1_0_0_n_n_wf : DotDims.WF S1024x2048 S512x2048 S1024x512 [1] [1] [0] [0] [] []
  dot_S512x5632_S512x5632_S512x512_1_1_0_0_n_n_wf : DotDims.WF S512x5632 S512x5632 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S5632x2048.size a
  hwx0_1 : ∀ i : grid0.Coords, EltTy.bits .bf16 = 32 ∨ (Rect.block (s := S5632x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S5632x2048.size a
  hwx0_2 : ∀ i : grid0.Coords, EltTy.bits .bf16 = 32 ∨ (Rect.block (s := S5632x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x5632.size a
  hwx0_3 : ∀ i : grid0.Coords, EltTy.bits .bf16 = 32 ∨ (Rect.block (s := S8192x5632) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x5632.size a ≤ S8192x5632.size a
  hwx1_0 : ∀ i : grid1.Coords, EltTy.bits .bf16 = 32 ∨ (Rect.block (s := S8192x5632) S512x5632.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x5632.size a ≤ S2048x5632.size a
  hwx1_1 : ∀ i : grid1.Coords, EltTy.bits .bf16 = 32 ∨ (Rect.block (s := S2048x5632) S512x5632.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S8192x2048.size a
  hwx1_2 : ∀ i : grid1.Coords, EltTy.bits .f32 = 32 ∨ (Rect.block (s := S8192x2048) S512x512.size (cc1_transform_2 i) (hinb1_2 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf
def dot_S512x5632_S512x5632_S512x512_1_1_0_0_n_n : DotDims S512x5632 S512x5632 S512x512 where
  lhsContracting := [1]
  rhsContracting := [1]
  lhsNonContracting := [0]
  rhsNonContracting := [0]
  lhsBatch := []
  rhsBatch := []
  wf := dot_S512x5632_S512x5632_S512x512_1_1_0_0_n_n_wf

abbrev win0_0 : Pipeline.Window sig grid0 :=
  Pipeline.Window.ofSpec (Memref.whole main_v64) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v65) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v79) S512x5632.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S512x5632.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v80) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x2048 : Shape := ⟨3, ![4, 2048, 2048]⟩
abbrev S5504x2048 : Shape := ⟨2, ![5504, 2048]⟩
abbrev S2048x5504 : Shape := ⟨2, ![2048, 5504]⟩
abbrev S_ : Shape := ⟨0, ![]⟩
abbrev S4x2048 : Shape := ⟨2, ![4, 2048]⟩
abbrev S4x2048x1 : Shape := ⟨3, ![4, 2048, 1]⟩
abbrev S5504x16x128 : Shape := ⟨3, ![5504, 16, 128]⟩
abbrev S5504x16 : Shape := ⟨2, ![5504, 16]⟩
abbrev S5504x16x1 : Shape := ⟨3, ![5504, 16, 1]⟩
abbrev S4x2048x5504 : Shape := ⟨3, ![4, 2048, 5504]⟩
abbrev S2048x43x128 : Shape := ⟨3, ![2048, 43, 128]⟩
abbrev S2048x43 : Shape := ⟨2, ![2048, 43]⟩
abbrev S2048x43x1 : Shape := ⟨3, ![2048, 43, 1]⟩

abbrev nBuf : Space → Nat
  | .hbm => 176
  | .vmem => 0
  | .smem => 0
  | _ => 0

abbrev hbmTy0_0 (i : Nat) : BufTy := match i % 128 with
  | 0 => ⟨S4x2048x2048, .f32⟩
  | 1 => ⟨S5504x2048, .f32⟩
  | 2 => ⟨S5504x2048, .f32⟩
  | 3 => ⟨S2048x5504, .f32⟩
  | 4 => ⟨S4x2048x2048, .f32⟩
  | 5 => ⟨S_, .f32⟩
  | 6 => ⟨S4x2048, .f32⟩
  | 7 => ⟨S4x2048x1, .f32⟩
  | 8 => ⟨S_, .f32⟩
  | 9 => ⟨S_, .f32⟩
  | 10 => ⟨S4x2048x1, .f32⟩
  | 11 => ⟨S4x2048x1, .f32⟩
  | 12 => ⟨S_, .f32⟩
  | 13 => ⟨S4x2048x1, .f32⟩
  | 14 => ⟨S4x2048x1, .f32⟩
  | 15 => ⟨S4x2048x2048, .f32⟩
  | 16 => ⟨S4x2048x2048, .f32⟩
  | 17 => ⟨S4x2048x2048, .f32⟩
  | 18 => ⟨S_, .f32⟩
  | 19 => ⟨S_, .f32⟩
  | 20 => ⟨S_, .f32⟩
  | 21 => ⟨S4x2048x2048, .f32⟩
  | 22 => ⟨S4x2048x2048, .f32⟩
  | 23 => ⟨S_, .f32⟩
  | 24 => ⟨S4x2048x2048, .f32⟩
  | 25 => ⟨S4x2048x2048, .f32⟩
  | 26 => ⟨S4x2048x2048, .f32⟩
  | 27 => ⟨S4x2048x2048, .f32⟩
  | 28 => ⟨S4x2048x2048, .f32⟩
  | 29 => ⟨S4x2048x2048, .f32⟩
  | 30 => ⟨S5504x16x128, .f32⟩
  | 31 => ⟨S5504x16x128, .f32⟩
  | 32 => ⟨S_, .f32⟩
  | 33 => ⟨S5504x16, .f32⟩
  | 34 => ⟨S5504x16x1, .f32⟩
  | 35 => ⟨S_, .f32⟩
  | 36 => ⟨S5504x16x1, .f32⟩
  | 37 => ⟨S5504x16x1, .f32⟩
  | 38 => ⟨S_, .f32⟩
  | 39 => ⟨S5504x16x1, .f32⟩
  | 40 => ⟨S5504x16x1, .f32⟩
  | 41 => ⟨S5504x16x128, .f32⟩
  | 42 => ⟨S5504x16x128, .f32⟩
  | 43 => ⟨S_, .f32⟩
  | 44 => ⟨S_, .f32⟩
  | 45 => ⟨S_, .f32⟩
  | 46 => ⟨S5504x16x128, .f32⟩
  | 47 => ⟨S5504x16x128, .f32⟩
  | 48 => ⟨S_, .f32⟩
  | 49 => ⟨S5504x16x128, .f32⟩
  | 50 => ⟨S5504x16x128, .f32⟩
  | 51 => ⟨S5504x16x128, .f32⟩
  | 52 => ⟨S5504x16x128, .f32⟩
  | 53 => ⟨S5504x16x128, .f32⟩
  | 54 => ⟨S5504x2048, .f32⟩
  | 55 => ⟨S5504x2048, .f32⟩
  | 56 => ⟨S5504x2048, .f32⟩
  | 57 => ⟨S4x2048x5504, .f32⟩
  | 58 => ⟨S4x2048x2048, .f32⟩
  | 59 => ⟨S_, .f32⟩
  | 60 => ⟨S4x2048, .f32⟩
  | 61 => ⟨S4x2048x1, .f32⟩
  | 62 => ⟨S_, .f32⟩
  | 63 => ⟨S_, .f32⟩
  | 64 => ⟨S4x2048x1, .f32⟩
  | 65 => ⟨S4x2048x1, .f32⟩
  | 66 => ⟨S_, .f32⟩
  | 67 => ⟨S4x2048x1, .f32⟩
  | 68 => ⟨S4x2048x1, .f32⟩
  | 69 => ⟨S4x2048x2048, .f32⟩
  | 70 => ⟨S4x2048x2048, .f32⟩
  | 71 => ⟨S4x2048x2048, .f32⟩
  | 72 => ⟨S_, .f32⟩
  | 73 => ⟨S_, .f32⟩
  | 74 => ⟨S_, .f32⟩
  | 75 => ⟨S4x2048x2048, .f32⟩
  | 76 => ⟨S4x2048x2048, .f32⟩
  | 77 => ⟨S_, .f32⟩
  | 78 => ⟨S4x2048x2048, .f32⟩
  | 79 => ⟨S4x2048x2048, .f32⟩
  | 80 => ⟨S4x2048x2048, .f32⟩
  | 81 => ⟨S4x2048x2048, .f32⟩
  | 82 => ⟨S4x2048x2048, .f32⟩
  | 83 => ⟨S4x2048x2048, .f32⟩
  | 84 => ⟨S5504x16x128, .f32⟩
  | 85 => ⟨S5504x16x128, .f32⟩
  | 86 => ⟨S_, .f32⟩
  | 87 => ⟨S5504x16, .f32⟩
  | 88 => ⟨S5504x16x1, .f32⟩
  | 89 => ⟨S_, .f32⟩
  | 90 => ⟨S5504x16x1, .f32⟩
  | 91 => ⟨S5504x16x1, .f32⟩
  | 92 => ⟨S_, .f32⟩
  | 93 => ⟨S5504x16x1, .f32⟩
  | 94 => ⟨S5504x16x1, .f32⟩
  | 95 => ⟨S5504x16x128, .f32⟩
  | 96 => ⟨S5504x16x128, .f32⟩
  | 97 => ⟨S_, .f32⟩
  | 98 => ⟨S_, .f32⟩
  | 99 => ⟨S_, .f32⟩
  | 100 => ⟨S5504x16x128, .f32⟩
  | 101 => ⟨S5504x16x128, .f32⟩
  | 102 => ⟨S_, .f32⟩
  | 103 => ⟨S5504x16x128, .f32⟩
  | 104 => ⟨S5504x16x128, .f32⟩
  | 105 => ⟨S5504x16x128, .f32⟩
  | 106 => ⟨S5504x16x128, .f32⟩
  | 107 => ⟨S5504x16x128, .f32⟩
  | 108 => ⟨S5504x2048, .f32⟩
  | 109 => ⟨S5504x2048, .f32⟩
  | 110 => ⟨S5504x2048, .f32⟩
  | 111 => ⟨S4x2048x5504, .f32⟩
  | 112 => ⟨S4x2048x5504, .f32⟩
  | 113 => ⟨S4x2048x5504, .f32⟩
  | 114 => ⟨S_, .f32⟩
  | 115 => ⟨S4x2048x5504, .f32⟩
  | 116 => ⟨S4x2048x5504, .f32⟩
  | 117 => ⟨S_, .f32⟩
  | 118 => ⟨S4x2048x5504, .f32⟩
  | 119 => ⟨S4x2048x5504, .f32⟩
  | 120 => ⟨S4x2048x5504, .f32⟩
  | 121 => ⟨S4x2048x5504, .f32⟩
  | 122 => ⟨S4x2048x5504, .f32⟩
  | 123 => ⟨S_, .f32⟩
  | 124 => ⟨S4x2048, .f32⟩
  | 125 => ⟨S4x2048x1, .f32⟩
  | 126 => ⟨S_, .f32⟩
  | 127 => ⟨S_, .f32⟩
  | _ => ⟨S4x2048x2048, .f32⟩

abbrev hbmTy0_1 (i : Nat) : BufTy := match i % 128 with
  | 0 => ⟨S4x2048x1, .f32⟩
  | 1 => ⟨S4x2048x1, .f32⟩
  | 2 => ⟨S_, .f32⟩
  | 3 => ⟨S4x2048x1, .f32⟩
  | 4 => ⟨S4x2048x1, .f32⟩
  | 5 => ⟨S4x2048x5504, .f32⟩
  | 6 => ⟨S4x2048x5504, .f32⟩
  | 7 => ⟨S4x2048x5504, .f32⟩
  | 8 => ⟨S_, .f32⟩
  | 9 => ⟨S_, .f32⟩
  | 10 => ⟨S_, .f32⟩
  | 11 => ⟨S4x2048x5504, .f32⟩
  | 12 => ⟨S4x2048x5504, .f32⟩
  | 13 => ⟨S_, .f32⟩
  | 14 => ⟨S4x2048x5504, .f32⟩
  | 15 => ⟨S4x2048x5504, .f32⟩
  | 16 => ⟨S4x2048x5504, .f32⟩
  | 17 => ⟨S4x2048x5504, .f32⟩
  | 18 => ⟨S4x2048x5504, .f32⟩
  | 19 => ⟨S4x2048x5504, .f32⟩
  | 20 => ⟨S2048x43x128, .f32⟩
  | 21 => ⟨S2048x43x128, .f32⟩
  | 22 => ⟨S_, .f32⟩
  | 23 => ⟨S2048x43, .f32⟩
  | 24 => ⟨S2048x43x1, .f32⟩
  | 25 => ⟨S_, .f32⟩
  | 26 => ⟨S2048x43x1, .f32⟩
  | 27 => ⟨S2048x43x1, .f32⟩
  | 28 => ⟨S_, .f32⟩
  | 29 => ⟨S2048x43x1, .f32⟩
  | 30 => ⟨S2048x43x1, .f32⟩
  | 31 => ⟨S2048x43x128, .f32⟩
  | 32 => ⟨S2048x43x128, .f32⟩
  | 33 => ⟨S_, .f32⟩
  | 34 => ⟨S_, .f32⟩
  | 35 => ⟨S_, .f32⟩
  | 36 => ⟨S2048x43x128, .f32⟩
  | 37 => ⟨S2048x43x128, .f32⟩
  | 38 => ⟨S_, .f32⟩
  | 39 => ⟨S2048x43x128, .f32⟩
  | 40 => ⟨S2048x43x128, .f32⟩
  | 41 => ⟨S2048x43x128, .f32⟩
  | 42 => ⟨S2048x43x128, .f32⟩
  | 43 => ⟨S2048x43x128, .f32⟩
  | 44 => ⟨S2048x5504, .f32⟩
  | 45 => ⟨S2048x5504, .f32⟩
  | 46 => ⟨S2048x5504, .f32⟩
  | 47 => ⟨S4x2048x2048, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_cst_3 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_cst_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_7 : Ref sig .tc := ⟨.hbm, 43, rfl⟩
abbrev main_cst_8 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_9 : Ref sig .tc := ⟨.hbm, 59, rfl⟩
abbrev main_v33 : Ref sig .tc := ⟨.hbm, 60, rfl⟩
abbrev main_v34 : Ref sig .tc := ⟨.hbm, 61, rfl⟩
abbrev main_cst_10 : Ref sig .tc := ⟨.hbm, 62, rfl⟩
abbrev main_call5_v0 : Ref sig .tc := ⟨.hbm, 63, rfl⟩
abbrev main_call5_v1 : Ref sig .tc := ⟨.hbm, 64, rfl⟩
abbrev main_v35 : Ref sig .tc := ⟨.hbm, 65, rfl⟩
abbrev main_cst_11 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_12 : Ref sig .tc := ⟨.hbm, 72, rfl⟩
abbrev main_cst_13 : Ref sig .tc := ⟨.hbm, 73, rfl⟩
abbrev main_call7_v0 : Ref sig .tc := ⟨.hbm, 74, rfl⟩
abbrev main_call7_v1 : Ref sig .tc := ⟨.hbm, 75, rfl⟩
abbrev main_call7_v2 : Ref sig .tc := ⟨.hbm, 76, rfl⟩
abbrev main_call7_v3 : Ref sig .tc := ⟨.hbm, 77, rfl⟩
abbrev main_call7_v4 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_14 : Ref sig .tc := ⟨.hbm, 86, rfl⟩
abbrev main_v48 : Ref sig .tc := ⟨.hbm, 87, rfl⟩
abbrev main_v49 : Ref sig .tc := ⟨.hbm, 88, rfl⟩
abbrev main_cst_15 : Ref sig .tc := ⟨.hbm, 89, rfl⟩
abbrev main_v50 : Ref sig .tc := ⟨.hbm, 90, rfl⟩
abbrev main_v51 : Ref sig .tc := ⟨.hbm, 91, rfl⟩
abbrev main_cst_16 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_17 : Ref sig .tc := ⟨.hbm, 97, rfl⟩
abbrev main_cst_18 : Ref sig .tc := ⟨.hbm, 98, rfl⟩
abbrev main_call8_v0 : Ref sig .tc := ⟨.hbm, 99, rfl⟩
abbrev main_call8_v1 : Ref sig .tc := ⟨.hbm, 100, rfl⟩
abbrev main_call8_v2 : Ref sig .tc := ⟨.hbm, 101, rfl⟩
abbrev main_call8_v3 : Ref sig .tc := ⟨.hbm, 102, rfl⟩
abbrev main_call8_v4 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_call10_v0 : Ref sig .tc := ⟨.hbm, 112, rfl⟩
abbrev main_call10_v1 : Ref sig .tc := ⟨.hbm, 113, rfl⟩
abbrev main_call10_cst : Ref sig .tc := ⟨.hbm, 114, rfl⟩
abbrev main_call10_v2 : Ref sig .tc := ⟨.hbm, 115, rfl⟩
abbrev main_call10_v3 : Ref sig .tc := ⟨.hbm, 116, rfl⟩
abbrev main_call10_cst_0 : Ref sig .tc := ⟨.hbm, 117, rfl⟩
abbrev main_call10_v4 : Ref sig .tc := ⟨.hbm, 118, rfl⟩
abbrev main_call10_v5 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_cst_19 : Ref sig .tc := ⟨.hbm, 123, rfl⟩
abbrev main_v67 : Ref sig .tc := ⟨.hbm, 124, rfl⟩
abbrev main_v68 : Ref sig .tc := ⟨.hbm, 125, rfl⟩
abbrev main_cst_20 : Ref sig .tc := ⟨.hbm, 126, rfl⟩
abbrev main_call11_v0 : Ref sig .tc := ⟨.hbm, 127, rfl⟩
abbrev main_call11_v1 : Ref sig .tc := ⟨.hbm, 128, rfl⟩
abbrev main_v69 : Ref sig .tc := ⟨.hbm, 129, rfl⟩
abbrev main_cst_21 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_cst_22 : Ref sig .tc := ⟨.hbm, 136, rfl⟩
abbrev main_cst_23 : Ref sig .tc := ⟨.hbm, 137, rfl⟩
abbrev main_call13_v0 : Ref sig .tc := ⟨.hbm, 138, rfl⟩
abbrev main_call13_v1 : Ref sig .tc := ⟨.hbm, 139, rfl⟩
abbrev main_call13_v2 : Ref sig .tc := ⟨.hbm, 140, rfl⟩
abbrev main_call13_v3 : Ref sig .tc := ⟨.hbm, 141, rfl⟩
abbrev main_call13_v4 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_cst_24 : Ref sig .tc := ⟨.hbm, 150, rfl⟩
abbrev main_v82 : Ref sig .tc := ⟨.hbm, 151, rfl⟩
abbrev main_v83 : Ref sig .tc := ⟨.hbm, 152, rfl⟩
abbrev main_cst_25 : Ref sig .tc := ⟨.hbm, 153, rfl⟩
abbrev main_v84 : Ref sig .tc := ⟨.hbm, 154, rfl⟩
abbrev main_v85 : Ref sig .tc := ⟨.hbm, 155, rfl⟩
abbrev main_cst_26 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_cst_27 : Ref sig .tc := ⟨.hbm, 161, rfl⟩
abbrev main_cst_28 : Ref sig .tc := ⟨.hbm, 162, rfl⟩
abbrev main_call14_v0 : Ref sig .tc := ⟨.hbm, 163, rfl⟩
abbrev main_call14_v1 : Ref sig .tc := ⟨.hbm, 164, rfl⟩
abbrev main_call14_v2 : Ref sig .tc := ⟨.hbm, 165, rfl⟩
abbrev main_call14_v3 : Ref sig .tc := ⟨.hbm, 166, rfl⟩
abbrev main_call14_v4 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  shapeCasts_S5504x2048_S5504x16x128 : S5504x2048.ShapeCasts S5504x16x128
  reducesTo_S5504x16x128_S5504x16_d2 : S5504x16x128.ReducesTo [2] S5504x16
  bcast_S5504x16_S5504x16x1_0_1 : S5504x16.BroadcastsInDim S5504x16x1 (![0, 1] : Fin 2 → Fin S5504x16x1.rank)
  bcast_S_S5504x16x1 : S_.BroadcastsInDim S5504x16x1 (![] : Fin 0 → Fin S5504x16x1.rank)
  bcast_S5504x16x1_S5504x16x128_0_1_2 : S5504x16x1.BroadcastsInDim S5504x16x128 (![0, 1, 2] : Fin 3 → Fin S5504x16x128.rank)
  bcast_S_S5504x16x128 : S_.BroadcastsInDim S5504x16x128 (![] : Fin 0 → Fin S5504x16x128.rank)
  shapeCasts_S5504x16x128_S5504x2048 : S5504x16x128.ShapeCasts S5504x2048
  bcast_S_S4x2048x5504 : S_.BroadcastsInDim S4x2048x5504 (![] : Fin 0 → Fin S4x2048x5504.rank)
  reducesTo_S4x2048x5504_S4x2048_d2 : S4x2048x5504.ReducesTo [2] S4x2048
  bcast_S4x2048x1_S4x2048x5504_0_1_2 : S4x2048x1.BroadcastsInDim S4x2048x5504 (![0, 1, 2] : Fin 3 → Fin S4x2048x5504.rank)
  shapeCasts_S2048x5504_S2048x43x128 : S2048x5504.ShapeCasts S2048x43x128
  reducesTo_S2048x43x128_S2048x43_d2 : S2048x43x128.ReducesTo [2] S2048x43
  bcast_S2048x43_S2048x43x1_0_1 : S2048x43.BroadcastsInDim S2048x43x1 (![0, 1] : Fin 2 → Fin S2048x43x1.rank)
  bcast_S_S2048x43x1 : S_.BroadcastsInDim S2048x43x1 (![] : Fin 0 → Fin S2048x43x1.rank)
  bcast_S2048x43x1_S2048x43x128_0_1_2 : S2048x43x1.BroadcastsInDim S2048x43x128 (![0, 1, 2] : Fin 3 → Fin S2048x43x128.rank)
  bcast_S_S2048x43x128 : S_.BroadcastsInDim S2048x43x128 (![] : Fin 0 → Fin S2048x43x128.rank)
  shapeCasts_S2048x43x128_S2048x5504 : S2048x43x128.ShapeCasts S2048x5504
  dot_S4x2048x2048_S5504x2048_S4x2048x5504_2_1_01_0_n_n_wf : DotDims.WF S4x2048x2048 S5504x2048 S4x2048x5504 [2] [1] [0, 1] [0] [] []
  dot_S4x2048x5504_S2048x5504_S4x2048x2048_2_1_01_0_n_n_wf : DotDims.WF S4x2048x5504 S2048x5504 S4x2048x2048 [2] [1] [0, 1] [0] [] []

variable [Facts₀]

def dot_S4x2048x2048_S5504x2048_S4x2048x5504_2_1_01_0_n_n : DotDims S4x2048x2048 S5504x2048 S4x2048x5504 where
  lhsContracting := [2]
  rhsContracting := [1]
  lhsNonContracting := [0, 1]
  rhsNonContracting := [0]
  lhsBatch := []
  rhsBatch := []
  wf := dot_S4x2048x2048_S5504x2048_S4x2048x5504_2_1_01_0_n_n_wf
def dot_S4x2048x5504_S2048x5504_S4x2048x2048_2_1_01_0_n_n : DotDims S4x2048x5504 S2048x5504 S4x2048x2048 where
  lhsContracting := [2]
  rhsContracting := [1]
  lhsNonContracting := [0, 1]
  rhsNonContracting := [0]
  lhsBatch := []
  rhsBatch := []
  wf := dot_S4x2048x5504_S2048x5504_S4x2048x2048_2_1_01_0_n_n_wf

class Facts : Prop extends Facts₀ where

variable [Facts]
-- ==== Proof.KRunAll.lean ====
/-
  The idealized kernel program's run with every buffer named.

  @main is a chain of stretches of host operations and two pipelined regions. The buffer contents at each boundary of
  that chain are a fold from the launch memory: a stretch applies its operations' results, a region leaves each of its
  arrays at what its write-backs assemble and every other buffer as it found it. Every weakly fair execution
  terminates, without a fault, with every buffer the thread holds at the last boundary's contents. (The frame claim keeps
  of this only the four argument arrays; a value claim needs the result buffer.)
-/
import proofs.«173558_j15058155339839_2_alg».proof.Proof.Gen.KernelIdeal.Frame

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer the thread holds at the
    contents the chain of boundaries ends with. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W32 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W32 m ρ c b)
    (hfin := fun c s' => by
      iintro ⟨⟨Hh, -⟩, HSI⟩
      unfold StableHlo.held
      imodintro
      iapply (pointsTo_read_all (Pipeline.ucRefs τ sig) (fun b => (((c : Thread nD τ)).1, b)) (W32 m ρ c) s')
      isplitl [Hh] <;> iassumption)
    (hQ := fun _ h => h)

end Cert.KernelIdeal.HandRun

end
-- ==== Proof.MlpDefs.lean ====
/-
  One token's row of a SwiGLU feed-forward block whose three projections take fake-quantized operands, on the extended
  reals: the scalar laws of the two quantizers and the row forms built from them.

  * Activations, per row: with `M` the largest absolute value in the row, the step is `s = 127 / max ε M` and an entry `x`
    becomes `clamp(-128, 127, round (x · s)) / s` (rounding to nearest, ties to even).
  * Weights, per group of 128 entries: with `S` the sum of the group's absolute values, the scale is `S / 128 + ε` and an
    entry `w` becomes `round (clamp(-1, 1, w / scale)) · scale`, one of `-scale, 0, scale`.
  * The gate: `silu g = g · (1 / (1 + e^(-g)))`.
  * The row: `hidden k = silu (xq · wg k) · (xq · wu k)`, and the output entry `n` is `(hidden quantized) · wd n`, where
    `xq` is the quantized input row and `·` between rows is the sum of products.

  Every constant stays the float pattern it is written with; each pattern is read as a real number once, in the module
  that proves facts about them.
-/
import Idealize.ShloMosaic.PureOps.Ideal

noncomputable section

namespace Cert.Mlp

open Idealize.ShloMosaic

/-- The guard `ε` both quantizers use, the single-precision number nearest 1e-5. -/
abbrev cEps : EReal := Ideal.ofBits .f32 0x3727C5AC#32
/-- `127`, the largest level of the activation grid. -/
abbrev c127 : EReal := Ideal.ofBits .f32 0x42FE0000#32
/-- `-128`, the smallest level of the activation grid. -/
abbrev cm128 : EReal := Ideal.ofBits .f32 0xC3000000#32
/-- `128`, the number of entries in a weight group. -/
abbrev c128 : EReal := Ideal.ofBits .f32 0x43000000#32
/-- `1` and `-1`, the bounds of the ternary weight grid. -/
abbrev c1 : EReal := Ideal.ofBits .f32 0x3F800000#32
abbrev cm1 : EReal := Ideal.ofBits .f32 0xBF800000#32

/-- The absolute value as the larger of a number and its negative. -/
def absE (x : EReal) : EReal := max x (-x)

/-- The activation step of a row whose largest absolute value is `M`: `127 / max ε M`. -/
def actScale (M : EReal) : EReal := Ideal.div c127 (max cEps M)

/-- An entry `x` on the activation grid of step `s`: scale, round to nearest even, clamp to `[-128, 127]`, scale back. -/
def actQ (s x : EReal) : EReal :=
  Ideal.div (min c127 (max cm128 (Ideal.liftRound Ideal.roundHalfEven (x * s)))) s

/-- The scale of a weight group whose absolute values sum to `S`: their mean plus `ε`. -/
def wScale (S : EReal) : EReal := Ideal.div S c128 + cEps

/-- An entry `w` on the ternary grid of scale `sc`: divide, clamp to `[-1, 1]`, round to nearest even, scale back. -/
def wQ (sc w : EReal) : EReal :=
  Ideal.liftRound Ideal.roundHalfEven (min c1 (max cm1 (Ideal.div w sc))) * sc

/-- `silu g = g · 1 / (1 + e^(-g))`. -/
def silu (g : EReal) : EReal := g * Ideal.div 1 (1 + Ideal.exp (-g))

/-- The largest absolute value in a row, as the fold of `max` from `-∞`. -/
def rowMax {n : Nat} (x : Fin n → EReal) : EReal := (Finset.univ : Finset (Fin n)).fold max ⊥ (fun k => absE (x k))

/-- A row on its own activation grid. -/
def aqRow {n : Nat} (x : Fin n → EReal) (k : Fin n) : EReal := actQ (actScale (rowMax x)) (x k)

/-- The sum of products of two rows. -/
def dotRow {n : Nat} (x y : Fin n → EReal) : EReal := ∑ k, x k * y k

/-- The hidden row: entry `k` gates the `k`-th up projection of the quantized input row by the `k`-th gate projection. -/
def hiddenRow {d f : Nat} (x : Fin d → EReal) (wg wu : Fin f → Fin d → EReal) (k : Fin f) : EReal :=
  silu (dotRow (aqRow x) (wg k)) * dotRow (aqRow x) (wu k)

/-- The output row: entry `n` is the `n`-th down projection of the quantized hidden row. -/
def mlpRow {d f : Nat} (x : Fin d → EReal) (wg wu : Fin f → Fin d → EReal) (wd : Fin d → Fin f → EReal) (n : Fin d) : EReal :=
  dotRow (aqRow (hiddenRow x wg wu)) (wd n)

/-- An extended real that is a real number. -/
def IsR (x : EReal) : Prop := ∃ r : ℝ, x = (r : EReal)

end Cert.Mlp

end
-- ==== Proof.LibQuantChains.lean ====
/-
  The three host chains of a fake-quantized feed-forward block, each written ONCE over arbitrary shapes and read at an
  index at the exact values, so that a program working on [tokens, features] arrays and one working on
  [batch, sequence, features] arrays share the same three lemmas.

  * `actQuant`: an array `x` of shape `A` whose one axis `a` is the row axis. The row maxima of `|x|` (shape `R`, the
    axis dropped) are put back as a unit axis (shape `K`), clamped below by ε and turned into the step `127 / ·`; the step
    is spread over `A`, and each entry becomes `clamp(-128, 127, round (x · step)) / step`.
    Read at `i`: `actQ (actScale M) (x i)` with `M` the fold of `max` from -∞ over the row through `i`.
  * `wQuant`: an array `w` of shape `A` whose axis `a` runs inside a group. The group sums of `|w|` (shape `R`), as a unit
    axis (shape `K`), divided by 128 plus ε, are the scales; each entry becomes `round (clamp(-1, 1, w / scale)) · scale`.
    Read at `i`: `wQ (wScale (0 + Σ |w| over the group through i)) (w i)`.
  * `siluHost`: `v · (1 / (1 + exp (-v)))` spelt with a negation, an exponential, an addition and a division.
    Read at `i`: `silu (v i)`.

  The index maps of the two spreadings are hypotheses in the form the library's `broadcastInDim_apply` asks for: `κ` is
  the index of `K` under `i` and `ρ` the index of `R` under `κ`.
-/
import Idealize.ShloMosaic.PureOps.Ideal.Laws
import Idealize.ShloMosaic.PureOps.Reduce
import Idealize.ShloMosaic.Lib.Pipeline.Value
import Idealize.ShloMosaic.Lib.ValueIdx
import Idealize.ShloMosaic.Lib.IdealHost
import proofs.«173558_j15058155339839_2_alg».proof.Proof.MlpDefs

noncomputable section

namespace Cert.Lib.QuantChains

open Idealize.ShloMosaic Cert.Mlp

/-- The shape of a scalar. -/
abbrev S0 : Shape := ⟨0, ![]⟩

variable {A R K : Shape}

/-- The activation fake-quantization of `x` along the reduced axes. -/
def actQuant {axes : List (Fin A.rank)} (rt : A.ReducesTo axes R) (hS : 0 < S0.numel)
    (dRK : Fin R.rank → Fin K.rank) (bRK : R.BroadcastsInDim K dRK)
    (dKA : Fin K.rank → Fin A.rank) (bKA : K.BroadcastsInDim A dKA)
    (bK : S0.BroadcastsInDim K ![]) (bA : S0.BroadcastsInDim A ![])
    (x : FVec Ideal A .f32) : FVec Ideal A .f32 :=
  Host.divf
    (minimumf (broadcastInDim A ![] bA (constant (F := Ideal) S0 .f32 0x42FE0000#32))
      (maximumf (broadcastInDim A ![] bA (constant (F := Ideal) S0 .f32 0xC3000000#32))
        (Host.roundeven (mulf x (broadcastInDim A dKA bKA
          (Host.divf (broadcastInDim K ![] bK (constant (F := Ideal) S0 .f32 0x42FE0000#32))
            (maximumf (broadcastInDim K ![] bK (constant (F := Ideal) S0 .f32 0x3727C5AC#32))
              (broadcastInDim K dRK bRK
                (Host.reduce FloatOps.maximumf (Host.absf x) (constant (F := Ideal) S0 .f32 0xFF800000#32) rt hS)))))))))
    (broadcastInDim A dKA bKA
      (Host.divf (broadcastInDim K ![] bK (constant (F := Ideal) S0 .f32 0x42FE0000#32))
        (maximumf (broadcastInDim K ![] bK (constant (F := Ideal) S0 .f32 0x3727C5AC#32))
          (broadcastInDim K dRK bRK
            (Host.reduce FloatOps.maximumf (Host.absf x) (constant (F := Ideal) S0 .f32 0xFF800000#32) rt hS)))))

/-- The ternary weight fake-quantization of `w` along the reduced axes. -/
def wQuant {axes : List (Fin A.rank)} (rt : A.ReducesTo axes R) (hS : 0 < S0.numel)
    (dRK : Fin R.rank → Fin K.rank) (bRK : R.BroadcastsInDim K dRK)
    (dKA : Fin K.rank → Fin A.rank) (bKA : K.BroadcastsInDim A dKA)
    (bK : S0.BroadcastsInDim K ![]) (bA : S0.BroadcastsInDim A ![])
    (w : FVec Ideal A .f32) : FVec Ideal A .f32 :=
  mulf
    (Host.roundeven
      (minimumf (broadcastInDim A ![] bA (constant (F := Ideal) S0 .f32 0x3F800000#32))
        (maximumf (broadcastInDim A ![] bA (constant (F := Ideal) S0 .f32 0xBF800000#32))
          (Host.divf w (broadcastInDim A dKA bKA
            (addf
              (Host.divf (broadcastInDim K dRK bRK (Host.reduceAdd (Host.absf w) (constant (F := Ideal) S0 .f32 0x00000000#32) rt hS))
                (broadcastInDim K ![] bK (constant (F := Ideal) S0 .f32 0x43000000#32)))
              (broadcastInDim K ![] bK (constant (F := Ideal) S0 .f32 0x3727C5AC#32))))))))
    (broadcastInDim A dKA bKA
      (addf
        (Host.divf (broadcastInDim K dRK bRK (Host.reduceAdd (Host.absf w) (constant (F := Ideal) S0 .f32 0x00000000#32) rt hS))
          (broadcastInDim K ![] bK (constant (F := Ideal) S0 .f32 0x43000000#32)))
        (broadcastInDim K ![] bK (constant (F := Ideal) S0 .f32 0x3727C5AC#32))))

/-- `v · (1 / (1 + exp (-v)))` as a host writes it. -/
def siluHost (bA : S0.BroadcastsInDim A ![]) (v : FVec Ideal A .f32) : FVec Ideal A .f32 :=
  mulf v (Host.divf (broadcastInDim A ![] bA (constant (F := Ideal) S0 .f32 0x3F800000#32))
    (addf (broadcastInDim A ![] bA (constant (F := Ideal) S0 .f32 0x3F800000#32)) (Host.exp (Host.negf v))))

/-- The single-precision pattern of -∞ is the bottom of the extended reals. -/
theorem ofBits_neg_inf_f32 : Ideal.ofBits .f32 0xFF800000#32 = (⊥ : EReal) := by
  simp [Ideal.ofBits, Ideal.ieee]

/-- An entry of the activation chain: the entry on the grid of its own row's step. -/
theorem actQuant_apply {a : Fin A.rank} (rt : A.ReducesTo [a] R) (hr : A.Reduces [a] R) (hS : 0 < S0.numel)
    (dRK : Fin R.rank → Fin K.rank) (bRK : R.BroadcastsInDim K dRK)
    (dKA : Fin K.rank → Fin A.rank) (bKA : K.BroadcastsInDim A dKA)
    (bK : S0.BroadcastsInDim K ![]) (bA : S0.BroadcastsInDim A ![])
    (x : FVec Ideal A .f32) (i : A.Idx)
    (κ : K.Idx) (hκ : ∀ e : Fin K.rank, (κ e).val = if K.size e = 1 then 0 else (i (dKA e)).val)
    (ρ : R.Idx) (hρ : ∀ e : Fin R.rank, (ρ e).val = if R.size e = 1 then 0 else (κ (dRK e)).val) :
    actQuant rt hS dRK bRK dKA bKA bK bA x i
      = actQ (actScale ((Finset.univ : Finset (Fin (A.size a))).fold max ⊥ (fun t => absE (x (hr.lift ρ t))))) (x i) := by
  have hM : Host.reduce FloatOps.maximumf (Host.absf x) (constant (F := Ideal) S0 .f32 0xFF800000#32) rt hS ρ
      = (Finset.univ : Finset (Fin (A.size a))).fold max ⊥ (fun t => absE (x (hr.lift ρ t))) := by
    rw [Host.reduce_eq_fold_single FloatOps.maximumf (Host.absf x) _ rt hr hS ρ]
    show Finset.fold max (Ideal.ofBits .f32 0xFF800000#32) (fun t => absE (x (hr.lift ρ t))) Finset.univ = _
    rw [ofBits_neg_inf_f32]
  -- the step array read at `κ` is the step of the row maximum at `ρ`
  have hst : ∀ red : FVec Ideal R .f32,
      (Host.divf (broadcastInDim K ![] bK (constant (F := Ideal) S0 .f32 0x42FE0000#32))
        (maximumf (broadcastInDim K ![] bK (constant (F := Ideal) S0 .f32 0x3727C5AC#32))
          (broadcastInDim K dRK bRK red))) κ = actScale (red ρ) := by
    intro red
    show actScale (broadcastInDim K dRK bRK red κ) = _
    rw [broadcastInDim_apply dRK bRK red κ ρ hρ]
  have key : ∀ st : FVec Ideal K .f32,
      Host.divf
        (minimumf (broadcastInDim A ![] bA (constant (F := Ideal) S0 .f32 0x42FE0000#32))
          (maximumf (broadcastInDim A ![] bA (constant (F := Ideal) S0 .f32 0xC3000000#32))
            (Host.roundeven (mulf x (broadcastInDim A dKA bKA st)))))
        (broadcastInDim A dKA bKA st) i = actQ (st κ) (x i) := by
    intro st
    show actQ (broadcastInDim A dKA bKA st i) (x i) = _
    rw [broadcastInDim_apply dKA bKA st i κ hκ]
  refine (key _).trans ?_
  rw [hst, hM]

/-- An entry of the weight chain: the entry on the ternary grid of its own group's scale. -/
theorem wQuant_apply {a : Fin A.rank} (rt : A.ReducesTo [a] R) (hr : A.Reduces [a] R) (hS : 0 < S0.numel)
    (dRK : Fin R.rank → Fin K.rank) (bRK : R.BroadcastsInDim K dRK)
    (dKA : Fin K.rank → Fin A.rank) (bKA : K.BroadcastsInDim A dKA)
    (bK : S0.BroadcastsInDim K ![]) (bA : S0.BroadcastsInDim A ![])
    (w : FVec Ideal A .f32) (i : A.Idx)
    (κ : K.Idx) (hκ : ∀ e : Fin K.rank, (κ e).val = if K.size e = 1 then 0 else (i (dKA e)).val)
    (ρ : R.Idx) (hρ : ∀ e : Fin R.rank, (ρ e).val = if R.size e = 1 then 0 else (κ (dRK e)).val) :
    wQuant rt hS dRK bRK dKA bKA bK bA w i
      = wQ (wScale (Ideal.ofBits .f32 0x00000000#32 + ∑ t : Fin (A.size a), absE (w (hr.lift ρ t)))) (w i) := by
  have hM : Host.reduceAdd (Host.absf w) (constant (F := Ideal) S0 .f32 0x00000000#32) rt hS ρ
      = Ideal.ofBits .f32 0x00000000#32 + ∑ t : Fin (A.size a), absE (w (hr.lift ρ t)) := by
    rw [ValueIdx.hostReduceAdd_apply, Ideal.hostReduceAdd_single rt hr]
    rfl
  have hsc : ∀ red : FVec Ideal R .f32,
      (addf
        (Host.divf (broadcastInDim K dRK bRK red)
          (broadcastInDim K ![] bK (constant (F := Ideal) S0 .f32 0x43000000#32)))
        (broadcastInDim K ![] bK (constant (F := Ideal) S0 .f32 0x3727C5AC#32))) κ = wScale (red ρ) := by
    intro red
    show wScale (broadcastInDim K dRK bRK red κ) = _
    rw [broadcastInDim_apply dRK bRK red κ ρ hρ]
  have key : ∀ sc : FVec Ideal K .f32,
      mulf
        (Host.roundeven
          (minimumf (broadcastInDim A ![] bA (constant (F := Ideal) S0 .f32 0x3F800000#32))
            (maximumf (broadcastInDim A ![] bA (constant (F := Ideal) S0 .f32 0xBF800000#32))
              (Host.divf w (broadcastInDim A dKA bKA sc)))))
        (broadcastInDim A dKA bKA sc) i = wQ (sc κ) (w i) := by
    intro sc
    show wQ (broadcastInDim A dKA bKA sc i) (w i) = _
    rw [broadcastInDim_apply dKA bKA sc i κ hκ]
  refine (key _).trans ?_
  rw [hsc, hM]

/-- An entry of the host's silu. -/
theorem siluHost_apply (bA : S0.BroadcastsInDim A ![]) (v : FVec Ideal A .f32) (i : A.Idx) :
    siluHost bA v i = silu (v i) := by
  show v i * Ideal.div (Ideal.ofBits .f32 0x3F800000#32) (Ideal.ofBits .f32 0x3F800000#32 + Ideal.exp (-(v i))) = _
  rw [Ideal.ofBits_one_f32]
  rfl

end Cert.Lib.QuantChains

end
-- ==== Proof.MlpMath.lean ====
/-
  The mathematics of the fake-quantized SwiGLU row on the extended reals.

  * The constants: each float pattern is read as the real number it denotes.
  * Realness: every operation of the row keeps real numbers real (the infinities never appear), because both
    quantizer steps are positive real numbers.
  * The straight-through identity: for a real number x, x + (q - x) = q for every extended real q.
  * Zero padding: widening the hidden row with zero weights changes no output entry.
-/
import proofs.«173558_j15058155339839_2_alg».proof.Proof.MlpDefs

noncomputable section

namespace Cert.Mlp

open Idealize.ShloMosaic

/-! ### The constants -/

theorem c127_eq : c127 = ((127 : ℝ) : EReal) := by
  simp [Ideal.ofBits, Ideal.ieee, -EReal.coe_mul]; norm_num

theorem cm128_eq : cm128 = ((-128 : ℝ) : EReal) := by
  simp [Ideal.ofBits, Ideal.ieee, -EReal.coe_mul]; norm_num

theorem c128_eq : c128 = ((128 : ℝ) : EReal) := by
  simp [Ideal.ofBits, Ideal.ieee, -EReal.coe_mul]; norm_num

theorem c1_eq : c1 = ((1 : ℝ) : EReal) := by
  simp [Ideal.ofBits, Ideal.ieee, -EReal.coe_mul]; norm_num

theorem cm1_eq : cm1 = ((-1 : ℝ) : EReal) := by
  simp [Ideal.ofBits, Ideal.ieee, -EReal.coe_mul]; norm_num

theorem ofBits_zero : Ideal.ofBits .f32 0x00000000#32 = (0 : EReal) := by
  simp [Ideal.ofBits, Ideal.ieee]

theorem ofBits_neg_inf : Ideal.ofBits .f32 0xFF800000#32 = (⊥ : EReal) := by
  simp [Ideal.ofBits, Ideal.ieee]

/-- The guard is the positive real number 10995116 · 2⁻⁴⁰. -/
theorem cEps_eq : cEps = (((10995116 : ℝ) * (2 : ℝ) ^ (-40 : ℤ) : ℝ) : EReal) := by
  simp [Ideal.ofBits, Ideal.ieee, -EReal.coe_mul]

theorem cEps_pos : ∃ r : ℝ, 0 < r ∧ cEps = (r : EReal) :=
  ⟨(10995116 : ℝ) * (2 : ℝ) ^ (-40 : ℤ), by positivity, cEps_eq⟩

/-! ### Real numbers stay real -/

/-- For a real number x the straight-through form x + (q - x) is q, whatever q is. -/
theorem ste {x : EReal} (hx : IsR x) (q : EReal) : x + (q - x) = q := by
  obtain ⟨r, rfl⟩ := hx
  induction q using EReal.rec with
  | bot => simp
  | top => simp
  | coe s =>
    rw [← EReal.coe_sub, ← EReal.coe_add]
    congr 1
    ring

theorem isR_coe (r : ℝ) : IsR (r : EReal) := ⟨r, rfl⟩

theorem isR_zero : IsR (0 : EReal) := ⟨0, rfl⟩

theorem isR_add {x y : EReal} (hx : IsR x) (hy : IsR y) : IsR (x + y) := by
  obtain ⟨r, rfl⟩ := hx
  obtain ⟨s, rfl⟩ := hy
  exact ⟨r + s, (EReal.coe_add r s).symm⟩

theorem isR_neg {x : EReal} (hx : IsR x) : IsR (-x) := by
  obtain ⟨r, rfl⟩ := hx
  exact ⟨-r, (EReal.coe_neg r).symm⟩

theorem isR_mul {x y : EReal} (hx : IsR x) (hy : IsR y) : IsR (x * y) := by
  obtain ⟨r, rfl⟩ := hx
  obtain ⟨s, rfl⟩ := hy
  exact ⟨r * s, (EReal.coe_mul r s).symm⟩

theorem isR_max {x y : EReal} (hx : IsR x) (hy : IsR y) : IsR (max x y) := by
  obtain ⟨r, rfl⟩ := hx
  obtain ⟨s, rfl⟩ := hy
  exact ⟨max r s, (EReal.coe_strictMono.monotone.map_max).symm⟩

theorem isR_min {x y : EReal} (hx : IsR x) (hy : IsR y) : IsR (min x y) := by
  obtain ⟨r, rfl⟩ := hx
  obtain ⟨s, rfl⟩ := hy
  exact ⟨min r s, (EReal.coe_strictMono.monotone.map_min).symm⟩

theorem isR_liftRound (f : ℝ → ℤ) {x : EReal} (hx : IsR x) : IsR (Ideal.liftRound f x) := by
  obtain ⟨r, rfl⟩ := hx
  exact ⟨(f r : ℝ), rfl⟩

/-- A real number divided by a nonzero real number is a real number. -/
theorem isR_div {x : EReal} (hx : IsR x) {d : ℝ} (hd : d ≠ 0) : IsR (Ideal.div x (d : EReal)) := by
  rw [Ideal.div_coe hd]
  exact isR_mul hx (isR_coe _)

theorem isR_absE {x : EReal} (hx : IsR x) : IsR (absE x) := isR_max hx (isR_neg hx)

theorem absE_nonneg (x : EReal) : 0 ≤ absE x := by
  rcases le_total 0 x with h | h
  · exact h.trans (le_max_left _ _)
  · exact (EReal.neg_nonneg.2 h).trans (le_max_right _ _)

theorem isR_sum {n : Nat} (f : Fin n → EReal) (hf : ∀ k, IsR (f k)) : IsR (∑ k, f k) :=
  Finset.sum_induction f IsR (fun _ _ ha hb => isR_add ha hb) isR_zero (fun k _ => hf k)

theorem isR_dotRow {n : Nat} (x y : Fin n → EReal) (hx : ∀ k, IsR (x k)) (hy : ∀ k, IsR (y k)) :
    IsR (dotRow x y) :=
  isR_sum _ (fun k => isR_mul (hx k) (hy k))

/-- The gate of a real number: the denominator 1 + e^(-g) is a positive real number. -/
theorem isR_silu {g : EReal} (hg : IsR g) : IsR (silu g) := by
  obtain ⟨r, rfl⟩ := hg
  show IsR ((r : EReal) * Ideal.logistic (r : EReal))
  rw [Ideal.logistic_coe]
  exact isR_mul (isR_coe _) (isR_coe _)

/-! ### The two quantizers on real numbers -/

/-- The largest absolute value of a row of real numbers is a real number, or -∞ for the empty row. -/
theorem fold_max_bot_or_isR {ι : Type} [DecidableEq ι] (s : Finset ι) (g : ι → EReal) (hg : ∀ k, IsR (g k)) :
    s.fold max ⊥ g = ⊥ ∨ IsR (s.fold max ⊥ g) := by
  induction s using Finset.induction_on with
  | empty => left; simp
  | insert a s ha ih =>
    right
    rw [Finset.fold_insert ha]
    rcases ih with h | h
    · rw [h, max_eq_left bot_le]; exact hg a
    · exact isR_max (hg a) h

theorem rowMax_bot_or_isR {n : Nat} (x : Fin n → EReal) (hx : ∀ k, IsR (x k)) : rowMax x = ⊥ ∨ IsR (rowMax x) :=
  fold_max_bot_or_isR _ _ (fun k => isR_absE (hx k))

/-- The denominator of the activation step is a positive real number. -/
theorem max_cEps_pos {M : EReal} (hM : M = ⊥ ∨ IsR M) : ∃ d : ℝ, 0 < d ∧ max cEps M = (d : EReal) := by
  obtain ⟨e, he, hE⟩ := cEps_pos
  rw [hE]
  rcases hM with h | ⟨m, rfl⟩
  · exact ⟨e, he, by rw [h, max_eq_left bot_le]⟩
  · exact ⟨max e m, lt_max_of_lt_left he, (EReal.coe_strictMono.monotone.map_max).symm⟩

/-- The activation step of a row of real numbers is a nonzero real number. -/
theorem actScale_real {M : EReal} (hM : M = ⊥ ∨ IsR M) : ∃ s : ℝ, s ≠ 0 ∧ actScale M = (s : EReal) := by
  obtain ⟨d, hd, hD⟩ := max_cEps_pos hM
  refine ⟨127 * (1 / d), by positivity, ?_⟩
  rw [actScale, hD, Ideal.div_coe hd.ne', c127_eq, ← EReal.coe_mul]

/-- An entry on a grid whose step is a nonzero real number is a real number. -/
theorem isR_actQ {s : ℝ} (hs : s ≠ 0) {x : EReal} (hx : IsR x) : IsR (actQ (s : EReal) x) := by
  unfold actQ
  refine isR_div (isR_min ?_ (isR_max ?_ (isR_liftRound _ (isR_mul hx (isR_coe s))))) hs
  · rw [c127_eq]; exact isR_coe _
  · rw [cm128_eq]; exact isR_coe _

theorem isR_aqRow {n : Nat} (x : Fin n → EReal) (hx : ∀ k, IsR (x k)) (k : Fin n) : IsR (aqRow x k) := by
  obtain ⟨s, hs, hS⟩ := actScale_real (rowMax_bot_or_isR x hx)
  unfold aqRow
  rw [hS]
  exact isR_actQ hs (hx k)

/-- The scale of a weight group whose absolute values sum to a nonnegative real number is a positive real number. -/
theorem wScale_pos {S : EReal} (hS : IsR S) (hS0 : 0 ≤ S) : ∃ c : ℝ, 0 < c ∧ wScale S = (c : EReal) := by
  obtain ⟨t, rfl⟩ := hS
  obtain ⟨e, he, hE⟩ := cEps_pos
  have ht : 0 ≤ t := EReal.coe_nonneg.1 hS0
  refine ⟨t * (1 / 128) + e, by positivity, ?_⟩
  rw [wScale, hE, c128_eq, Ideal.div_coe (by norm_num), ← EReal.coe_mul, ← EReal.coe_add]

theorem isR_wQ {S w : EReal} (hS : IsR S) (hS0 : 0 ≤ S) (hw : IsR w) : IsR (wQ (wScale S) w) := by
  obtain ⟨c, hc, hC⟩ := wScale_pos hS hS0
  unfold wQ
  rw [hC]
  refine isR_mul (isR_liftRound _ (isR_min ?_ (isR_max ?_ (isR_div hw hc.ne')))) (isR_coe c)
  · rw [c1_eq]; exact isR_coe _
  · rw [cm1_eq]; exact isR_coe _

theorem isR_hiddenRow {d f : Nat} (x : Fin d → EReal) (wg wu : Fin f → Fin d → EReal) (hx : ∀ j, IsR (x j))
    (hg : ∀ k j, IsR (wg k j)) (hu : ∀ k j, IsR (wu k j)) (k : Fin f) : IsR (hiddenRow x wg wu k) :=
  isR_mul (isR_silu (isR_dotRow _ _ (isR_aqRow x hx) (hg k))) (isR_dotRow _ _ (isR_aqRow x hx) (hu k))

/-! ### Zero padding -/

/-- A sum whose terms vanish from position f on is the sum of its first f terms. -/
theorem sum_pad {f N : Nat} (hfN : f ≤ N) (g : Fin N → EReal) (g' : Fin f → EReal)
    (hg : ∀ k : Fin N, g k = if h : k.val < f then g' ⟨k.val, h⟩ else 0) : ∑ k, g k = ∑ k, g' k := by
  let G : ℕ → EReal := fun i => if h : i < f then g' ⟨i, h⟩ else 0
  have h1 : ∑ k, g k = ∑ i ∈ Finset.range N, G i := by
    rw [← Fin.sum_univ_eq_sum_range]
    exact Finset.sum_congr rfl (fun k _ => hg k)
  have h2 : ∑ k, g' k = ∑ i ∈ Finset.range f, G i := by
    rw [← Fin.sum_univ_eq_sum_range]
    refine Finset.sum_congr rfl (fun k _ => ?_)
    simp [G, k.isLt]
  rw [h1, h2]
  symm
  refine Finset.sum_subset (Finset.range_subset_range.2 hfN) (fun i _ hi => ?_)
  have hi' : ¬ i < f := by simpa using hi
  simp [G, hi']

/-- The padded hidden row: its first f entries are those of the unpadded row, the others are (anything) · 0 = 0. -/
theorem hiddenRow_pad {d f N : Nat} (x : Fin d → EReal) (wg wu : Fin f → Fin d → EReal)
    (wg' wu' : Fin N → Fin d → EReal)
    (hg : ∀ (k : Fin N) (j : Fin d), wg' k j = if h : k.val < f then wg ⟨k.val, h⟩ j else 0)
    (hu : ∀ (k : Fin N) (j : Fin d), wu' k j = if h : k.val < f then wu ⟨k.val, h⟩ j else 0) (k : Fin N) :
    hiddenRow x wg' wu' k = if h : k.val < f then hiddenRow x wg wu ⟨k.val, h⟩ else 0 := by
  by_cases h : k.val < f
  · rw [dif_pos h]
    have e1 : wg' k = wg ⟨k.val, h⟩ := funext (fun j => by rw [hg k j, dif_pos h])
    have e2 : wu' k = wu ⟨k.val, h⟩ := funext (fun j => by rw [hu k j, dif_pos h])
    unfold hiddenRow
    rw [e1, e2]
  · rw [dif_neg h]
    have e2 : dotRow (aqRow x) (wu' k) = 0 := by
      unfold dotRow
      exact Finset.sum_eq_zero (fun j _ => by rw [hu k j, dif_neg h, mul_zero])
    unfold hiddenRow
    rw [e2, mul_zero]

theorem absE_zero : absE 0 = 0 := by simp [absE]

/-- Padding a row with zeros leaves the denominator of its activation step unchanged: the padded row's largest
    absolute value lies between M and max M 0, and max ε (max M 0) = max ε M because ε is positive. -/
theorem rowMax_pad {f N : Nat} (hfN : f ≤ N) (h' : Fin N → EReal) (h : Fin f → EReal)
    (hh : ∀ k : Fin N, h' k = if hk : k.val < f then h ⟨k.val, hk⟩ else 0) :
    max cEps (rowMax h') = max cEps (rowMax h) := by
  obtain ⟨e, he, hE⟩ := cEps_pos
  have epos : (0 : EReal) ≤ cEps := by rw [hE]; exact EReal.coe_nonneg.2 he.le
  have h1 : rowMax h ≤ rowMax h' := by
    unfold rowMax
    rw [Finset.fold_max_le]
    refine ⟨bot_le, fun k _ => ?_⟩
    rw [Finset.le_fold_max]
    refine Or.inr ⟨Fin.castLE hfN k, Finset.mem_univ _, ?_⟩
    have hk : (Fin.castLE hfN k).val < f := k.isLt
    show absE (h k) ≤ absE (h' (Fin.castLE hfN k))
    rw [hh, dif_pos hk]
    exact le_rfl
  have h2 : rowMax h' ≤ max (rowMax h) 0 := by
    unfold rowMax
    rw [Finset.fold_max_le]
    refine ⟨bot_le, fun k _ => ?_⟩
    show absE (h' k) ≤ _
    rw [hh]
    by_cases hk : k.val < f
    · rw [dif_pos hk]
      refine le_trans ?_ (le_max_left _ _)
      rw [Finset.le_fold_max]
      exact Or.inr ⟨⟨k.val, hk⟩, Finset.mem_univ _, le_rfl⟩
    · rw [dif_neg hk, absE_zero]
      exact le_max_right _ _
  apply le_antisymm
  · exact max_le (le_max_left _ _) (h2.trans (max_le (le_max_right _ _) (epos.trans (le_max_left _ _))))
  · exact max_le_max le_rfl h1

/-- Widening the hidden row with zero weights changes no output entry. -/
theorem mlpRow_pad {d f N : Nat} (hfN : f ≤ N) (x : Fin d → EReal) (wg wu : Fin f → Fin d → EReal) (wd : Fin d → Fin f → EReal)
    (wg' wu' : Fin N → Fin d → EReal) (wd' : Fin d → Fin N → EReal)
    (hg : ∀ (k : Fin N) (j : Fin d), wg' k j = if h : k.val < f then wg ⟨k.val, h⟩ j else 0)
    (hu : ∀ (k : Fin N) (j : Fin d), wu' k j = if h : k.val < f then wu ⟨k.val, h⟩ j else 0)
    (hd : ∀ (n : Fin d) (k : Fin N), wd' n k = if h : k.val < f then wd n ⟨k.val, h⟩ else 0) (n : Fin d) :
    mlpRow x wg' wu' wd' n = mlpRow x wg wu wd n := by
  have hh := hiddenRow_pad x wg wu wg' wu' hg hu
  have hs : actScale (rowMax (hiddenRow x wg' wu')) = actScale (rowMax (hiddenRow x wg wu)) := by
    unfold actScale
    rw [rowMax_pad hfN _ _ hh]
  unfold mlpRow dotRow
  refine sum_pad hfN _ _ (fun k => ?_)
  by_cases hk : k.val < f
  · rw [dif_pos hk, hd n k, dif_pos hk]
    unfold aqRow
    rw [hs, hh k, dif_pos hk]
  · rw [dif_neg hk, hd n k, dif_neg hk, mul_zero]

end Cert.Mlp

end
-- ==== Proof.MlpChains.lean ====
/-
  The host chains of this feed-forward block at its literal shapes, stated once for both programs, and each read at
  coordinates as a row form.

  Tokens are laid out either as [4, 2048] (batch, sequence) or flattened as [8192]; the model width is 2048 and the hidden
  width 5504, padded with 128 zero columns to 5632 where tokens are flattened. A weight matrix [out, in] is cut into
  groups of 128 consecutive input columns: [5504, 2048] into [5504, 16, 128] and [2048, 5504] into [2048, 43, 128].

  * the activation chain along the feature axis reads, at a token and a feature, the entry of that token's row on the
    row's own grid (`aqRow`);
  * the weight chain, applied to the grouped matrix and regrouped, keeps real entries real.
-/
import proofs.«173558_j15058155339839_2_alg».proof.Proof.LibQuantChains
import proofs.«173558_j15058155339839_2_alg».proof.Proof.MlpMath

noncomputable section

namespace Cert.Mlp.Chains

open Idealize.ShloMosaic Idealize.ShloMosaic.ValueIdx Cert.Mlp Cert.Lib.QuantChains

/-! ## Shapes -/
abbrev T3 : Shape := ⟨3, ![4, 2048, 2048]⟩
abbrev H3 : Shape := ⟨3, ![4, 2048, 5504]⟩
abbrev R3 : Shape := ⟨2, ![4, 2048]⟩
abbrev K3 : Shape := ⟨3, ![4, 2048, 1]⟩
abbrev T2 : Shape := ⟨2, ![8192, 2048]⟩
abbrev H2 : Shape := ⟨2, ![8192, 5632]⟩
abbrev R2 : Shape := ⟨1, ![8192]⟩
abbrev K2 : Shape := ⟨2, ![8192, 1]⟩
abbrev WA : Shape := ⟨2, ![5504, 2048]⟩
abbrev WA3 : Shape := ⟨3, ![5504, 16, 128]⟩
abbrev WAr : Shape := ⟨2, ![5504, 16]⟩
abbrev WAk : Shape := ⟨3, ![5504, 16, 1]⟩
abbrev WD : Shape := ⟨2, ![2048, 5504]⟩
abbrev WD3 : Shape := ⟨3, ![2048, 43, 128]⟩
abbrev WDr : Shape := ⟨2, ![2048, 43]⟩
abbrev WDk : Shape := ⟨3, ![2048, 43, 1]⟩

/-! ## The side conditions of the layout operations at these shapes -/
theorem hS0 : 0 < S0.numel := by decide
theorem rt_T3 : T3.ReducesTo [2] R3 := by decide
theorem rt_H3 : H3.ReducesTo [2] R3 := by decide
theorem b_R3_K3 : R3.BroadcastsInDim K3 (![0, 1] : Fin 2 → Fin K3.rank) := by decide
theorem b_K3_T3 : K3.BroadcastsInDim T3 (![0, 1, 2] : Fin 3 → Fin T3.rank) := by decide
theorem b_K3_H3 : K3.BroadcastsInDim H3 (![0, 1, 2] : Fin 3 → Fin H3.rank) := by decide
theorem b_S0_K3 : S0.BroadcastsInDim K3 (![] : Fin 0 → Fin K3.rank) := by decide
theorem b_S0_T3 : S0.BroadcastsInDim T3 (![] : Fin 0 → Fin T3.rank) := by decide
theorem b_S0_H3 : S0.BroadcastsInDim H3 (![] : Fin 0 → Fin H3.rank) := by decide
theorem rt_T2 : T2.ReducesTo [1] R2 := by decide
theorem rt_H2 : H2.ReducesTo [1] R2 := by decide
theorem b_R2_K2 : R2.BroadcastsInDim K2 (![0] : Fin 1 → Fin K2.rank) := by decide
theorem b_K2_T2 : K2.BroadcastsInDim T2 (![0, 1] : Fin 2 → Fin T2.rank) := by decide
theorem b_K2_H2 : K2.BroadcastsInDim H2 (![0, 1] : Fin 2 → Fin H2.rank) := by decide
theorem b_S0_K2 : S0.BroadcastsInDim K2 (![] : Fin 0 → Fin K2.rank) := by decide
theorem b_S0_T2 : S0.BroadcastsInDim T2 (![] : Fin 0 → Fin T2.rank) := by decide
theorem b_S0_H2 : S0.BroadcastsInDim H2 (![] : Fin 0 → Fin H2.rank) := by decide
theorem rt_WA3 : WA3.ReducesTo [2] WAr := by decide
theorem b_WAr_WAk : WAr.BroadcastsInDim WAk (![0, 1] : Fin 2 → Fin WAk.rank) := by decide
theorem b_WAk_WA3 : WAk.BroadcastsInDim WA3 (![0, 1, 2] : Fin 3 → Fin WA3.rank) := by decide
theorem b_S0_WAk : S0.BroadcastsInDim WAk (![] : Fin 0 → Fin WAk.rank) := by decide
theorem b_S0_WA3 : S0.BroadcastsInDim WA3 (![] : Fin 0 → Fin WA3.rank) := by decide
theorem sc_WA_WA3 : WA.ShapeCasts WA3 := by decide
theorem sc_WA3_WA : WA3.ShapeCasts WA := by decide
theorem rt_WD3 : WD3.ReducesTo [2] WDr := by decide
theorem b_WDr_WDk : WDr.BroadcastsInDim WDk (![0, 1] : Fin 2 → Fin WDk.rank) := by decide
theorem b_WDk_WD3 : WDk.BroadcastsInDim WD3 (![0, 1, 2] : Fin 3 → Fin WD3.rank) := by decide
theorem b_S0_WDk : S0.BroadcastsInDim WDk (![] : Fin 0 → Fin WDk.rank) := by decide
theorem b_S0_WD3 : S0.BroadcastsInDim WD3 (![] : Fin 0 → Fin WD3.rank) := by decide
theorem sc_WD_WD3 : WD.ShapeCasts WD3 := by decide
theorem sc_WD3_WD : WD3.ShapeCasts WD := by decide

/-! ## The chains at these shapes -/

/-- Activations [4, 2048, 2048] quantized along the features. -/
def aqTok3 (x : FVec Ideal T3 .f32) : FVec Ideal T3 .f32 :=
  actQuant rt_T3 hS0 ![0, 1] b_R3_K3 ![0, 1, 2] b_K3_T3 b_S0_K3 b_S0_T3 x
/-- Hidden activations [4, 2048, 5504] quantized along the hidden features. -/
def aqHid3 (h : FVec Ideal H3 .f32) : FVec Ideal H3 .f32 :=
  actQuant rt_H3 hS0 ![0, 1] b_R3_K3 ![0, 1, 2] b_K3_H3 b_S0_K3 b_S0_H3 h
/-- Activations [8192, 2048] quantized along the features. -/
def aqTok2 (x : FVec Ideal T2 .f32) : FVec Ideal T2 .f32 :=
  actQuant rt_T2 hS0 ![0] b_R2_K2 ![0, 1] b_K2_T2 b_S0_K2 b_S0_T2 x
/-- Padded hidden activations [8192, 5632] quantized along the hidden features. -/
def aqHid2 (h : FVec Ideal H2 .f32) : FVec Ideal H2 .f32 :=
  actQuant rt_H2 hS0 ![0] b_R2_K2 ![0, 1] b_K2_H2 b_S0_K2 b_S0_H2 h
/-- A [5504, 2048] weight matrix on its ternary grids, group by group. -/
def wqGU (w : FVec Ideal WA .f32) : FVec Ideal WA .f32 :=
  shapeCast WA (wQuant rt_WA3 hS0 ![0, 1] b_WAr_WAk ![0, 1, 2] b_WAk_WA3 b_S0_WAk b_S0_WA3 (shapeCast WA3 w sc_WA_WA3)) sc_WA3_WA
/-- A [2048, 5504] weight matrix on its ternary grids, group by group. -/
def wqD (w : FVec Ideal WD .f32) : FVec Ideal WD .f32 :=
  shapeCast WD (wQuant rt_WD3 hS0 ![0, 1] b_WDr_WDk ![0, 1, 2] b_WDk_WD3 b_S0_WDk b_S0_WD3 (shapeCast WD3 w sc_WD_WD3)) sc_WD3_WD

/-! ## Read at coordinates -/

/-- Over a rank-2 index, the lifted index with the last coordinate inserted is the rank-3 index of the three coordinates. -/
theorem lift3 {n0 n1 n2 : Nat} (hr : (⟨3, ![n0, n1, n2]⟩ : Shape).Reduces [2] ⟨2, ![n0, n1]⟩)
    (b : Fin n0) (s : Fin n1) (t : Fin n2) : hr.lift (ix2 b s) t = ix3 b s t := by
  funext c
  match c with
  | ⟨0, _⟩ => rfl
  | ⟨1, _⟩ => rfl
  | ⟨2, _⟩ => rfl

/-- Over a rank-1 index, the lifted index with the last coordinate inserted is the rank-2 index of the two coordinates. -/
theorem lift2 {n0 n1 : Nat} (hr : (⟨2, ![n0, n1]⟩ : Shape).Reduces [1] ⟨1, ![n0]⟩)
    (r : Fin n0) (t : Fin n1) : hr.lift (ix1 r) t = ix2 r t := by
  funext c
  match c with
  | ⟨0, _⟩ => rfl
  | ⟨1, _⟩ => rfl

theorem aqTok3_apply (x : FVec Ideal T3 .f32) (b : Fin 4) (s : Fin 2048) (k : Fin 2048) :
    aqTok3 x (ix3 b s k) = aqRow (fun t : Fin 2048 => x (ix3 b s t)) k := by
  have hr : T3.Reduces [2] R3 := by decide
  refine (actQuant_apply rt_T3 hr hS0 ![0, 1] b_R3_K3 ![0, 1, 2] b_K3_T3 b_S0_K3 b_S0_T3 x (ix3 b s k)
    (ix3 b s (0 : Fin 1)) ?_ (ix2 b s) ?_).trans ?_
  · intro e
    match e with
    | ⟨0, _⟩ => rfl
    | ⟨1, _⟩ => rfl
    | ⟨2, _⟩ => rfl
  · intro e
    match e with
    | ⟨0, _⟩ => rfl
    | ⟨1, _⟩ => rfl
  · have hl : (fun t : Fin 2048 => absE (x (hr.lift (ix2 b s) t))) = fun t : Fin 2048 => absE (x (ix3 b s t)) :=
      funext fun t => congrArg (fun j => absE (x j)) (lift3 hr b s t)
    exact congrArg (fun g : Fin 2048 → EReal =>
      actQ (actScale ((Finset.univ : Finset (Fin 2048)).fold max ⊥ g)) (x (ix3 b s k))) hl

theorem aqHid3_apply (h : FVec Ideal H3 .f32) (b : Fin 4) (s : Fin 2048) (k : Fin 5504) :
    aqHid3 h (ix3 b s k) = aqRow (fun t : Fin 5504 => h (ix3 b s t)) k := by
  have hr : H3.Reduces [2] R3 := by decide
  refine (actQuant_apply rt_H3 hr hS0 ![0, 1] b_R3_K3 ![0, 1, 2] b_K3_H3 b_S0_K3 b_S0_H3 h (ix3 b s k)
    (ix3 b s (0 : Fin 1)) ?_ (ix2 b s) ?_).trans ?_
  · intro e
    match e with
    | ⟨0, _⟩ => rfl
    | ⟨1, _⟩ => rfl
    | ⟨2, _⟩ => rfl
  · intro e
    match e with
    | ⟨0, _⟩ => rfl
    | ⟨1, _⟩ => rfl
  · have hl : (fun t : Fin 5504 => absE (h (hr.lift (ix2 b s) t))) = fun t : Fin 5504 => absE (h (ix3 b s t)) :=
      funext fun t => congrArg (fun j => absE (h j)) (lift3 hr b s t)
    exact congrArg (fun g : Fin 5504 → EReal =>
      actQ (actScale ((Finset.univ : Finset (Fin 5504)).fold max ⊥ g)) (h (ix3 b s k))) hl

theorem aqTok2_apply (x : FVec Ideal T2 .f32) (r : Fin 8192) (k : Fin 2048) :
    aqTok2 x (ix2 r k) = aqRow (fun t : Fin 2048 => x (ix2 r t)) k := by
  have hr : T2.Reduces [1] R2 := by decide
  refine (actQuant_apply rt_T2 hr hS0 ![0] b_R2_K2 ![0, 1] b_K2_T2 b_S0_K2 b_S0_T2 x (ix2 r k)
    (ix2 r (0 : Fin 1)) ?_ (ix1 r) ?_).trans ?_
  · intro e
    match e with
    | ⟨0, _⟩ => rfl
    | ⟨1, _⟩ => rfl
  · intro e
    match e with
    | ⟨0, _⟩ => rfl
  · have hl : (fun t : Fin 2048 => absE (x (hr.lift (ix1 r) t))) = fun t : Fin 2048 => absE (x (ix2 r t)) :=
      funext fun t => congrArg (fun j => absE (x j)) (lift2 hr r t)
    exact congrArg (fun g : Fin 2048 → EReal =>
      actQ (actScale ((Finset.univ : Finset (Fin 2048)).fold max ⊥ g)) (x (ix2 r k))) hl

theorem aqHid2_apply (h : FVec Ideal H2 .f32) (r : Fin 8192) (k : Fin 5632) :
    aqHid2 h (ix2 r k) = aqRow (fun t : Fin 5632 => h (ix2 r t)) k := by
  have hr : H2.Reduces [1] R2 := by decide
  refine (actQuant_apply rt_H2 hr hS0 ![0] b_R2_K2 ![0, 1] b_K2_H2 b_S0_K2 b_S0_H2 h (ix2 r k)
    (ix2 r (0 : Fin 1)) ?_ (ix1 r) ?_).trans ?_
  · intro e
    match e with
    | ⟨0, _⟩ => rfl
    | ⟨1, _⟩ => rfl
  · intro e
    match e with
    | ⟨0, _⟩ => rfl
  · have hl : (fun t : Fin 5632 => absE (h (hr.lift (ix1 r) t))) = fun t : Fin 5632 => absE (h (ix2 r t)) :=
      funext fun t => congrArg (fun j => absE (h j)) (lift2 hr r t)
    exact congrArg (fun g : Fin 5632 → EReal =>
      actQ (actScale ((Finset.univ : Finset (Fin 5632)).fold max ⊥ g)) (h (ix2 r k))) hl

/-- Real weights stay real through the ternary grid: the group's scale is a positive real. -/
theorem isR_wqGU (w : FVec Ideal WA .f32) (hw : ∀ i, IsR (w i)) (i : WA.Idx) : IsR (wqGU w i) := by
  have hr : WA3.Reduces [2] WAr := by decide
  -- the regrouped matrix has the entries of the matrix, so they are real
  have hw' : ∀ j : WA3.Idx, IsR (shapeCast WA3 w sc_WA_WA3 j) := fun j => hw _
  -- an entry of the result is an entry of the grouped matrix on its grid
  show IsR (wQuant rt_WA3 hS0 ![0, 1] b_WAr_WAk ![0, 1, 2] b_WAk_WA3 b_S0_WAk b_S0_WA3 (shapeCast WA3 w sc_WA_WA3)
    (Shape.reshapeEquiv sc_WA3_WA i))
  generalize Shape.reshapeEquiv sc_WA3_WA i = j
  obtain ⟨a, g, c, rfl⟩ : ∃ (a : Fin 5504) (g : Fin 16) (c : Fin 128), j = ix3 a g c := ⟨j 0, j 1, j 2, eq_ix3 j⟩
  rw [wQuant_apply rt_WA3 hr hS0 ![0, 1] b_WAr_WAk ![0, 1, 2] b_WAk_WA3 b_S0_WAk b_S0_WA3 _ (ix3 a g c)
    (ix3 a g (0 : Fin 1)) (fun e => match e with | ⟨0, _⟩ => rfl | ⟨1, _⟩ => rfl | ⟨2, _⟩ => rfl)
    (ix2 a g) (fun e => match e with | ⟨0, _⟩ => rfl | ⟨1, _⟩ => rfl), ofBits_zero]
  refine isR_wQ (isR_add isR_zero (isR_sum _ fun t => isR_absE (hw' _))) ?_ (hw' _)
  exact add_nonneg le_rfl (Finset.sum_nonneg fun t _ => absE_nonneg _)

theorem isR_wqD (w : FVec Ideal WD .f32) (hw : ∀ i, IsR (w i)) (i : WD.Idx) : IsR (wqD w i) := by
  have hr : WD3.Reduces [2] WDr := by decide
  -- the regrouped matrix has the entries of the matrix, so they are real
  have hw' : ∀ j : WD3.Idx, IsR (shapeCast WD3 w sc_WD_WD3 j) := fun j => hw _
  -- an entry of the result is an entry of the grouped matrix on its grid
  show IsR (wQuant rt_WD3 hS0 ![0, 1] b_WDr_WDk ![0, 1, 2] b_WDk_WD3 b_S0_WDk b_S0_WD3 (shapeCast WD3 w sc_WD_WD3)
    (Shape.reshapeEquiv sc_WD3_WD i))
  generalize Shape.reshapeEquiv sc_WD3_WD i = j
  obtain ⟨a, g, c, rfl⟩ : ∃ (a : Fin 2048) (g : Fin 43) (c : Fin 128), j = ix3 a g c := ⟨j 0, j 1, j 2, eq_ix3 j⟩
  rw [wQuant_apply rt_WD3 hr hS0 ![0, 1] b_WDr_WDk ![0, 1, 2] b_WDk_WD3 b_S0_WDk b_S0_WD3 _ (ix3 a g c)
    (ix3 a g (0 : Fin 1)) (fun e => match e with | ⟨0, _⟩ => rfl | ⟨1, _⟩ => rfl | ⟨2, _⟩ => rfl)
    (ix2 a g) (fun e => match e with | ⟨0, _⟩ => rfl | ⟨1, _⟩ => rfl), ofBits_zero]
  refine isR_wQ (isR_add isR_zero (isR_sum _ fun t => isR_absE (hw' _))) ?_ (hw' _)
  exact add_nonneg le_rfl (Finset.sum_nonneg fun t _ => absE_nonneg _)

end Cert.Mlp.Chains

end
-- ==== Proof.KSpec.lean ====
/-
  What the kernel program computes, as ONE function of its four argument arrays, at the exact values.

  Tokens are flattened to [8192, 2048]. The three weight matrices go through the ternary chain and are then widened with
  zeros: the gate and up matrices [5504, 2048] by 128 zero ROWS to [5632, 2048], the down matrix [2048, 5504] by 128 zero
  COLUMNS to [2048, 5632]. The first region multiplies the quantized tokens with the gate and the up matrix, row against
  row, and stores `silu gate · up`: the hidden array [8192, 5632]. The hidden array goes through the activation chain along
  its 5632 columns, and the second region multiplies it with the widened down matrix, row against row: [8192, 2048],
  regrouped as [4, 2048, 2048]. A change of float format is the identity at the exact values.
-/
import proofs.«173558_j15058155339839_2_alg».proof.KernelIdeal
import proofs.«173558_j15058155339839_2_alg».proof.Proof.Gen.KernelIdeal
import proofs.«173558_j15058155339839_2_alg».proof.Proof.MlpChains

noncomputable section

namespace Cert.KernelIdeal.Spec

open Idealize.ShloMosaic Idealize.ShloMosaic.ValueIdx Cert.KernelIdeal Cert.KernelIdeal.Gen Cert.Mlp Cert.Mlp.Chains Cert.Lib.QuantChains

/-- The widened gate / up weight shape and the widened down weight shape. -/
abbrev WAP : Shape := ⟨2, ![5632, 2048]⟩
abbrev WDP : Shape := ⟨2, ![2048, 5632]⟩

/-- The tokens, flattened and on their activation grids. -/
def xq (X : FVec Ideal T3 .f32) : FVec Ideal T2 .bf16 :=
  truncf .bf16 (aqTok2 (shapeCast T2 X shapeCasts_S4x2048x2048_S8192x2048)) bitsLt_bf16_f32

/-- The padding value: the integer zero as a float. -/
def zpad : FVec Ideal S_ .bf16 := sitofp (F := Ideal) .bf16 (constantI S_ 32 0#32)

/-- A gate or up matrix on its ternary grids, widened by 128 zero rows. -/
def wpadGU (W : FVec Ideal WA .f32) : FVec Ideal WAP .bf16 :=
  pad S5632x2048 ![0, 0] ![128, 0] ![0, 0] (truncf .bf16 (wqGU W) bitsLt_bf16_f32) zpad pads_S5504x2048_S5632x2048_01280_000 h_S_

/-- The down matrix on its ternary grids, widened by 128 zero columns. -/
def wpadD (W : FVec Ideal WD .f32) : FVec Ideal WDP .bf16 :=
  pad S2048x5632 ![0, 0] ![0, 128] ![0, 0] (truncf .bf16 (wqD W) bitsLt_bf16_f32) zpad pads_S2048x5504_S2048x5632_000_01280 h_S_

/-- The first region's array: entry (r, k) gates the k-th up product of token r by its k-th gate product. -/
def hid2 (x : FVec Ideal T2 .bf16) (wg wu : FVec Ideal WAP .bf16) : FVec Ideal H2 .bf16 := fun i =>
  silu (dotRow (fun j : Fin 2048 => x (ix2 (i 0) j)) (fun j : Fin 2048 => wg (ix2 (i 1) j)))
    * dotRow (fun j : Fin 2048 => x (ix2 (i 0) j)) (fun j : Fin 2048 => wu (ix2 (i 1) j))

/-- The hidden array on its activation grids. -/
def hq (H : FVec Ideal H2 .bf16) : FVec Ideal H2 .bf16 :=
  truncf .bf16 (aqHid2 (extf .f32 H bitsLt_bf16_f32)) bitsLt_bf16_f32

/-- The second region's array: entry (r, n) is token r's quantized hidden row against row n of the down matrix. -/
def out2 (h : FVec Ideal H2 .bf16) (wd : FVec Ideal WDP .bf16) : FVec Ideal T2 .f32 := fun i =>
  dotRow (fun k : Fin 5632 => h (ix2 (i 0) k)) (fun k : Fin 5632 => wd (ix2 (i 1) k))

/-- The kernel program's result [4, 2048, 2048]. -/
def kernTerm (X : FVec Ideal T3 .f32) (Wg Wu : FVec Ideal WA .f32) (Wd : FVec Ideal WD .f32) : FVec Ideal T3 .f32 :=
  shapeCast T3 (out2 (hq (hid2 (xq X) (wpadGU Wg) (wpadGU Wu))) (wpadD Wd)) shapeCasts_S8192x2048_S4x2048x2048

end Cert.KernelIdeal.Spec

end
-- ==== Proof.KHost.lean ====
/-
  The kernel program's stretches of host operations, read as functions of the buffers they start from.

  Each statement is about an ARBITRARY assignment `V` of contents to the buffers: after the stretches named, the buffer
  named holds the stated function of what `V` gives the buffers it was computed from, and a buffer no operation of
  the stretches writes holds what `V` gives it.

  * before the first region: the flattened tokens on their activation grids;
  * between the regions: the hidden array on its activation grids, the widened down matrix untouched;
  * after the second region: the result regrouped as [4, 2048, 2048].

  The clamps and the roundings are printed as operations of small called functions, whose operands pass through a change
  of presentation of the buffer's type that is the identity. Each such stretch is first restated with its operations
  written on the buffers directly — the same list of operations — so that what a buffer holds afterwards is the plain
  composition of the operations.
-/
import proofs.«173558_j15058155339839_2_alg».proof.Proof.Gen.KernelIdeal.Launch
import proofs.«173558_j15058155339839_2_alg».proof.Proof.KSpec
import Idealize.ShloMosaic.Lib.StableHlo.Run

set_option maxRecDepth 16384

noncomputable section

namespace Cert.KernelIdeal.HandRun

open Idealize.ShloMosaic Idealize.ShloMosaic.TcCoe Idealize.SL.Sem Idealize.ShloMosaic.StableHlo
open Cert.KernelIdeal Cert.KernelIdeal.Gen Cert.KernelIdeal.Spec Cert.Mlp.Chains

/-! ## The called functions' stretches, on the buffers directly -/

section
variable {F : FTy → Type} [FloatOps F]

/-- `max lo x`: the lower clamp, its operations written on the buffers directly. -/
abbrev tokClipLo : List (HloOp τ sig (Elt F)) :=
  [ StableHlo.unary main_cst_17 main_call9_v0 (id : (⟨S_, .f32⟩ : BufTy).Contents (Elt F) → (⟨S_, .f32⟩ : BufTy).Contents (Elt F)),
    StableHlo.unary main_call9_v0 main_call9_v1 (broadcastInDim S8192x1 ![] bcast_S_S8192x1 : (⟨S_, .f32⟩ : BufTy).Contents (Elt F) → (⟨S8192x1, .f32⟩ : BufTy).Contents (Elt F)),
    StableHlo.binary main_call9_v1 main_v54 main_v55 (maximumf : (⟨S8192x1, .f32⟩ : BufTy).Contents (Elt F) → (⟨S8192x1, .f32⟩ : BufTy).Contents (Elt F) → (⟨S8192x1, .f32⟩ : BufTy).Contents (Elt F)) ]
theorem tokClipLo_eq : hostOps0_16 (F := F) = tokClipLo := rfl
/-- Rounding to nearest even, written on the buffers directly. -/
abbrev tokRound : List (HloOp τ sig (Elt F)) :=
  [ StableHlo.unary main_v59 main_v60 (Host.roundeven : (⟨S8192x2048, .f32⟩ : BufTy).Contents (Elt F) → (⟨S8192x2048, .f32⟩ : BufTy).Contents (Elt F)) ]
theorem tokRound_eq : hostOps0_18 (F := F) = tokRound := rfl
/-- `min hi (max lo x)`: the two-sided clamp, its operations written on the buffers directly. -/
abbrev tokClip : List (HloOp τ sig (Elt F)) :=
  [ StableHlo.unary main_cst_19 main_call11_v0 (id : (⟨S_, .f32⟩ : BufTy).Contents (Elt F) → (⟨S_, .f32⟩ : BufTy).Contents (Elt F)),
    StableHlo.unary main_call11_v0 main_call11_v1 (broadcastInDim S8192x2048 ![] bcast_S_S8192x2048 : (⟨S_, .f32⟩ : BufTy).Contents (Elt F) → (⟨S8192x2048, .f32⟩ : BufTy).Contents (Elt F)),
    StableHlo.binary main_call11_v1 main_v60 main_call11_v2 (maximumf : (⟨S8192x2048, .f32⟩ : BufTy).Contents (Elt F) → (⟨S8192x2048, .f32⟩ : BufTy).Contents (Elt F) → (⟨S8192x2048, .f32⟩ : BufTy).Contents (Elt F)),
    StableHlo.unary main_cst_20 main_call11_v3 (id : (⟨S_, .f32⟩ : BufTy).Contents (Elt F) → (⟨S_, .f32⟩ : BufTy).Contents (Elt F)),
    StableHlo.unary main_call11_v3 main_call11_v4 (broadcastInDim S8192x2048 ![] bcast_S_S8192x2048 : (⟨S_, .f32⟩ : BufTy).Contents (Elt F) → (⟨S8192x2048, .f32⟩ : BufTy).Contents (Elt F)),
    StableHlo.binary main_call11_v4 main_call11_v2 main_v61 (minimumf : (⟨S8192x2048, .f32⟩ : BufTy).Contents (Elt F) → (⟨S8192x2048, .f32⟩ : BufTy).Contents (Elt F) → (⟨S8192x2048, .f32⟩ : BufTy).Contents (Elt F)) ]
theorem tokClip_eq : hostOps0_20 (F := F) = tokClip := rfl
/-- `max lo x`: the lower clamp, its operations written on the buffers directly. -/
abbrev hidClipLo : List (HloOp τ sig (Elt F)) :=
  [ StableHlo.unary main_cst_22 main_call12_v0 (id : (⟨S_, .f32⟩ : BufTy).Contents (Elt F) → (⟨S_, .f32⟩ : BufTy).Contents (Elt F)),
    StableHlo.unary main_call12_v0 main_call12_v1 (broadcastInDim S8192x1 ![] bcast_S_S8192x1 : (⟨S_, .f32⟩ : BufTy).Contents (Elt F) → (⟨S8192x1, .f32⟩ : BufTy).Contents (Elt F)),
    StableHlo.binary main_call12_v1 main_v69 main_v70 (maximumf : (⟨S8192x1, .f32⟩ : BufTy).Contents (Elt F) → (⟨S8192x1, .f32⟩ : BufTy).Contents (Elt F) → (⟨S8192x1, .f32⟩ : BufTy).Contents (Elt F)) ]
theorem hidClipLo_eq : hostOps1_1 (F := F) = hidClipLo := rfl
/-- Rounding to nearest even, written on the buffers directly. -/
abbrev hidRound : List (HloOp τ sig (Elt F)) :=
  [ StableHlo.unary main_v74 main_v75 (Host.roundeven : (⟨S8192x5632, .f32⟩ : BufTy).Contents (Elt F) → (⟨S8192x5632, .f32⟩ : BufTy).Contents (Elt F)) ]
theorem hidRound_eq : hostOps1_3 (F := F) = hidRound := rfl
/-- `min hi (max lo x)`: the two-sided clamp, its operations written on the buffers directly. -/
abbrev hidClip : List (HloOp τ sig (Elt F)) :=
  [ StableHlo.unary main_cst_24 main_call14_v0 (id : (⟨S_, .f32⟩ : BufTy).Contents (Elt F) → (⟨S_, .f32⟩ : BufTy).Contents (Elt F)),
    StableHlo.unary main_call14_v0 main_call14_v1 (broadcastInDim S8192x5632 ![] bcast_S_S8192x5632 : (⟨S_, .f32⟩ : BufTy).Contents (Elt F) → (⟨S8192x5632, .f32⟩ : BufTy).Contents (Elt F)),
    StableHlo.binary main_call14_v1 main_v75 main_call14_v2 (maximumf : (⟨S8192x5632, .f32⟩ : BufTy).Contents (Elt F) → (⟨S8192x5632, .f32⟩ : BufTy).Contents (Elt F) → (⟨S8192x5632, .f32⟩ : BufTy).Contents (Elt F)),
    StableHlo.unary main_cst_25 main_call14_v3 (id : (⟨S_, .f32⟩ : BufTy).Contents (Elt F) → (⟨S_, .f32⟩ : BufTy).Contents (Elt F)),
    StableHlo.unary main_call14_v3 main_call14_v4 (broadcastInDim S8192x5632 ![] bcast_S_S8192x5632 : (⟨S_, .f32⟩ : BufTy).Contents (Elt F) → (⟨S8192x5632, .f32⟩ : BufTy).Contents (Elt F)),
    StableHlo.binary main_call14_v4 main_call14_v2 main_v76 (minimumf : (⟨S8192x5632, .f32⟩ : BufTy).Contents (Elt F) → (⟨S8192x5632, .f32⟩ : BufTy).Contents (Elt F) → (⟨S8192x5632, .f32⟩ : BufTy).Contents (Elt F)) ]
theorem hidClip_eq : hostOps1_5 (F := F) = hidClip := rfl

end

variable (V : Valuation τ sig (Elt Ideal))

/-- The stretches before the first region that flatten and quantize the tokens. -/
abbrev tokensOf : Valuation τ sig (Elt Ideal) :=
  after hostOps0_21 (after hostOps0_20 (after hostOps0_19 (after hostOps0_18 (after hostOps0_17 (after hostOps0_16
    (after hostOps0_15 V))))))

/-- The stretches between the regions. -/
abbrev hiddenOf : Valuation τ sig (Elt Ideal) :=
  after hostOps1_6 (after hostOps1_5 (after hostOps1_4 (after hostOps1_3 (after hostOps1_2 (after hostOps1_1
    (after hostOps1 V))))))

theorem tokensOf_eq : tokensOf V = after hostOps0_21 (after tokClip (after hostOps0_19 (after tokRound (after hostOps0_17
    (after tokClipLo (after hostOps0_15 V)))))) := by
  unfold tokensOf; rw [tokClip_eq, tokRound_eq, tokClipLo_eq]

theorem hiddenOf_eq : hiddenOf V = after hostOps1_6 (after hidClip (after hostOps1_4 (after hidRound (after hostOps1_2
    (after hidClipLo (after hostOps1 V)))))) := by
  unfold hiddenOf; rw [hidClip_eq, hidRound_eq, hidClipLo_eq]

theorem tail_v81 : after (hostOps2 (F := Ideal)) V (Proc.devRef .tc main_v81)
    = shapeCast T3 (V (Proc.devRef .tc main_v80)) shapeCasts_S8192x2048_S4x2048x2048 := by
  simp only [hostOps2]
  after_results_simp
  rfl

-- reading a buffer's shape off its type walks the table of buffer types to the buffer's position
set_option maxRecDepth 65536 in
theorem hidden_v79 : hiddenOf V (Proc.devRef .tc main_v79) = hq (V (Proc.devRef .tc main_v65)) := by
  rw [hiddenOf_eq]
  conv_lhs =>
    simp only [hostOps1, hidClipLo, hostOps1_2, hidRound, hostOps1_4, hidClip, hostOps1_6]
    simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

theorem hidden_v50 : hiddenOf V (Proc.devRef .tc main_v50) = V (Proc.devRef .tc main_v50) := by
  simp only [hiddenOf, hostOps1, hostOps1_1, hostOps1_2, hostOps1_3, hostOps1_4, hostOps1_5, hostOps1_6]
  after_results_simp

-- reading a buffer's shape off its type walks the table of buffer types to the buffer's position
set_option maxRecDepth 65536 in
theorem tokens_v64 : tokensOf V (Proc.devRef .tc main_v64) = xq (V (Proc.devRef .tc main_arg0)) := by
  rw [tokensOf_eq]
  conv_lhs =>
    simp only [hostOps0_15, tokClipLo, hostOps0_17, tokRound, hostOps0_19, tokClip, hostOps0_21]
    simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

theorem tokens_v48 : tokensOf V (Proc.devRef .tc main_v48) = V (Proc.devRef .tc main_v48) := by
  simp only [tokensOf, hostOps0_15, hostOps0_16, hostOps0_17, hostOps0_18, hostOps0_19, hostOps0_20, hostOps0_21]
  after_results_simp

theorem tokens_v49 : tokensOf V (Proc.devRef .tc main_v49) = V (Proc.devRef .tc main_v49) := by
  simp only [tokensOf, hostOps0_15, hostOps0_16, hostOps0_17, hostOps0_18, hostOps0_19, hostOps0_20, hostOps0_21]
  after_results_simp

theorem tokens_v50 : tokensOf V (Proc.devRef .tc main_v50) = V (Proc.devRef .tc main_v50) := by
  simp only [tokensOf, hostOps0_15, hostOps0_16, hostOps0_17, hostOps0_18, hostOps0_19, hostOps0_20, hostOps0_21]
  after_results_simp

end Cert.KernelIdeal.HandRun

end
-- ==== Proof.KHostW.lean ====
/-
  The kernel program's first fifteen stretches of host operations: each weight matrix goes through the ternary chain and is
  widened with zeros. For an ARBITRARY assignment `V` of contents to the buffers, after those stretches the three
  widened matrices are the stated functions of what `V` gives the three weight arguments, and the token argument holds
  what `V` gives it.
-/
import proofs.«173558_j15058155339839_2_alg».proof.Proof.Gen.KernelIdeal.Launch
import proofs.«173558_j15058155339839_2_alg».proof.Proof.KSpec
import Idealize.ShloMosaic.Lib.StableHlo.Run

set_option maxRecDepth 16384

noncomputable section

namespace Cert.KernelIdeal.HandRun

open Idealize.ShloMosaic Idealize.ShloMosaic.TcCoe Idealize.SL.Sem Idealize.ShloMosaic.StableHlo
open Cert.KernelIdeal Cert.KernelIdeal.Gen Cert.KernelIdeal.Spec Cert.Mlp.Chains

variable (V : Valuation τ sig (Elt Ideal))

/-- The stretches before the first region that quantize and widen the three weight matrices. -/
abbrev weightsOf : Valuation τ sig (Elt Ideal) :=
  after hostOps0_14 (after hostOps0_13 (after hostOps0_12 (after hostOps0_11 (after hostOps0_10 (after hostOps0_9
    (after hostOps0_8 (after hostOps0_7 (after hostOps0_6 (after hostOps0_5 (after hostOps0_4 (after hostOps0_3
      (after hostOps0_2 (after hostOps0_1 (after hostOps0 V))))))))))))))

theorem weights_v48 : weightsOf V (Proc.devRef .tc main_v48) = wpadGU (V (Proc.devRef .tc main_arg1)) := by
  simp only [weightsOf, hostOps0, hostOps0_1, hostOps0_2, hostOps0_3, hostOps0_4, hostOps0_5, hostOps0_6, hostOps0_7,
    hostOps0_8, hostOps0_9, hostOps0_10, hostOps0_11, hostOps0_12, hostOps0_13, hostOps0_14]
  after_results_simp
  rfl

theorem weights_v49 : weightsOf V (Proc.devRef .tc main_v49) = wpadGU (V (Proc.devRef .tc main_arg2)) := by
  simp only [weightsOf, hostOps0, hostOps0_1, hostOps0_2, hostOps0_3, hostOps0_4, hostOps0_5, hostOps0_6, hostOps0_7,
    hostOps0_8, hostOps0_9, hostOps0_10, hostOps0_11, hostOps0_12, hostOps0_13, hostOps0_14]
  after_results_simp
  rfl

theorem weights_v50 : weightsOf V (Proc.devRef .tc main_v50) = wpadD (V (Proc.devRef .tc main_arg3)) := by
  simp only [weightsOf, hostOps0, hostOps0_1, hostOps0_2, hostOps0_3, hostOps0_4, hostOps0_5, hostOps0_6, hostOps0_7,
    hostOps0_8, hostOps0_9, hostOps0_10, hostOps0_11, hostOps0_12, hostOps0_13, hostOps0_14]
  after_results_simp
  rfl

theorem weights_arg0 : weightsOf V (Proc.devRef .tc main_arg0) = V (Proc.devRef .tc main_arg0) := by
  simp only [weightsOf, hostOps0, hostOps0_1, hostOps0_2, hostOps0_3, hostOps0_4, hostOps0_5, hostOps0_6, hostOps0_7,
    hostOps0_8, hostOps0_9, hostOps0_10, hostOps0_11, hostOps0_12, hostOps0_13, hostOps0_14]
  after_results_simp

end Cert.KernelIdeal.HandRun

end
-- ==== Proof.KRegion0Pay.lean ====
/-
  The first region's body at one entry: the block it stores is, entry by entry, the gate of the sum of products of a row
  of the token block with a row of the gate block, times the sum of products of the same token row with a row of the up
  block.
-/
import proofs.«173558_j15058155339839_2_alg».proof.Proof.Gen.KernelIdeal.Frame
import proofs.«173558_j15058155339839_2_alg».proof.Proof.KSpec
import Idealize.ShloMosaic.Lib.Pipeline.Value
import Idealize.ShloMosaic.Lib.ValueIdx
import Idealize.ShloMosaic.PureOps.Ideal.Laws

noncomputable section

namespace Cert.KernelIdeal.HandRun

open Idealize.ShloMosaic Idealize.ShloMosaic.ValueIdx Cert.KernelIdeal Cert.KernelIdeal.Gen Cert.KernelIdeal.Spec Cert.Mlp
  Cert.Mlp.Chains

theorem hzA : (![0, 0] : Fin 2 → Nat) = fun _ => 0 := funext fun a => by fin_cases a <;> rfl

/-! ### The coordinates of the operand indices of the block contraction [1024, 2048] × [512, 2048] → [1024, 512] -/

theorem lhsA_0 (i : S1024x512.Idx) (q : dot_S1024x2048_S512x2048_S1024x512_1_1_0_0_n_n.contr.Idx) :
    (dot_S1024x2048_S512x2048_S1024x512_1_1_0_0_n_n.lhsIdx i q 0).val = (i 0).val := by
  unfold DotDims.lhsIdx
  rw [dif_neg (show ¬(0 : Fin S1024x2048.rank) ∈ dot_S1024x2048_S512x2048_S1024x512_1_1_0_0_n_n.lhsBatch by decide),
    dif_pos (show (0 : Fin S1024x2048.rank) ∈ dot_S1024x2048_S512x2048_S1024x512_1_1_0_0_n_n.lhsNonContracting by decide)]
  rfl
theorem lhsA_1 (i : S1024x512.Idx) (q : dot_S1024x2048_S512x2048_S1024x512_1_1_0_0_n_n.contr.Idx) :
    (dot_S1024x2048_S512x2048_S1024x512_1_1_0_0_n_n.lhsIdx i q 1).val = (q ⟨0, by decide⟩).val :=
  dot_S1024x2048_S512x2048_S1024x512_1_1_0_0_n_n.lhsIdx_val_of_single rfl i q
theorem rhsA_0 (i : S1024x512.Idx) (q : dot_S1024x2048_S512x2048_S1024x512_1_1_0_0_n_n.contr.Idx) :
    (dot_S1024x2048_S512x2048_S1024x512_1_1_0_0_n_n.rhsIdx i q 0).val = (i 1).val := by
  unfold DotDims.rhsIdx
  rw [dif_neg (show ¬(0 : Fin S512x2048.rank) ∈ dot_S1024x2048_S512x2048_S1024x512_1_1_0_0_n_n.rhsBatch by decide),
    dif_pos (show (0 : Fin S512x2048.rank) ∈ dot_S1024x2048_S512x2048_S1024x512_1_1_0_0_n_n.rhsNonContracting by decide)]
  rfl
theorem rhsA_1 (i : S1024x512.Idx) (q : dot_S1024x2048_S512x2048_S1024x512_1_1_0_0_n_n.contr.Idx) :
    (dot_S1024x2048_S512x2048_S1024x512_1_1_0_0_n_n.rhsIdx i q 1).val = (q ⟨0, by decide⟩).val :=
  dot_S1024x2048_S512x2048_S1024x512_1_1_0_0_n_n.rhsIdx_val_of_single rfl i q

/-- The block product into the zero accumulator, at (p, q): row p of the first block against row q of the second. -/
theorem matmulA_apply (x0 : FVec Ideal S1024x2048 .bf16) (x1 : FVec Ideal S512x2048 .bf16) (p : Fin 1024) (q : Fin 512) :
    FloatOps.matmul dot_S1024x2048_S512x2048_S1024x512_1_1_0_0_n_n none x0 x1 (constant (F := Ideal) S1024x512 .f32 0x00000000#32) (ix2 p q)
      = dotRow (fun k : Fin 2048 => x0 (ix2 p k)) (fun k : Fin 2048 => x1 (ix2 q k)) := by
  rw [Ideal.matmul_constant_zero_apply,
    ← Equiv.sum_comp (contrEquiv1 dot_S1024x2048_S512x2048_S1024x512_1_1_0_0_n_n 2048 rfl rfl).symm]
  unfold dotRow
  refine Finset.sum_congr rfl fun k _ => ?_
  have hk := contrEquiv1_symm_val dot_S1024x2048_S512x2048_S1024x512_1_1_0_0_n_n 2048 rfl rfl k
  have el : dot_S1024x2048_S512x2048_S1024x512_1_1_0_0_n_n.lhsIdx (ix2 p q)
      ((contrEquiv1 dot_S1024x2048_S512x2048_S1024x512_1_1_0_0_n_n 2048 rfl rfl).symm k) = ix2 p k :=
    funext fun a => Fin.ext (by
      match a with
      | ⟨0, _⟩ => exact lhsA_0 _ _
      | ⟨1, _⟩ => exact (lhsA_1 _ _).trans hk)
  have er : dot_S1024x2048_S512x2048_S1024x512_1_1_0_0_n_n.rhsIdx (ix2 p q)
      ((contrEquiv1 dot_S1024x2048_S512x2048_S1024x512_1_1_0_0_n_n 2048 rfl rfl).symm k) = ix2 q k :=
    funext fun a => Fin.ext (by
      match a with
      | ⟨0, _⟩ => exact rhsA_0 _ _
      | ⟨1, _⟩ => exact (rhsA_1 _ _).trans hk)
  rw [el, er]

/-- The logistic function of a vector, at an index. -/
theorem logisticA_apply {s : Shape} {φ : FTy} (v : FVec Ideal s φ) (i : s.Idx) : logistic v i = Ideal.logistic (v i) := rfl

/-- What the body leaves in the output block, at (p, q). -/
theorem out0_3_apply (x0 : Vec Ideal S1024x2048 .bf16) (x1 x2 : Vec Ideal S512x2048 .bf16) (p : Fin 1024) (q : Fin 512) :
    out0_3 (F := Ideal) x0 x1 x2 (ix2 p q)
      = silu (dotRow (fun k : Fin 2048 => x0 (ix2 p k)) (fun k : Fin 2048 => x1 (ix2 q k)))
        * dotRow (fun k : Fin 2048 => x0 (ix2 p k)) (fun k : Fin 2048 => x2 (ix2 q k)) := by
  unfold out0_3
  rw [View.canon_unit_zero hzA]
  simp only [View.ld_unit_zero (S := S1024x2048) hzA, View.ld_unit_zero (S := S512x2048) hzA]
  unfold k0_pay1
  simp only [shapeCast_self]
  rw [truncf_apply, mulf_apply, mulf_apply]
  have eg : matmul dot_S1024x2048_S512x2048_S1024x512_1_1_0_0_n_n none x0 x1 (constant (F := Ideal) S1024x512 .f32 0x00000000#32) (ix2 p q)
      = dotRow (fun k : Fin 2048 => x0 (ix2 p k)) (fun k : Fin 2048 => x1 (ix2 q k)) := matmulA_apply x0 x1 p q
  have eu : matmul dot_S1024x2048_S512x2048_S1024x512_1_1_0_0_n_n none x0 x2 (constant (F := Ideal) S1024x512 .f32 0x00000000#32) (ix2 p q)
      = dotRow (fun k : Fin 2048 => x0 (ix2 p k)) (fun k : Fin 2048 => x2 (ix2 q k)) := matmulA_apply x0 x2 p q
  rw [logisticA_apply, eg, eu]
  rfl

end Cert.KernelIdeal.HandRun

end
-- ==== Proof.KRegion0Arr.lean ====
/-
  The first region's blocks assembled into its array.

  The grid is 8 × 11; point (i, j) reads rows 1024 i … 1024 i + 1023 of the quantized tokens and rows 512 j … 512 j + 511
  of the widened gate and up matrices, and writes the block of the hidden array at rows 1024 i …, columns 512 j …. Entry
  (p, q) of what it writes is the hidden entry of token 1024 i + p at hidden feature 512 j + q, and the 88 blocks tile the
  [8192, 5632] array, so the array ends holding the hidden array of the region's three inputs.
-/
import proofs.«173558_j15058155339839_2_alg».proof.Proof.KRegion0Pay

noncomputable section

namespace Cert.KernelIdeal.HandRun

open Idealize.ShloMosaic Idealize.ShloMosaic.ValueIdx Idealize.ShloMosaic.TcCoe Idealize.SL.Sem
open Cert.KernelIdeal Cert.KernelIdeal.Gen Cert.KernelIdeal.Spec Cert.Mlp Cert.Mlp.Chains
open Idealize.ShloMosaic.Pipeline (Dat)

variable (V : (c : Dev nD) → (b : Ref sig .tc) → Buf (Elt Ideal) ((c : Thread nD τ).loc b))

/-! ### The index maps over the grid -/

/-- The token window moves with the output's rows, the two weight windows with the output's columns, each on its first
    axis only; the output's block indices stay below 8 and 11. -/
theorem idx_facts0 : ∀ t : Fin cfg0.N,
    win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = win0_3.index t (1 : Fin 2)
    ∧ win0_2.index t (1 : Fin 2) = 0
    ∧ win0_3.index t (0 : Fin 2) ≤ 7
    ∧ win0_3.index t (1 : Fin 2) ≤ 10 :=
  (by decide +kernel : ∀ t : Fin grid0.N, _)

/-- Every block of the output is some point's. -/
theorem idx_onto0 : ∀ (q0 : Fin 8) (q1 : Fin 11), ∃ t : Fin cfg0.N, win0_3.index t = ![q0.val, q1.val] :=
  (by decide +kernel : ∀ (q0 : Fin 8) (q1 : Fin 11), ∃ t : Fin grid0.N, win0_3.index t = ![q0.val, q1.val])

/-! ### The input blocks at a point, read off their arrays -/

/-- The token block at a point: row p of the block is row (block row index) · 1024 + p of the tokens. -/
theorem iblk0_0_apply (c : Dev nD) (t : Fin cfg0.N) (p : Fin 1024) (k : Fin 2048) (r : Fin 8192)
    (hr : r.val = win0_3.index t (0 : Fin 2) * 1024 + p.val) :
    (iblk0 V c 0 t : Vec Ideal S1024x2048 .bf16) (ix2 p k) = (V c main_v64 : FVec Ideal T2 .bf16) (ix2 r k) := by
  obtain ⟨e0, e1, -⟩ := idx_facts0 t
  unfold iblk0
  rw [View.read_apply]
  show V c main_v64 (((cfg0.win 0).blk t).view.emb (ix2 p k)) = V c main_v64 (ix2 r k)
  congr 1
  funext a
  apply Fin.ext
  match a with
  | ⟨0, _⟩ => show win0_0.index t (0 : Fin 2) * 1024 + 1 * p.val = r.val; omega
  | ⟨1, _⟩ => show win0_0.index t (1 : Fin 2) * 2048 + 1 * k.val = k.val; omega

/-- The gate block at a point: row q of the block is row (block column index) · 512 + q of the widened gate matrix. -/
theorem iblk0_1_apply (c : Dev nD) (t : Fin cfg0.N) (q : Fin 512) (k : Fin 2048) (u : Fin 5632)
    (hu : u.val = win0_3.index t (1 : Fin 2) * 512 + q.val) :
    (iblk0 V c 1 t : Vec Ideal S512x2048 .bf16) (ix2 q k) = (V c main_v48 : FVec Ideal WAP .bf16) (ix2 u k) := by
  obtain ⟨-, -, e2, e3, -⟩ := idx_facts0 t
  unfold iblk0
  rw [View.read_apply]
  show V c main_v48 (((cfg0.win 1).blk t).view.emb (ix2 q k)) = V c main_v48 (ix2 u k)
  congr 1
  funext a
  apply Fin.ext
  match a with
  | ⟨0, _⟩ => show win0_1.index t (0 : Fin 2) * 512 + 1 * q.val = u.val; omega
  | ⟨1, _⟩ => show win0_1.index t (1 : Fin 2) * 2048 + 1 * k.val = k.val; omega

/-- The up block at a point: row q of the block is row (block column index) · 512 + q of the widened up matrix. -/
theorem iblk0_2_apply (c : Dev nD) (t : Fin cfg0.N) (q : Fin 512) (k : Fin 2048) (u : Fin 5632)
    (hu : u.val = win0_3.index t (1 : Fin 2) * 512 + q.val) :
    (iblk0 V c 2 t : Vec Ideal S512x2048 .bf16) (ix2 q k) = (V c main_v49 : FVec Ideal WAP .bf16) (ix2 u k) := by
  obtain ⟨-, -, -, -, e4, e5, -⟩ := idx_facts0 t
  unfold iblk0
  rw [View.read_apply]
  show V c main_v49 (((cfg0.win 2).blk t).view.emb (ix2 q k)) = V c main_v49 (ix2 u k)
  congr 1
  funext a
  apply Fin.ext
  match a with
  | ⟨0, _⟩ => show win0_2.index t (0 : Fin 2) * 512 + 1 * q.val = u.val; omega
  | ⟨1, _⟩ => show win0_2.index t (1 : Fin 2) * 2048 + 1 * k.val = k.val; omega

/-! ### What a point writes back -/

/-- The hidden array at (r, u), over variables. -/
theorem hid2_ix2 (x : FVec Ideal T2 .bf16) (wg wu : FVec Ideal WAP .bf16) (r : Fin 8192) (u : Fin 5632) :
    hid2 x wg wu (ix2 r u)
      = silu (dotRow (fun j : Fin 2048 => x (ix2 r j)) (fun j : Fin 2048 => wg (ix2 u j)))
        * dotRow (fun j : Fin 2048 => x (ix2 r j)) (fun j : Fin 2048 => wu (ix2 u j)) := rfl

/-- What point t writes back is block t of the hidden array of the region's three inputs. -/
theorem flushed0_eq (c : Dev nD) (t : Fin cfg0.N) :
    (dat0 (F := Ideal) V c).flushed 3 t
      = ((cfg0.win 3).blk t).view.read (Elt Ideal)
          (hid2 (V c main_v64 : FVec Ideal T2 .bf16) (V c main_v48 : FVec Ideal WAP .bf16) (V c main_v49 : FVec Ideal WAP .bf16)) := by
  show (cfg0.win 3).cut (grid0.coords t) ((dat0 V c).after 3 t) = _
  rw [after0_3]
  obtain ⟨-, -, -, -, -, -, b0, b1⟩ := idx_facts0 t
  funext y
  obtain ⟨p, q, rfl⟩ : ∃ (p : Fin 1024) (q : Fin 512), y = ix2 p q := ⟨y 0, y 1, eq_ix2 y⟩
  have hr : win0_3.index t (0 : Fin 2) * 1024 + p.val < 8192 := by have := p.isLt; omega
  have hu : win0_3.index t (1 : Fin 2) * 512 + q.val < 5632 := by have := q.isLt; omega
  have hemb : ((cfg0.win 3).blk t).view.emb (ix2 p q)
      = ix2 (⟨win0_3.index t (0 : Fin 2) * 1024 + p.val, hr⟩ : Fin 8192) (⟨win0_3.index t (1 : Fin 2) * 512 + q.val, hu⟩ : Fin 5632) := by
    funext a
    apply Fin.ext
    match a with
    | ⟨0, _⟩ => show win0_3.index t (0 : Fin 2) * 1024 + 1 * p.val = win0_3.index t (0 : Fin 2) * 1024 + p.val; omega
    | ⟨1, _⟩ => show win0_3.index t (1 : Fin 2) * 512 + 1 * q.val = win0_3.index t (1 : Fin 2) * 512 + q.val; omega
  show out0_3 (iblk0 V c 0 t) (iblk0 V c 1 t) (iblk0 V c 2 t) (ix2 p q)
      = hid2 (V c main_v64 : FVec Ideal T2 .bf16) (V c main_v48 : FVec Ideal WAP .bf16) (V c main_v49 : FVec Ideal WAP .bf16)
          (((cfg0.win 3).blk t).view.emb (ix2 p q))
  rw [hemb, hid2_ix2, out0_3_apply]
  have e0 : (fun k : Fin 2048 => (iblk0 V c 0 t : Vec Ideal S1024x2048 .bf16) (ix2 p k))
      = fun k : Fin 2048 => (V c main_v64 : FVec Ideal T2 .bf16) (ix2 (⟨win0_3.index t (0 : Fin 2) * 1024 + p.val, hr⟩ : Fin 8192) k) :=
    funext fun k => iblk0_0_apply V c t p k _ rfl
  have e1 : (fun k : Fin 2048 => (iblk0 V c 1 t : Vec Ideal S512x2048 .bf16) (ix2 q k))
      = fun k : Fin 2048 => (V c main_v48 : FVec Ideal WAP .bf16) (ix2 (⟨win0_3.index t (1 : Fin 2) * 512 + q.val, hu⟩ : Fin 5632) k) :=
    funext fun k => iblk0_1_apply V c t q k _ rfl
  have e2 : (fun k : Fin 2048 => (iblk0 V c 2 t : Vec Ideal S512x2048 .bf16) (ix2 q k))
      = fun k : Fin 2048 => (V c main_v49 : FVec Ideal WAP .bf16) (ix2 (⟨win0_3.index t (1 : Fin 2) * 512 + q.val, hu⟩ : Fin 5632) k) :=
    funext fun k => iblk0_2_apply V c t q k _ rfl
  rw [e0, e1, e2]

/-! ### The blocks tile the array -/

/-- An index of the array is in point t's block iff each coordinate is in the block's range on its axis. -/
theorem mem_blk0 (t : Fin cfg0.N) (i : S8192x5632.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v65).slice (win0_3.rect t)).set ↔ _
  rw [View.set_slice_whole, Rect.mem_set_unit]
  exact Iff.rfl

/-- Every index of the array is in some point's block: the point whose block indices are the quotients of the two
    coordinates by the block's sides. -/
theorem cover0 (i : S8192x5632.Idx) :
    ∃ t : Fin cfg0.N, (cfg0.win 3).flush t = true ∧ i ∈ ((cfg0.win 3).blk t).view.set := by
  have hi0 : (i 0).val < 8192 := (i 0).isLt
  have hi1 : (i 1).val < 5632 := (i 1).isLt
  obtain ⟨t, ht⟩ := idx_onto0 ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk0]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 512 ≤ (i 1).val ∧ (i 1).val < win0_3.index t (1 : Fin 2) * 512 + 512
    omega

/-! ### The array after the region -/

/-- After the first region its output array is the hidden array of the region's three inputs. -/
theorem region0_arr (c : Dev nD) :
    (dat0 (F := Ideal) V c).arrAt 3 cfg0.N
      = hid2 (V c main_v64 : FVec Ideal T2 .bf16) (V c main_v48 : FVec Ideal WAP .bf16) (V c main_v49 : FVec Ideal WAP .bf16) :=
  (dat0 (F := Ideal) V c).arrAt_eq_of_cover 3 _ (fun t _ => flushed0_eq V c t) cover0

end Cert.KernelIdeal.HandRun

end
-- ==== Proof.KRegion1Pay.lean ====
/-
  The second region's body at one entry: the block it stores is, entry by entry, the sum of products of a row of the
  first input block with a row of the second.
-/
import proofs.«173558_j15058155339839_2_alg».proof.Proof.Gen.KernelIdeal.Frame
import proofs.«173558_j15058155339839_2_alg».proof.Proof.KSpec
import Idealize.ShloMosaic.Lib.Pipeline.Value
import Idealize.ShloMosaic.Lib.ValueIdx
import Idealize.ShloMosaic.PureOps.Ideal.Laws

noncomputable section

namespace Cert.KernelIdeal.HandRun

open Idealize.ShloMosaic Idealize.ShloMosaic.ValueIdx Cert.KernelIdeal Cert.KernelIdeal.Gen Cert.KernelIdeal.Spec Cert.Mlp
  Cert.Mlp.Chains

theorem hz : (![0, 0] : Fin 2 → Nat) = fun _ => 0 := funext fun a => by fin_cases a <;> rfl

/-! ### The coordinates of the operand indices of the block contraction [512, 5632] × [512, 5632] → [512, 512] -/

theorem lhsB_0 (i : S512x512.Idx) (q : dot_S512x5632_S512x5632_S512x512_1_1_0_0_n_n.contr.Idx) :
    (dot_S512x5632_S512x5632_S512x512_1_1_0_0_n_n.lhsIdx i q 0).val = (i 0).val := by
  unfold DotDims.lhsIdx
  rw [dif_neg (show ¬(0 : Fin S512x5632.rank) ∈ dot_S512x5632_S512x5632_S512x512_1_1_0_0_n_n.lhsBatch by decide),
    dif_pos (show (0 : Fin S512x5632.rank) ∈ dot_S512x5632_S512x5632_S512x512_1_1_0_0_n_n.lhsNonContracting by decide)]
  rfl
theorem lhsB_1 (i : S512x512.Idx) (q : dot_S512x5632_S512x5632_S512x512_1_1_0_0_n_n.contr.Idx) :
    (dot_S512x5632_S512x5632_S512x512_1_1_0_0_n_n.lhsIdx i q 1).val = (q ⟨0, by decide⟩).val :=
  dot_S512x5632_S512x5632_S512x512_1_1_0_0_n_n.lhsIdx_val_of_single rfl i q
theorem rhsB_0 (i : S512x512.Idx) (q : dot_S512x5632_S512x5632_S512x512_1_1_0_0_n_n.contr.Idx) :
    (dot_S512x5632_S512x5632_S512x512_1_1_0_0_n_n.rhsIdx i q 0).val = (i 1).val := by
  unfold DotDims.rhsIdx
  rw [dif_neg (show ¬(0 : Fin S512x5632.rank) ∈ dot_S512x5632_S512x5632_S512x512_1_1_0_0_n_n.rhsBatch by decide),
    dif_pos (show (0 : Fin S512x5632.rank) ∈ dot_S512x5632_S512x5632_S512x512_1_1_0_0_n_n.rhsNonContracting by decide)]
  rfl
theorem rhsB_1 (i : S512x512.Idx) (q : dot_S512x5632_S512x5632_S512x512_1_1_0_0_n_n.contr.Idx) :
    (dot_S512x5632_S512x5632_S512x512_1_1_0_0_n_n.rhsIdx i q 1).val = (q ⟨0, by decide⟩).val :=
  dot_S512x5632_S512x5632_S512x512_1_1_0_0_n_n.rhsIdx_val_of_single rfl i q

/-- The block product into the zero accumulator, at (p, q): row p of the first block against row q of the second. -/
theorem matmulB_apply (x0 x1 : FVec Ideal S512x5632 .bf16) (p q : Fin 512) :
    FloatOps.matmul dot_S512x5632_S512x5632_S512x512_1_1_0_0_n_n none x0 x1 (constant (F := Ideal) S512x512 .f32 0x00000000#32) (ix2 p q)
      = dotRow (fun k : Fin 5632 => x0 (ix2 p k)) (fun k : Fin 5632 => x1 (ix2 q k)) := by
  rw [Ideal.matmul_constant_zero_apply,
    ← Equiv.sum_comp (contrEquiv1 dot_S512x5632_S512x5632_S512x512_1_1_0_0_n_n 5632 rfl rfl).symm]
  unfold dotRow
  refine Finset.sum_congr rfl fun k _ => ?_
  have hk := contrEquiv1_symm_val dot_S512x5632_S512x5632_S512x512_1_1_0_0_n_n 5632 rfl rfl k
  have el : dot_S512x5632_S512x5632_S512x512_1_1_0_0_n_n.lhsIdx (ix2 p q)
      ((contrEquiv1 dot_S512x5632_S512x5632_S512x512_1_1_0_0_n_n 5632 rfl rfl).symm k) = ix2 p k :=
    funext fun a => Fin.ext (by
      match a with
      | ⟨0, _⟩ => exact lhsB_0 _ _
      | ⟨1, _⟩ => exact (lhsB_1 _ _).trans hk)
  have er : dot_S512x5632_S512x5632_S512x512_1_1_0_0_n_n.rhsIdx (ix2 p q)
      ((contrEquiv1 dot_S512x5632_S512x5632_S512x512_1_1_0_0_n_n 5632 rfl rfl).symm k) = ix2 q k :=
    funext fun a => Fin.ext (by
      match a with
      | ⟨0, _⟩ => exact rhsB_0 _ _
      | ⟨1, _⟩ => exact (rhsB_1 _ _).trans hk)
  rw [el, er]

/-- What the body leaves in the output block, at (p, q). -/
theorem out1_2_apply (x0 x1 : Vec Ideal S512x5632 .bf16) (p q : Fin 512) :
    out1_2 (F := Ideal) x0 x1 (ix2 p q) = dotRow (fun k : Fin 5632 => x0 (ix2 p k)) (fun k : Fin 5632 => x1 (ix2 q k)) := by
  unfold out1_2
  rw [View.canon_unit_zero hz]
  simp only [View.ld_unit_zero (S := S512x5632) hz]
  unfold k1_pay1
  simp only [shapeCast_self]
  exact matmulB_apply x0 x1 p q

end Cert.KernelIdeal.HandRun

end
-- ==== Proof.KRegion1Blk.lean ====
/-
  The second region's blocks: where each window's block sits in its array, and each input block read at an entry.
-/
import proofs.«173558_j15058155339839_2_alg».proof.Proof.KRegion1Pay

noncomputable section

namespace Cert.KernelIdeal.HandRun

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Spec Cert.Mlp Cert.Mlp.Chains

variable (V : (c : Dev nD) → (b : Ref sig .tc) → Buf (Elt Ideal) ((c : Thread nD τ).loc b))

/-- The index maps over the grid [16, 4]: the first input's row block is the output's row block, the second input's row
    block is the output's column block, both inputs take all their columns; and the output's block indices stay in range. -/
theorem idx_facts1 : ∀ t : Fin cfg1.N, win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 15 ∧ win1_2.index t (1 : Fin 2) ≤ 3 :=
  (by decide +kernel : ∀ t : Fin grid1.N, _)

/-- Every block of the output is some point's. -/
theorem idx_onto1 : ∀ (q0 : Fin 16) (q1 : Fin 4), ∃ t : Fin cfg1.N, win1_2.index t = ![q0.val, q1.val] :=
  (by decide +kernel : ∀ (q0 : Fin 16) (q1 : Fin 4), ∃ t : Fin grid1.N, win1_2.index t = ![q0.val, q1.val])

/-- The first input block at point t: rows (output row block) · 512 + p of the hidden array, all columns. -/
theorem iblk1_0_apply (c : Dev nD) (t : Fin cfg1.N) (x : S512x5632.Idx) (i : S8192x5632.Idx)
    (h0 : (i 0).val = win1_2.index t (0 : Fin 2) * 512 + (x 0).val) (h1 : (i 1).val = (x 1).val) :
    (iblk1 (F := Ideal) V c 0 t : Vec Ideal S512x5632 .bf16) x = (V c main_v79 : S8192x5632.Idx → Elt Ideal .bf16) i := by
  obtain ⟨e0, e1, -, -, -, -⟩ := idx_facts1 t
  unfold iblk1
  rw [View.read_apply]
  show V c main_v79 _ = V c main_v79 _
  congr 1
  funext a
  apply Fin.ext
  match a with
  | ⟨0, _⟩ => show win1_0.index t (0 : Fin 2) * 512 + 1 * (x 0).val = (i 0).val; rw [e0, h0]; omega
  | ⟨1, _⟩ => show win1_0.index t (1 : Fin 2) * 5632 + 1 * (x 1).val = (i 1).val; rw [e1, h1]; omega

/-- The second input block at point t: rows (output column block) · 512 + q of the down matrix, all columns. -/
theorem iblk1_1_apply (c : Dev nD) (t : Fin cfg1.N) (x : S512x5632.Idx) (i : S2048x5632.Idx)
    (h0 : (i 0).val = win1_2.index t (1 : Fin 2) * 512 + (x 0).val) (h1 : (i 1).val = (x 1).val) :
    (iblk1 (F := Ideal) V c 1 t : Vec Ideal S512x5632 .bf16) x = (V c main_v50 : S2048x5632.Idx → Elt Ideal .bf16) i := by
  obtain ⟨-, -, e2, e3, -, -⟩ := idx_facts1 t
  unfold iblk1
  rw [View.read_apply]
  show V c main_v50 _ = V c main_v50 _
  congr 1
  funext a
  apply Fin.ext
  match a with
  | ⟨0, _⟩ => show win1_1.index t (0 : Fin 2) * 512 + 1 * (x 0).val = (i 0).val; rw [e2, h0]; omega
  | ⟨1, _⟩ => show win1_1.index t (1 : Fin 2) * 5632 + 1 * (x 1).val = (i 1).val; rw [e3, h1]; omega

end Cert.KernelIdeal.HandRun

end
-- ==== Proof.KRegion1Arr.lean ====
/-
  The second region's array: every point writes back its block of the one function "token row against down-matrix row",
  and the blocks cover the array.
-/
import proofs.«173558_j15058155339839_2_alg».proof.Proof.KRegion1Blk

noncomputable section

namespace Cert.KernelIdeal.HandRun

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Spec Cert.Mlp Cert.Mlp.Chains

variable (V : (c : Dev nD) → (b : Ref sig .tc) → Buf (Elt Ideal) ((c : Thread nD τ).loc b))

/-- What point t writes back is block t of the region's function of the two arrays as the region finds them. -/
theorem flushed1_eq (c : Dev nD) (t : Fin cfg1.N) :
    (dat1 (F := Ideal) V c).flushed 2 t
      = ((cfg1.win 2).blk t).view.read (Elt Ideal) (out2 (V c main_v79) (V c main_v50)) := by
  show (cfg1.win 2).cut (grid1.coords t) ((dat1 V c).after 2 t) = _
  rw [after1_2]
  funext y
  obtain ⟨p, q, rfl⟩ : ∃ (p q : Fin 512), y = ix2 p q := ⟨y 0, y 1, eq_ix2 y⟩
  show out1_2 (iblk1 V c 0 t) (iblk1 V c 1 t) (ix2 p q)
    = out2 (V c main_v79) (V c main_v50) (((cfg1.win 2).blk t).view.emb (ix2 p q))
  refine (out1_2_apply _ _ p q).trans ?_
  unfold out2
  refine congrArg₂ dotRow (funext fun k => ?_) (funext fun k => ?_)
  · refine iblk1_0_apply V c t (ix2 p k) _ ?_ rfl
    show win1_2.index t (0 : Fin 2) * 512 + 1 * p.val = win1_2.index t (0 : Fin 2) * 512 + p.val
    omega
  · refine iblk1_1_apply V c t (ix2 q k) _ ?_ rfl
    show win1_2.index t (1 : Fin 2) * 512 + 1 * q.val = win1_2.index t (1 : Fin 2) * 512 + q.val
    omega

/-- An index of the array is in point t's block iff each coordinate is in the block's range on its axis. -/
theorem mem_blk1 (t : Fin cfg1.N) (i : S8192x2048.Idx) :
    i ∈ ((cfg1.win 2).blk t).view.set ↔ ∀ a : Fin 2, win1_2.index t a * S512x512.size a ≤ (i a).val
      ∧ (i a).val < win1_2.index t a * S512x512.size a + S512x512.size a := by
  show i ∈ ((View.whole main_v80).slice (win1_2.rect t)).set ↔ _
  rw [View.set_slice_whole, Rect.mem_set_unit]
  exact Iff.rfl

/-- Every index of the array is in some point's block: (r, n) in the block with indices r / 512 and n / 512. -/
theorem cover1 (i : S8192x2048.Idx) :
    ∃ t : Fin cfg1.N, (cfg1.win 2).flush t = true ∧ i ∈ ((cfg1.win 2).blk t).view.set := by
  have hi0 : (i 0).val < 8192 := (i 0).isLt
  have hi1 : (i 1).val < 2048 := (i 1).isLt
  obtain ⟨t, ht⟩ := idx_onto1 ⟨(i 0).val / 512, by omega⟩ ⟨(i 1).val / 512, by omega⟩
  have q0 : win1_2.index t (0 : Fin 2) = (i 0).val / 512 := congrFun ht 0
  have q1 : win1_2.index t (1 : Fin 2) = (i 1).val / 512 := congrFun ht 1
  refine ⟨t, flush1_2 t, ?_⟩
  rw [mem_blk1]
  intro a
  match a with
  | ⟨0, _⟩ =>
    show win1_2.index t (0 : Fin 2) * 512 ≤ (i 0).val ∧ (i 0).val < win1_2.index t (0 : Fin 2) * 512 + 512
    omega
  | ⟨1, _⟩ =>
    show win1_2.index t (1 : Fin 2) * 512 ≤ (i 1).val ∧ (i 1).val < win1_2.index t (1 : Fin 2) * 512 + 512
    omega

/-- The array after the region: entry (r, n) is row r of the hidden array against row n of the down matrix. -/
theorem region1_arr (c : Dev nD) :
    (dat1 (F := Ideal) V c).arrAt 2 cfg1.N = out2 (V c main_v79) (V c main_v50) :=
  (dat1 V c).arrAt_eq_of_cover 2 (out2 (V c main_v79) (V c main_v50)) (fun t _ => flushed1_eq V c t) cover1

end Cert.KernelIdeal.HandRun

end
-- ==== Proof.KFold.lean ====
/-
  What the kernel program's result buffer holds at the end of the chain of boundaries: `kernTerm` of the four argument
  arrays as launched.

  Walking the chain backwards from the result buffer: the last stretch regroups the second region's array; that array is
  the product of the quantized hidden array and the widened down matrix, both as the second region finds them; the
  stretches between the regions quantize the first region's array and leave the widened down matrix alone; the first
  region's array gates the up products by the gate products of the quantized tokens and the two widened matrices, as
  the first region finds them and leaves them; and the stretches before the first region compute those three and the
  widened down matrix from the arguments, which no operation writes.
-/
import proofs.«173558_j15058155339839_2_alg».proof.Proof.Gen.KernelIdeal.Frame
import proofs.«173558_j15058155339839_2_alg».proof.Proof.KHost
import proofs.«173558_j15058155339839_2_alg».proof.Proof.KHostW
import proofs.«173558_j15058155339839_2_alg».proof.Proof.KRegion0Arr
import proofs.«173558_j15058155339839_2_alg».proof.Proof.KRegion1Arr

set_option maxRecDepth 16384

noncomputable section

namespace Cert.KernelIdeal.HandRun

open Idealize.ShloMosaic Idealize.ShloMosaic.TcCoe Idealize.SL.Sem Idealize.ShloMosaic.StableHlo
open Cert.KernelIdeal Cert.KernelIdeal.Gen Cert.KernelIdeal.Spec Cert.Mlp.Chains

variable (m : (ℓ : Loc nD τ sig) → Buf (Elt Ideal) ℓ) (ρ : Dev nD → PrngReg)

/-- The buffers as the first region finds them are the token stretches after the weight stretches after the launch memory. -/
theorem W22_eq (c : Dev nD) : W22 m ρ c = tokensOf (weightsOf (W0 m ρ c)) := rfl

/-- The buffers as the second region finds them are the hidden stretches after what the first region leaves. -/
theorem W30_eq (c : Dev nD) : W30 m ρ c = hiddenOf (W23 m ρ c) := rfl

theorem W22_v64 (c : Dev nD) : W22 m ρ c (Proc.devRef .tc main_v64) = xq (m ((c : Thread nD τ).loc main_arg0)) := by
  rw [W22_eq, tokens_v64, weights_arg0]
theorem W22_v48 (c : Dev nD) : W22 m ρ c (Proc.devRef .tc main_v48) = wpadGU (m ((c : Thread nD τ).loc main_arg1)) := by
  rw [W22_eq, tokens_v48, weights_v48]
theorem W22_v49 (c : Dev nD) : W22 m ρ c (Proc.devRef .tc main_v49) = wpadGU (m ((c : Thread nD τ).loc main_arg2)) := by
  rw [W22_eq, tokens_v49, weights_v49]
theorem W22_v50 (c : Dev nD) : W22 m ρ c (Proc.devRef .tc main_v50) = wpadD (m ((c : Thread nD τ).loc main_arg3)) := by
  rw [W22_eq, tokens_v50, weights_v50]

/-- What the first region leaves in its output array. -/
theorem W23_v65 (c : Dev nD) : W23 m ρ c (Proc.devRef .tc main_v65)
    = hid2 (xq (m ((c : Thread nD τ).loc main_arg0))) (wpadGU (m ((c : Thread nD τ).loc main_arg1))) (wpadGU (m ((c : Thread nD τ).loc main_arg2))) := by
  refine (W23_arr m ρ c 3).trans ((region0_arr (V22 m ρ) c).trans ?_)
  show hid2 (W22 m ρ c (Proc.devRef .tc main_v64)) (W22 m ρ c (Proc.devRef .tc main_v48)) (W22 m ρ c (Proc.devRef .tc main_v49)) = _
  rw [W22_v64, W22_v48, W22_v49]

/-- The first region does not touch the widened down matrix. -/
theorem W23_v50 (c : Dev nD) : W23 m ρ c (Proc.devRef .tc main_v50) = wpadD (m ((c : Thread nD τ).loc main_arg3)) :=
  (W23_of_ne m ρ c main_v50 (by decide)).trans (W22_v50 m ρ c)

theorem W30_v79 (c : Dev nD) : W30 m ρ c (Proc.devRef .tc main_v79)
    = hq (hid2 (xq (m ((c : Thread nD τ).loc main_arg0))) (wpadGU (m ((c : Thread nD τ).loc main_arg1))) (wpadGU (m ((c : Thread nD τ).loc main_arg2)))) := by
  rw [W30_eq, hidden_v79, W23_v65]
theorem W30_v50 (c : Dev nD) : W30 m ρ c (Proc.devRef .tc main_v50) = wpadD (m ((c : Thread nD τ).loc main_arg3)) := by
  rw [W30_eq, hidden_v50, W23_v50]

/-- What the second region leaves in its output array. -/
theorem W31_v80 (c : Dev nD) : W31 m ρ c (Proc.devRef .tc main_v80)
    = out2 (hq (hid2 (xq (m ((c : Thread nD τ).loc main_arg0))) (wpadGU (m ((c : Thread nD τ).loc main_arg1))) (wpadGU (m ((c : Thread nD τ).loc main_arg2))))) (wpadD (m ((c : Thread nD τ).loc main_arg3))) := by
  refine (W31_arr m ρ c 2).trans ((region1_arr (V30 m ρ) c).trans ?_)
  show out2 (W30 m ρ c (Proc.devRef .tc main_v79)) (W30 m ρ c (Proc.devRef .tc main_v50)) = _
  rw [W30_v79, W30_v50]

/-- The result buffer at the end of the chain. -/
theorem W32_v81 (c : Dev nD) : W32 m ρ c (Proc.devRef .tc main_v81)
    = kernTerm (m ((c : Thread nD τ).loc main_arg0)) (m ((c : Thread nD τ).loc main_arg1)) (m ((c : Thread nD τ).loc main_arg2)) (m ((c : Thread nD τ).loc main_arg3)) := by
  show after (hostOps2 (F := Ideal)) (W31 m ρ c) (Proc.devRef .tc main_v81) = _
  rw [tail_v81, W31_v80]
  rfl

end Cert.KernelIdeal.HandRun

end
-- ==== Proof.KValue.lean ====
/-
  The kernel program's result read at one index.

  At batch b, sequence position s and output feature n the result is the feed-forward row of the token (b, s): the token's
  2048 features go on their own activation grid, are multiplied with the gate and the up matrix (each on its ternary grids),
  gated, put on the hidden row's activation grid and multiplied with row n of the down matrix.

  The steps: a regrouping of [4, 2048, 2048] as [8192, 2048] keeps row-major positions, so token (b, s) is row
  b · 2048 + s; a change of float format is the identity at the exact values; a widened weight matrix is the matrix inside
  its 5504 rows (columns) and zero outside; and zero rows of the gate and up matrices together with zero columns of the down
  matrix change neither the hidden row's activation grid nor the final sum.
-/
import Idealize.ShloMosaic.Lib.KernelVsHost
import proofs.«173558_j15058155339839_2_alg».proof.Proof.KSpec

noncomputable section

namespace Cert.KernelIdeal.Spec

open Idealize.ShloMosaic Idealize.ShloMosaic.ValueIdx Cert.KernelIdeal Cert.KernelIdeal.Gen Cert.Mlp Cert.Mlp.Chains Cert.Lib.QuantChains

/-! ## Regrouping tokens -/

/-- The flattened position of the token at batch b and sequence position s. -/
def flat (b : Fin 4) (s : Fin 2048) : Fin 8192 := ⟨b.val * 2048 + s.val, by omega⟩

/-- A [8192, 2048] array regrouped as [4, 2048, 2048] reads, at (b, s, n), the array at (b · 2048 + s, n). -/
theorem cast_T2_T3_apply {α : Type} (y : T2.Idx → α) (h : T2.ShapeCasts T3) (b : Fin 4) (s : Fin 2048) (n : Fin 2048) :
    shapeCast T3 y h (ix3 b s n) = y (ix2 (flat b s) n) :=
  shapeCast_apply y h _ _ (by
    rw [Shape.rowMajor_val_two, Shape.rowMajor_val_three]
    show (b.val * 2048 + s.val) * 2048 + n.val = (b.val * 2048 + s.val) * 2048 + n.val
    rfl)

/-- A [4, 2048, 2048] array flattened to [8192, 2048] reads, at (b · 2048 + s, j), the array at (b, s, j). -/
theorem cast_T3_T2_apply {α : Type} (x : T3.Idx → α) (h : T3.ShapeCasts T2) (b : Fin 4) (s : Fin 2048) (j : Fin 2048) :
    shapeCast T2 x h (ix2 (flat b s) j) = x (ix3 b s j) :=
  shapeCast_apply x h _ _ (by
    rw [Shape.rowMajor_val_two, Shape.rowMajor_val_three]
    show (b.val * 2048 + s.val) * 2048 + j.val = (b.val * 2048 + s.val) * 2048 + j.val
    rfl)

/-! ## The widened weights -/

/-- The padding value is zero. -/
theorem zpad_apply (i : S_.Idx) : zpad i = 0 := by
  show (((0#32 : BitVec 32).toInt : ℝ) : EReal) = 0
  simp

/-- A gate or up matrix widened by zero rows: the matrix on its ternary grids in the first 5504 rows, zero below. -/
theorem wpadGU_apply (W : FVec Ideal WA .f32) (k : Fin 5632) (j : Fin 2048) :
    wpadGU W (ix2 k j) = if h : k.val < 5504 then wqGU W (ix2 (⟨k.val, h⟩ : Fin 5504) j) else 0 := by
  by_cases h : k.val < 5504
  · rw [dif_pos h]
    unfold wpadGU
    refine (pad_apply_of_inside _ _ _ _ zpad pads_S5504x2048_S5632x2048_01280_000 h_S_ (ix2 k j)
      (ix2 (⟨k.val, h⟩ : Fin 5504) j) (by
        intro a
        match a with
        | ⟨0, _⟩ => show k.val = 0 + k.val * (0 + 1); omega
        | ⟨1, _⟩ => show j.val = 0 + j.val * (0 + 1); omega)).trans ?_
    rfl
  · rw [dif_neg h]
    unfold wpadGU
    refine (pad_apply_of_not_inside _ _ _ _ zpad pads_S5504x2048_S5632x2048_01280_000 h_S_ (ix2 k j) (0 : Fin 2) (by
      intro hin
      have e : (k.val - 0) / (0 + 1) < 5504 := hin.2.2
      omega)).trans ?_
    exact zpad_apply _

/-- The down matrix widened by zero columns: the matrix on its ternary grids in the first 5504 columns, zero after. -/
theorem wpadD_apply (W : FVec Ideal WD .f32) (n : Fin 2048) (k : Fin 5632) :
    wpadD W (ix2 n k) = if h : k.val < 5504 then wqD W (ix2 n (⟨k.val, h⟩ : Fin 5504)) else 0 := by
  by_cases h : k.val < 5504
  · rw [dif_pos h]
    unfold wpadD
    refine (pad_apply_of_inside _ _ _ _ zpad pads_S2048x5504_S2048x5632_000_01280 h_S_ (ix2 n k)
      (ix2 n (⟨k.val, h⟩ : Fin 5504)) (by
        intro a
        match a with
        | ⟨0, _⟩ => show n.val = 0 + n.val * (0 + 1); omega
        | ⟨1, _⟩ => show k.val = 0 + k.val * (0 + 1); omega)).trans ?_
    rfl
  · rw [dif_neg h]
    unfold wpadD
    refine (pad_apply_of_not_inside _ _ _ _ zpad pads_S2048x5504_S2048x5632_000_01280 h_S_ (ix2 n k) (1 : Fin 2) (by
      intro hin
      have e : (k.val - 0) / (0 + 1) < 5504 := hin.2.2
      omega)).trans ?_
    exact zpad_apply _

/-! ## A change of float format -/

/-- Narrowing the format is the identity at the exact values. -/
theorem truncf_apply {s : Shape} {φ : FTy} (ψ : FTy) (v : FVec Ideal s φ) (h : ψ.bits < φ.bits) (i : s.Idx) :
    truncf ψ v h i = v i := rfl

/-- Widening the format is the identity at the exact values. -/
theorem extf_apply {s : Shape} {φ : FTy} (ψ : FTy) (v : FVec Ideal s φ) (h : φ.bits < ψ.bits) (i : s.Idx) :
    extf ψ v h i = v i := rfl

/-! ## The quantized tokens, the hidden array and the output array at an index -/

/-- The quantized tokens at (b · 2048 + s, j): entry j of the token (b, s) on the token's own activation grid. -/
theorem xq_apply (X : FVec Ideal T3 .f32) (b : Fin 4) (s : Fin 2048) (j : Fin 2048) :
    xq X (ix2 (flat b s) j) = aqRow (fun t : Fin 2048 => X (ix3 b s t)) j := by
  have e : (fun t : Fin 2048 => shapeCast T2 X shapeCasts_S4x2048x2048_S8192x2048 (ix2 (flat b s) t))
      = fun t : Fin 2048 => X (ix3 b s t) :=
    funext fun t => cast_T3_T2_apply X _ b s t
  unfold xq
  refine (truncf_apply .bf16 _ bitsLt_bf16_f32 _).trans ?_
  rw [aqTok2_apply, e]

/-- The first region's array at (b · 2048 + s, k): entry k of the hidden row of the token (b, s). -/
theorem hid2_apply (X : FVec Ideal T3 .f32) (wg wu : FVec Ideal WAP .bf16) (b : Fin 4) (s : Fin 2048) (k : Fin 5632) :
    hid2 (xq X) wg wu (ix2 (flat b s) k)
      = hiddenRow (fun j : Fin 2048 => X (ix3 b s j)) (fun (k : Fin 5632) (j : Fin 2048) => wg (ix2 k j))
          (fun (k : Fin 5632) (j : Fin 2048) => wu (ix2 k j)) k := by
  have e : (fun j : Fin 2048 => xq X (ix2 (flat b s) j)) = aqRow (fun j : Fin 2048 => X (ix3 b s j)) :=
    funext fun j => xq_apply X b s j
  show silu (dotRow (fun j : Fin 2048 => xq X (ix2 (flat b s) j)) (fun j : Fin 2048 => wg (ix2 k j)))
      * dotRow (fun j : Fin 2048 => xq X (ix2 (flat b s) j)) (fun j : Fin 2048 => wu (ix2 k j)) = _
  rw [e]
  rfl

/-- The hidden array on its activation grids at (r, k): entry k of row r on the row's own grid. -/
theorem hq_apply (H : FVec Ideal H2 .bf16) (r : Fin 8192) (k : Fin 5632) :
    hq H (ix2 r k) = aqRow (fun t : Fin 5632 => H (ix2 r t)) k := by
  have e : (fun t : Fin 5632 => extf .f32 H bitsLt_bf16_f32 (ix2 r t)) = fun t : Fin 5632 => H (ix2 r t) :=
    funext fun t => extf_apply .f32 H bitsLt_bf16_f32 _
  unfold hq
  refine (truncf_apply .bf16 _ bitsLt_bf16_f32 _).trans ?_
  rw [aqHid2_apply, e]

/-- The second region's array at (r, n): row r of the hidden array against row n of the down matrix. -/
theorem out2_apply (h : FVec Ideal H2 .bf16) (wd : FVec Ideal WDP .bf16) (r : Fin 8192) (n : Fin 2048) :
    out2 h wd (ix2 r n) = dotRow (fun k : Fin 5632 => h (ix2 r k)) (fun k : Fin 5632 => wd (ix2 n k)) := rfl

/-! ## The result at an index -/

/-- The kernel program's result at (b, s, n) is entry n of the feed-forward row of the token (b, s), with the three weight
    matrices on their ternary grids and not widened. -/
theorem kernTerm_apply (X : FVec Ideal T3 .f32) (Wg Wu : FVec Ideal WA .f32) (Wd : FVec Ideal WD .f32)
    (b : Fin 4) (s : Fin 2048) (n : Fin 2048) :
    kernTerm X Wg Wu Wd (ix3 b s n)
      = mlpRow (fun j : Fin 2048 => X (ix3 b s j))
          (fun (k : Fin 5504) (j : Fin 2048) => wqGU Wg (ix2 k j)) (fun (k : Fin 5504) (j : Fin 2048) => wqGU Wu (ix2 k j))
          (fun (n : Fin 2048) (k : Fin 5504) => wqD Wd (ix2 n k)) n := by
  unfold kernTerm
  refine (cast_T2_T3_apply _ _ b s n).trans ?_
  refine (out2_apply _ _ (flat b s) n).trans ?_
  have e1 : (fun k : Fin 5632 => hq (hid2 (xq X) (wpadGU Wg) (wpadGU Wu)) (ix2 (flat b s) k))
      = aqRow (fun t : Fin 5632 => hid2 (xq X) (wpadGU Wg) (wpadGU Wu) (ix2 (flat b s) t)) :=
    funext fun k => hq_apply _ (flat b s) k
  have e2 : (fun t : Fin 5632 => hid2 (xq X) (wpadGU Wg) (wpadGU Wu) (ix2 (flat b s) t))
      = hiddenRow (fun j : Fin 2048 => X (ix3 b s j)) (fun (k : Fin 5632) (j : Fin 2048) => wpadGU Wg (ix2 k j))
          (fun (k : Fin 5632) (j : Fin 2048) => wpadGU Wu (ix2 k j)) :=
    funext fun t => hid2_apply X _ _ b s t
  rw [e1, e2]
  exact mlpRow_pad (f := 5504) (N := 5632) (by norm_num) _ _ _ _ _ _
    (fun (n : Fin 2048) (k : Fin 5632) => wpadD Wd (ix2 n k))
    (fun k j => wpadGU_apply Wg k j) (fun k j => wpadGU_apply Wu k j) (fun n k => wpadD_apply Wd n k) n

end Cert.KernelIdeal.Spec

end
-- ==== Proof.RefSpec.lean ====
/-
  What the reference computes, as ONE function of its four argument arrays, at the exact values.

  Every quantized operand is written by the reference in its straight-through form `x + (q x - x)`. With that form
  `stF x q`, the activation chain `aqTok3` / `aqHid3` and the weight chains `wqGU` / `wqD`:

      hidden = silu (stF X (aq X) · stF Wg (wq Wg)ᵀ) ⊙ (stF X (aq X) · stF Wu (wq Wu)ᵀ)        [4, 2048, 5504]
      result = stF hidden (aq hidden) · stF Wd (wq Wd)ᵀ                                          [4, 2048, 2048]

  where `·ᵀ` contracts the last axis of both factors.
-/
import proofs.«173558_j15058155339839_2_alg».proof.ReferenceIdeal
import proofs.«173558_j15058155339839_2_alg».proof.Proof.Gen.ReferenceIdeal
import proofs.«173558_j15058155339839_2_alg».proof.Proof.MlpChains

noncomputable section

namespace Cert.ReferenceIdeal.Spec

open Idealize.ShloMosaic Cert.ReferenceIdeal Cert.ReferenceIdeal.Gen Cert.Mlp Cert.Mlp.Chains Cert.Lib.QuantChains

/-- The straight-through form of a quantized array: `x + (q - x)`. -/
def stF {S : Shape} (x q : FVec Ideal S .f32) : FVec Ideal S .f32 := addf x (subf q x)

/-- The hidden activations [4, 2048, 5504]. -/
def hidden (X : FVec Ideal T3 .f32) (Wg Wu : FVec Ideal WA .f32) : FVec Ideal H3 .f32 :=
  mulf
    (siluHost b_S0_H3 (Host.dotGeneral (F := Ideal) dot_S4x2048x2048_S5504x2048_S4x2048x5504_2_1_01_0_n_n none
      (stF X (aqTok3 X)) (stF Wg (wqGU Wg))))
    (Host.dotGeneral (F := Ideal) dot_S4x2048x2048_S5504x2048_S4x2048x5504_2_1_01_0_n_n none
      (stF X (aqTok3 X)) (stF Wu (wqGU Wu)))

/-- The reference's result [4, 2048, 2048]. -/
def refTerm (X : FVec Ideal T3 .f32) (Wg Wu : FVec Ideal WA .f32) (Wd : FVec Ideal WD .f32) : FVec Ideal T3 .f32 :=
  Host.dotGeneral (F := Ideal) dot_S4x2048x5504_S2048x5504_S4x2048x2048_2_1_01_0_n_n none
    (stF (hidden X Wg Wu) (aqHid3 (hidden X Wg Wu))) (stF Wd (wqD Wd))

end Cert.ReferenceIdeal.Spec

end
-- ==== Proof.RefRun0.lean ====
/-
  The reference's 172 host operations cut into nine consecutive stretches along the program's own lines, and the
  fold of a concatenation as the fold of the second stretch over the fold of the first: what reading the result
  stretch by stretch rests on. An operation of a called function is written here at its buffers' literal types, as
  the program's own lines are: it is the same operation (`ops_eq`, by computation).
-/
import proofs.«173558_j15058155339839_2_alg».proof.Proof.RefRunRaw
import proofs.«173558_j15058155339839_2_alg».proof.Proof.RefSpec

noncomputable section

namespace Cert.ReferenceIdeal.HandRun

open Cert.ReferenceIdeal Cert.ReferenceIdeal.Gen Idealize.ShloMosaic Idealize.ShloMosaic.TcCoe Idealize.SL.Sem Idealize.ShloMosaic.StableHlo

/-- The contents after two stretches run one after the other: the second's fold over the first's. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

variable {F : FTy → Type} [FloatOps F]

/-- Operations 1–26: the activations `%arg0` on their rows' grids, straight through: → `%13`. -/
abbrev c1 : List (HloOp τ sig (Elt F)) :=
  [
    unary main_arg0 main_v0 (Host.absf : (⟨S4x2048x2048, .f32⟩ : BufTy).Contents (Elt F) → (⟨S4x2048x2048, .f32⟩ : BufTy).Contents (Elt F)),
    nullary main_cst (constant S_ .f32 0xFF800000#32),
    binary main_v0 main_cst main_v1 ((fun x v => Host.reduce FloatOps.maximumf x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    unary main_v1 main_v2 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x3727C5AC#32),
    unary main_cst_0 main_call0_v0 ((id) : (⟨S_, .f32⟩ : BufTy).Contents (Elt F) → (⟨S_, .f32⟩ : BufTy).Contents (Elt F)),
    unary main_call0_v0 main_call0_v1 (((broadcastInDim S4x2048x1 ![] bcast_S_S4x2048x1)) : (⟨S_, .f32⟩ : BufTy).Contents (Elt F) → (⟨S4x2048x1, .f32⟩ : BufTy).Contents (Elt F)),
    binary main_call0_v1 main_v2 main_v3 ((maximumf) : (⟨S4x2048x1, .f32⟩ : BufTy).Contents (Elt F) → (⟨S4x2048x1, .f32⟩ : BufTy).Contents (Elt F) → (⟨S4x2048x1, .f32⟩ : BufTy).Contents (Elt F)),
    nullary main_cst_1 (constant S_ .f32 0x42FE0000#32),
    unary main_cst_1 main_v4 (broadcastInDim S4x2048x1 ![] bcast_S_S4x2048x1 : (⟨S_, .f32⟩ : BufTy).Contents (Elt F) → (⟨S4x2048x1, .f32⟩ : BufTy).Contents (Elt F)),
    binary main_v4 main_v3 main_v5 (Host.divf : (⟨S4x2048x1, .f32⟩ : BufTy).Contents (Elt F) → (⟨S4x2048x1, .f32⟩ : BufTy).Contents (Elt F) → (⟨S4x2048x1, .f32⟩ : BufTy).Contents (Elt F)),
    unary main_v5 main_v6 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_arg0 main_v6 main_v7 (mulf : (⟨S4x2048x2048, .f32⟩ : BufTy).Contents (Elt F) → (⟨S4x2048x2048, .f32⟩ : BufTy).Contents (Elt F) → (⟨S4x2048x2048, .f32⟩ : BufTy).Contents (Elt F)),
    unary main_v7 main_v8 ((Host.roundeven) : (⟨S4x2048x2048, .f32⟩ : BufTy).Contents (Elt F) → (⟨S4x2048x2048, .f32⟩ : BufTy).Contents (Elt F)),
    nullary main_cst_2 (constant S_ .f32 0xC3000000#32),
    nullary main_cst_3 (constant S_ .f32 0x42FE0000#32),
    unary main_cst_2 main_call2_v0 ((id) : (⟨S_, .f32⟩ : BufTy).Contents (Elt F) → (⟨S_, .f32⟩ : BufTy).Contents (Elt F)),
    unary main_call2_v0 main_call2_v1 (((broadcastInDim S4x2048x2048 ![] bcast_S_S4x2048x2048)) : (⟨S_, .f32⟩ : BufTy).Contents (Elt F) → (⟨S4x2048x2048, .f32⟩ : BufTy).Contents (Elt F)),
    binary main_call2_v1 main_v8 main_call2_v2 ((maximumf) : (⟨S4x2048x2048, .f32⟩ : BufTy).Contents (Elt F) → (⟨S4x2048x2048, .f32⟩ : BufTy).Contents (Elt F) → (⟨S4x2048x2048, .f32⟩ : BufTy).Contents (Elt F)),
    unary main_cst_3 main_call2_v3 ((id) : (⟨S_, .f32⟩ : BufTy).Contents (Elt F) → (⟨S_, .f32⟩ : BufTy).Contents (Elt F)),
    unary main_call2_v3 main_call2_v4 (((broadcastInDim S4x2048x2048 ![] bcast_S_S4x2048x2048)) : (⟨S_, .f32⟩ : BufTy).Contents (Elt F) → (⟨S4x2048x2048, .f32⟩ : BufTy).Contents (Elt F)),
    binary main_call2_v4 main_call2_v2 main_v9 ((minimumf) : (⟨S4x2048x2048, .f32⟩ : BufTy).Contents (Elt F) → (⟨S4x2048x2048, .f32⟩ : BufTy).Contents (Elt F) → (⟨S4x2048x2048, .f32⟩ : BufTy).Contents (Elt F)),
    unary main_v5 main_v10 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_v9 main_v10 main_v11 (Host.divf : (⟨S4x2048x2048, .f32⟩ : BufTy).Contents (Elt F) → (⟨S4x2048x2048, .f32⟩ : BufTy).Contents (Elt F) → (⟨S4x2048x2048, .f32⟩ : BufTy).Contents (Elt F)),
    binary main_v11 main_arg0 main_v12 (subf : (⟨S4x2048x2048, .f32⟩ : BufTy).Contents (Elt F) → (⟨S4x2048x2048, .f32⟩ : BufTy).Contents (Elt F) → (⟨S4x2048x2048, .f32⟩ : BufTy).Contents (Elt F)),
    binary main_arg0 main_v12 main_v13 (addf : (⟨S4x2048x2048, .f32⟩ : BufTy).Contents (Elt F) → (⟨S4x2048x2048, .f32⟩ : BufTy).Contents (Elt F) → (⟨S4x2048x2048, .f32⟩ : BufTy).Contents (Elt F)) ]

/-- Operations 27–53: the gate weights `%arg1` on their groups' ternary grids, straight through: → `%30`. -/
abbrev c2 : List (HloOp τ sig (Elt F)) :=
  [
    reshape main_arg1 main_v14 rfl shapeCasts_S5504x2048_S5504x16x128,
    unary main_v14 main_v15 (Host.absf : (⟨S5504x16x128, .f32⟩ : BufTy).Contents (Elt F) → (⟨S5504x16x128, .f32⟩ : BufTy).Contents (Elt F)),
    nullary main_cst_4 (constant S_ .f32 0x00000000#32),
    binary main_v15 main_cst_4 main_v16 ((fun x v => Host.reduceAdd x v reducesTo_S5504x16x128_S5504x16_d2 h_S_) : (⟨S5504x16x128, .f32⟩ : BufTy).Contents (Elt F) → (⟨S_, .f32⟩ : BufTy).Contents (Elt F) → (⟨S5504x16, .f32⟩ : BufTy).Contents (Elt F)),
    unary main_v16 main_v17 (broadcastInDim S5504x16x1 ![0, 1] bcast_S5504x16_S5504x16x1_0_1 : (⟨S5504x16, .f32⟩ : BufTy).Contents (Elt F) → (⟨S5504x16x1, .f32⟩ : BufTy).Contents (Elt F)),
    nullary main_cst_5 (constant S_ .f32 0x43000000#32),
    unary main_cst_5 main_v18 (broadcastInDim S5504x16x1 ![] bcast_S_S5504x16x1 : (⟨S_, .f32⟩ : BufTy).Contents (Elt F) → (⟨S5504x16x1, .f32⟩ : BufTy).Contents (Elt F)),
    binary main_v17 main_v18 main_v19 (Host.divf : (⟨S5504x16x1, .f32⟩ : BufTy).Contents (Elt F) → (⟨S5504x16x1, .f32⟩ : BufTy).Contents (Elt F) → (⟨S5504x16x1, .f32⟩ : BufTy).Contents (Elt F)),
    nullary main_cst_6 (constant S_ .f32 0x3727C5AC#32),
    unary main_cst_6 main_v20 (broadcastInDim S5504x16x1 ![] bcast_S_S5504x16x1 : (⟨S_, .f32⟩ : BufTy).Contents (Elt F) → (⟨S5504x16x1, .f32⟩ : BufTy).Contents (Elt F)),
    binary main_v19 main_v20 main_v21 (addf : (⟨S5504x16x1, .f32⟩ : BufTy).Contents (Elt F) → (⟨S5504x16x1, .f32⟩ : BufTy).Contents (Elt F) → (⟨S5504x16x1, .f32⟩ : BufTy).Contents (Elt F)),
    unary main_v21 main_v22 (broadcastInDim S5504x16x128 ![0, 1, 2] bcast_S5504x16x1_S5504x16x128_0_1_2 : (⟨S5504x16x1, .f32⟩ : BufTy).Contents (Elt F) → (⟨S5504x16x128, .f32⟩ : BufTy).Contents (Elt F)),
    binary main_v14 main_v22 main_v23 (Host.divf : (⟨S5504x16x128, .f32⟩ : BufTy).Contents (Elt F) → (⟨S5504x16x128, .f32⟩ : BufTy).Contents (Elt F) → (⟨S5504x16x128, .f32⟩ : BufTy).Contents (Elt F)),
    nullary main_cst_7 (constant S_ .f32 0xBF800000#32),
    nullary main_cst_8 (constant S_ .f32 0x3F800000#32),
    unary main_cst_7 main_call3_v0 ((id) : (⟨S_, .f32⟩ : BufTy).Contents (Elt F) → (⟨S_, .f32⟩ : BufTy).Contents (Elt F)),
    unary main_call3_v0 main_call3_v1 (((broadcastInDim S5504x16x128 ![] bcast_S_S5504x16x128)) : (⟨S_, .f32⟩ : BufTy).Contents (Elt F) → (⟨S5504x16x128, .f32⟩ : BufTy).Contents (Elt F)),
    binary main_call3_v1 main_v23 main_call3_v2 ((maximumf) : (⟨S5504x16x128, .f32⟩ : BufTy).Contents (Elt F) → (⟨S5504x16x128, .f32⟩ : BufTy).Contents (Elt F) → (⟨S5504x16x128, .f32⟩ : BufTy).Contents (Elt F)),
    unary main_cst_8 main_call3_v3 ((id) : (⟨S_, .f32⟩ : BufTy).Contents (Elt F) → (⟨S_, .f32⟩ : BufTy).Contents (Elt F)),
    unary main_call3_v3 main_call3_v4 (((broadcastInDim S5504x16x128 ![] bcast_S_S5504x16x128)) : (⟨S_, .f32⟩ : BufTy).Contents (Elt F) → (⟨S5504x16x128, .f32⟩ : BufTy).Contents (Elt F)),
    binary main_call3_v4 main_call3_v2 main_v24 ((minimumf) : (⟨S5504x16x128, .f32⟩ : BufTy).Contents (Elt F) → (⟨S5504x16x128, .f32⟩ : BufTy).Contents (Elt F) → (⟨S5504x16x128, .f32⟩ : BufTy).Contents (Elt F)),
    unary main_v24 main_v25 ((Host.roundeven) : (⟨S5504x16x128, .f32⟩ : BufTy).Contents (Elt F) → (⟨S5504x16x128, .f32⟩ : BufTy).Contents (Elt F)),
    unary main_v21 main_v26 (broadcastInDim S5504x16x128 ![0, 1, 2] bcast_S5504x16x1_S5504x16x128_0_1_2 : (⟨S5504x16x1, .f32⟩ : BufTy).Contents (Elt F) → (⟨S5504x16x128, .f32⟩ : BufTy).Contents (Elt F)),
    binary main_v25 main_v26 main_v27 (mulf : (⟨S5504x16x128, .f32⟩ : BufTy).Contents (Elt F) → (⟨S5504x16x128, .f32⟩ : BufTy).Contents (Elt F) → (⟨S5504x16x128, .f32⟩ : BufTy).Contents (Elt F)),
    reshape main_v27 main_v28 rfl shapeCasts_S5504x16x128_S5504x2048,
    binary main_v28 main_arg1 main_v29 (subf : (⟨S5504x2048, .f32⟩ : BufTy).Contents (Elt F) → (⟨S5504x2048, .f32⟩ : BufTy).Contents (Elt F) → (⟨S5504x2048, .f32⟩ : BufTy).Contents (Elt F)),
    binary main_arg1 main_v29 main_v30 (addf : (⟨S5504x2048, .f32⟩ : BufTy).Contents (Elt F) → (⟨S5504x2048, .f32⟩ : BufTy).Contents (Elt F) → (⟨S5504x2048, .f32⟩ : BufTy).Contents (Elt F)) ]

/-- Operations 54–54: the gate product: → `%31`. -/
abbrev c3 : List (HloOp τ sig (Elt F)) :=
  [
    binary main_v13 main_v30 main_v31 ((fun l r => Host.dotGeneral dot_S4x2048x2048_S5504x2048_S4x2048x5504_2_1_01_0_n_n none l r) : (⟨S4x2048x2048, .f32⟩ : BufTy).Contents (Elt F) → (⟨S5504x2048, .f32⟩ : BufTy).Contents (Elt F) → (⟨S4x2048x5504, .f32⟩ : BufTy).Contents (Elt F)) ]

/-- Operations 55–80: the activations `%arg0` on their rows' grids once more: → `%45`. -/
abbrev c4 : List (HloOp τ sig (Elt F)) :=
  [
    unary main_arg0 main_v32 (Host.absf : (⟨S4x2048x2048, .f32⟩ : BufTy).Contents (Elt F) → (⟨S4x2048x2048, .f32⟩ : BufTy).Contents (Elt F)),
    nullary main_cst_9 (constant S_ .f32 0xFF800000#32),
    binary main_v32 main_cst_9 main_v33 ((fun x v => Host.reduce FloatOps.maximumf x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    unary main_v33 main_v34 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_10 (constant S_ .f32 0x3727C5AC#32),
    unary main_cst_10 main_call5_v0 ((id) : (⟨S_, .f32⟩ : BufTy).Contents (Elt F) → (⟨S_, .f32⟩ : BufTy).Contents (Elt F)),
    unary main_call5_v0 main_call5_v1 (((broadcastInDim S4x2048x1 ![] bcast_S_S4x2048x1)) : (⟨S_, .f32⟩ : BufTy).Contents (Elt F) → (⟨S4x2048x1, .f32⟩ : BufTy).Contents (Elt F)),
    binary main_call5_v1 main_v34 main_v35 ((maximumf) : (⟨S4x2048x1, .f32⟩ : BufTy).Contents (Elt F) → (⟨S4x2048x1, .f32⟩ : BufTy).Contents (Elt F) → (⟨S4x2048x1, .f32⟩ : BufTy).Contents (Elt F)),
    nullary main_cst_11 (constant S_ .f32 0x42FE0000#32),
    unary main_cst_11 main_v36 (broadcastInDim S4x2048x1 ![] bcast_S_S4x2048x1 : (⟨S_, .f32⟩ : BufTy).Contents (Elt F) → (⟨S4x2048x1, .f32⟩ : BufTy).Contents (Elt F)),
    binary main_v36 main_v35 main_v37 (Host.divf : (⟨S4x2048x1, .f32⟩ : BufTy).Contents (Elt F) → (⟨S4x2048x1, .f32⟩ : BufTy).Contents (Elt F) → (⟨S4x2048x1, .f32⟩ : BufTy).Contents (Elt F)),
    unary main_v37 main_v38 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_arg0 main_v38 main_v39 (mulf : (⟨S4x2048x2048, .f32⟩ : BufTy).Contents (Elt F) → (⟨S4x2048x2048, .f32⟩ : BufTy).Contents (Elt F) → (⟨S4x2048x2048, .f32⟩ : BufTy).Contents (Elt F)),
    unary main_v39 main_v40 ((Host.roundeven) : (⟨S4x2048x2048, .f32⟩ : BufTy).Contents (Elt F) → (⟨S4x2048x2048, .f32⟩ : BufTy).Contents (Elt F)),
    nullary main_cst_12 (constant S_ .f32 0xC3000000#32),
    nullary main_cst_13 (constant S_ .f32 0x42FE0000#32),
    unary main_cst_12 main_call7_v0 ((id) : (⟨S_, .f32⟩ : BufTy).Contents (Elt F) → (⟨S_, .f32⟩ : BufTy).Contents (Elt F)),
    unary main_call7_v0 main_call7_v1 (((broadcastInDim S4x2048x2048 ![] bcast_S_S4x2048x2048)) : (⟨S_, .f32⟩ : BufTy).Contents (Elt F) → (⟨S4x2048x2048, .f32⟩ : BufTy).Contents (Elt F)),
    binary main_call7_v1 main_v40 main_call7_v2 ((maximumf) : (⟨S4x2048x2048, .f32⟩ : BufTy).Contents (Elt F) → (⟨S4x2048x2048, .f32⟩ : BufTy).Contents (Elt F) → (⟨S4x2048x2048, .f32⟩ : BufTy).Contents (Elt F)),
    unary main_cst_13 main_call7_v3 ((id) : (⟨S_, .f32⟩ : BufTy).Contents (Elt F) → (⟨S_, .f32⟩ : BufTy).Contents (Elt F)),
    unary main_call7_v3 main_call7_v4 (((broadcastInDim S4x2048x2048 ![] bcast_S_S4x2048x2048)) : (⟨S_, .f32⟩ : BufTy).Contents (Elt F) → (⟨S4x2048x2048, .f32⟩ : BufTy).Contents (Elt F)),
    binary main_call7_v4 main_call7_v2 main_v41 ((minimumf) : (⟨S4x2048x2048, .f32⟩ : BufTy).Contents (Elt F) → (⟨S4x2048x2048, .f32⟩ : BufTy).Contents (Elt F) → (⟨S4x2048x2048, .f32⟩ : BufTy).Contents (Elt F)),
    unary main_v37 main_v42 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_v41 main_v42 main_v43 (Host.divf : (⟨S4x2048x2048, .f32⟩ : BufTy).Contents (Elt F) → (⟨S4x2048x2048, .f32⟩ : BufTy).Contents (Elt F) → (⟨S4x2048x2048, .f32⟩ : BufTy).Contents (Elt F)),
    binary main_v43 main_arg0 main_v44 (subf : (⟨S4x2048x2048, .f32⟩ : BufTy).Contents (Elt F) → (⟨S4x2048x2048, .f32⟩ : BufTy).Contents (Elt F) → (⟨S4x2048x2048, .f32⟩ : BufTy).Contents (Elt F)),
    binary main_arg0 main_v44 main_v45 (addf : (⟨S4x2048x2048, .f32⟩ : BufTy).Contents (Elt F) → (⟨S4x2048x2048, .f32⟩ : BufTy).Contents (Elt F) → (⟨S4x2048x2048, .f32⟩ : BufTy).Contents (Elt F)) ]

/-- Operations 81–107: the up weights `%arg2` on their groups' ternary grids, straight through: → `%62`. -/
abbrev c5 : List (HloOp τ sig (Elt F)) :=
  [
    reshape main_arg2 main_v46 rfl shapeCasts_S5504x2048_S5504x16x128,
    unary main_v46 main_v47 (Host.absf : (⟨S5504x16x128, .f32⟩ : BufTy).Contents (Elt F) → (⟨S5504x16x128, .f32⟩ : BufTy).Contents (Elt F)),
    nullary main_cst_14 (constant S_ .f32 0x00000000#32),
    binary main_v47 main_cst_14 main_v48 ((fun x v => Host.reduceAdd x v reducesTo_S5504x16x128_S5504x16_d2 h_S_) : (⟨S5504x16x128, .f32⟩ : BufTy).Contents (Elt F) → (⟨S_, .f32⟩ : BufTy).Contents (Elt F) → (⟨S5504x16, .f32⟩ : BufTy).Contents (Elt F)),
    unary main_v48 main_v49 (broadcastInDim S5504x16x1 ![0, 1] bcast_S5504x16_S5504x16x1_0_1 : (⟨S5504x16, .f32⟩ : BufTy).Contents (Elt F) → (⟨S5504x16x1, .f32⟩ : BufTy).Contents (Elt F)),
    nullary main_cst_15 (constant S_ .f32 0x43000000#32),
    unary main_cst_15 main_v50 (broadcastInDim S5504x16x1 ![] bcast_S_S5504x16x1 : (⟨S_, .f32⟩ : BufTy).Contents (Elt F) → (⟨S5504x16x1, .f32⟩ : BufTy).Contents (Elt F)),
    binary main_v49 main_v50 main_v51 (Host.divf : (⟨S5504x16x1, .f32⟩ : BufTy).Contents (Elt F) → (⟨S5504x16x1, .f32⟩ : BufTy).Contents (Elt F) → (⟨S5504x16x1, .f32⟩ : BufTy).Contents (Elt F)),
    nullary main_cst_16 (constant S_ .f32 0x3727C5AC#32),
    unary main_cst_16 main_v52 (broadcastInDim S5504x16x1 ![] bcast_S_S5504x16x1 : (⟨S_, .f32⟩ : BufTy).Contents (Elt F) → (⟨S5504x16x1, .f32⟩ : BufTy).Contents (Elt F)),
    binary main_v51 main_v52 main_v53 (addf : (⟨S5504x16x1, .f32⟩ : BufTy).Contents (Elt F) → (⟨S5504x16x1, .f32⟩ : BufTy).Contents (Elt F) → (⟨S5504x16x1, .f32⟩ : BufTy).Contents (Elt F)),
    unary main_v53 main_v54 (broadcastInDim S5504x16x128 ![0, 1, 2] bcast_S5504x16x1_S5504x16x128_0_1_2 : (⟨S5504x16x1, .f32⟩ : BufTy).Contents (Elt F) → (⟨S5504x16x128, .f32⟩ : BufTy).Contents (Elt F)),
    binary main_v46 main_v54 main_v55 (Host.divf : (⟨S5504x16x128, .f32⟩ : BufTy).Contents (Elt F) → (⟨S5504x16x128, .f32⟩ : BufTy).Contents (Elt F) → (⟨S5504x16x128, .f32⟩ : BufTy).Contents (Elt F)),
    nullary main_cst_17 (constant S_ .f32 0xBF800000#32),
    nullary main_cst_18 (constant S_ .f32 0x3F800000#32),
    unary main_cst_17 main_call8_v0 ((id) : (⟨S_, .f32⟩ : BufTy).Contents (Elt F) → (⟨S_, .f32⟩ : BufTy).Contents (Elt F)),
    unary main_call8_v0 main_call8_v1 (((broadcastInDim S5504x16x128 ![] bcast_S_S5504x16x128)) : (⟨S_, .f32⟩ : BufTy).Contents (Elt F) → (⟨S5504x16x128, .f32⟩ : BufTy).Contents (Elt F)),
    binary main_call8_v1 main_v55 main_call8_v2 ((maximumf) : (⟨S5504x16x128, .f32⟩ : BufTy).Contents (Elt F) → (⟨S5504x16x128, .f32⟩ : BufTy).Contents (Elt F) → (⟨S5504x16x128, .f32⟩ : BufTy).Contents (Elt F)),
    unary main_cst_18 main_call8_v3 ((id) : (⟨S_, .f32⟩ : BufTy).Contents (Elt F) → (⟨S_, .f32⟩ : BufTy).Contents (Elt F)),
    unary main_call8_v3 main_call8_v4 (((broadcastInDim S5504x16x128 ![] bcast_S_S5504x16x128)) : (⟨S_, .f32⟩ : BufTy).Contents (Elt F) → (⟨S5504x16x128, .f32⟩ : BufTy).Contents (Elt F)),
    binary main_call8_v4 main_call8_v2 main_v56 ((minimumf) : (⟨S5504x16x128, .f32⟩ : BufTy).Contents (Elt F) → (⟨S5504x16x128, .f32⟩ : BufTy).Contents (Elt F) → (⟨S5504x16x128, .f32⟩ : BufTy).Contents (Elt F)),
    unary main_v56 main_v57 ((Host.roundeven) : (⟨S5504x16x128, .f32⟩ : BufTy).Contents (Elt F) → (⟨S5504x16x128, .f32⟩ : BufTy).Contents (Elt F)),
    unary main_v53 main_v58 (broadcastInDim S5504x16x128 ![0, 1, 2] bcast_S5504x16x1_S5504x16x128_0_1_2 : (⟨S5504x16x1, .f32⟩ : BufTy).Contents (Elt F) → (⟨S5504x16x128, .f32⟩ : BufTy).Contents (Elt F)),
    binary main_v57 main_v58 main_v59 (mulf : (⟨S5504x16x128, .f32⟩ : BufTy).Contents (Elt F) → (⟨S5504x16x128, .f32⟩ : BufTy).Contents (Elt F) → (⟨S5504x16x128, .f32⟩ : BufTy).Contents (Elt F)),
    reshape main_v59 main_v60 rfl shapeCasts_S5504x16x128_S5504x2048,
    binary main_v60 main_arg2 main_v61 (subf : (⟨S5504x2048, .f32⟩ : BufTy).Contents (Elt F) → (⟨S5504x2048, .f32⟩ : BufTy).Contents (Elt F) → (⟨S5504x2048, .f32⟩ : BufTy).Contents (Elt F)),
    binary main_arg2 main_v61 main_v62 (addf : (⟨S5504x2048, .f32⟩ : BufTy).Contents (Elt F) → (⟨S5504x2048, .f32⟩ : BufTy).Contents (Elt F) → (⟨S5504x2048, .f32⟩ : BufTy).Contents (Elt F)) ]

/-- Operations 108–118: the up product `%63`, the gate's silu `%64` and the hidden activations `%65`. -/
abbrev c6 : List (HloOp τ sig (Elt F)) :=
  [
    binary main_v45 main_v62 main_v63 ((fun l r => Host.dotGeneral dot_S4x2048x2048_S5504x2048_S4x2048x5504_2_1_01_0_n_n none l r) : (⟨S4x2048x2048, .f32⟩ : BufTy).Contents (Elt F) → (⟨S5504x2048, .f32⟩ : BufTy).Contents (Elt F) → (⟨S4x2048x5504, .f32⟩ : BufTy).Contents (Elt F)),
    unary main_v31 main_call10_v0 ((Host.negf) : (⟨S4x2048x5504, .f32⟩ : BufTy).Contents (Elt F) → (⟨S4x2048x5504, .f32⟩ : BufTy).Contents (Elt F)),
    unary main_call10_v0 main_call10_v1 ((Host.exp) : (⟨S4x2048x5504, .f32⟩ : BufTy).Contents (Elt F) → (⟨S4x2048x5504, .f32⟩ : BufTy).Contents (Elt F)),
    nullary main_call10_cst (((constant S_ .f32 0x3F800000#32)) : (⟨S_, .f32⟩ : BufTy).Contents (Elt F)),
    unary main_call10_cst main_call10_v2 (((broadcastInDim S4x2048x5504 ![] bcast_S_S4x2048x5504)) : (⟨S_, .f32⟩ : BufTy).Contents (Elt F) → (⟨S4x2048x5504, .f32⟩ : BufTy).Contents (Elt F)),
    binary main_call10_v2 main_call10_v1 main_call10_v3 ((addf) : (⟨S4x2048x5504, .f32⟩ : BufTy).Contents (Elt F) → (⟨S4x2048x5504, .f32⟩ : BufTy).Contents (Elt F) → (⟨S4x2048x5504, .f32⟩ : BufTy).Contents (Elt F)),
    nullary main_call10_cst_0 (((constant S_ .f32 0x3F800000#32)) : (⟨S_, .f32⟩ : BufTy).Contents (Elt F)),
    unary main_call10_cst_0 main_call10_v4 (((broadcastInDim S4x2048x5504 ![] bcast_S_S4x2048x5504)) : (⟨S_, .f32⟩ : BufTy).Contents (Elt F) → (⟨S4x2048x5504, .f32⟩ : BufTy).Contents (Elt F)),
    binary main_call10_v4 main_call10_v3 main_call10_v5 ((Host.divf) : (⟨S4x2048x5504, .f32⟩ : BufTy).Contents (Elt F) → (⟨S4x2048x5504, .f32⟩ : BufTy).Contents (Elt F) → (⟨S4x2048x5504, .f32⟩ : BufTy).Contents (Elt F)),
    binary main_v31 main_call10_v5 main_v64 ((mulf) : (⟨S4x2048x5504, .f32⟩ : BufTy).Contents (Elt F) → (⟨S4x2048x5504, .f32⟩ : BufTy).Contents (Elt F) → (⟨S4x2048x5504, .f32⟩ : BufTy).Contents (Elt F)),
    binary main_v64 main_v63 main_v65 (mulf : (⟨S4x2048x5504, .f32⟩ : BufTy).Contents (Elt F) → (⟨S4x2048x5504, .f32⟩ : BufTy).Contents (Elt F) → (⟨S4x2048x5504, .f32⟩ : BufTy).Contents (Elt F)) ]

/-- Operations 119–144: the hidden activations on their rows' grids, straight through: → `%79`. -/
abbrev c7 : List (HloOp τ sig (Elt F)) :=
  [
    unary main_v65 main_v66 (Host.absf : (⟨S4x2048x5504, .f32⟩ : BufTy).Contents (Elt F) → (⟨S4x2048x5504, .f32⟩ : BufTy).Contents (Elt F)),
    nullary main_cst_19 (constant S_ .f32 0xFF800000#32),
    binary main_v66 main_cst_19 main_v67 ((fun x v => Host.reduce FloatOps.maximumf x v reducesTo_S4x2048x5504_S4x2048_d2 h_S_) : (⟨S4x2048x5504, .f32⟩ : BufTy).Contents (Elt F) → (⟨S_, .f32⟩ : BufTy).Contents (Elt F) → (⟨S4x2048, .f32⟩ : BufTy).Contents (Elt F)),
    unary main_v67 main_v68 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_20 (constant S_ .f32 0x3727C5AC#32),
    unary main_cst_20 main_call11_v0 ((id) : (⟨S_, .f32⟩ : BufTy).Contents (Elt F) → (⟨S_, .f32⟩ : BufTy).Contents (Elt F)),
    unary main_call11_v0 main_call11_v1 (((broadcastInDim S4x2048x1 ![] bcast_S_S4x2048x1)) : (⟨S_, .f32⟩ : BufTy).Contents (Elt F) → (⟨S4x2048x1, .f32⟩ : BufTy).Contents (Elt F)),
    binary main_call11_v1 main_v68 main_v69 ((maximumf) : (⟨S4x2048x1, .f32⟩ : BufTy).Contents (Elt F) → (⟨S4x2048x1, .f32⟩ : BufTy).Contents (Elt F) → (⟨S4x2048x1, .f32⟩ : BufTy).Contents (Elt F)),
    nullary main_cst_21 (constant S_ .f32 0x42FE0000#32),
    unary main_cst_21 main_v70 (broadcastInDim S4x2048x1 ![] bcast_S_S4x2048x1 : (⟨S_, .f32⟩ : BufTy).Contents (Elt F) → (⟨S4x2048x1, .f32⟩ : BufTy).Contents (Elt F)),
    binary main_v70 main_v69 main_v71 (Host.divf : (⟨S4x2048x1, .f32⟩ : BufTy).Contents (Elt F) → (⟨S4x2048x1, .f32⟩ : BufTy).Contents (Elt F) → (⟨S4x2048x1, .f32⟩ : BufTy).Contents (Elt F)),
    unary main_v71 main_v72 (broadcastInDim S4x2048x5504 ![0, 1, 2] bcast_S4x2048x1_S4x2048x5504_0_1_2 : (⟨S4x2048x1, .f32⟩ : BufTy).Contents (Elt F) → (⟨S4x2048x5504, .f32⟩ : BufTy).Contents (Elt F)),
    binary main_v65 main_v72 main_v73 (mulf : (⟨S4x2048x5504, .f32⟩ : BufTy).Contents (Elt F) → (⟨S4x2048x5504, .f32⟩ : BufTy).Contents (Elt F) → (⟨S4x2048x5504, .f32⟩ : BufTy).Contents (Elt F)),
    unary main_v73 main_v74 ((Host.roundeven) : (⟨S4x2048x5504, .f32⟩ : BufTy).Contents (Elt F) → (⟨S4x2048x5504, .f32⟩ : BufTy).Contents (Elt F)),
    nullary main_cst_22 (constant S_ .f32 0xC3000000#32),
    nullary main_cst_23 (constant S_ .f32 0x42FE0000#32),
    unary main_cst_22 main_call13_v0 ((id) : (⟨S_, .f32⟩ : BufTy).Contents (Elt F) → (⟨S_, .f32⟩ : BufTy).Contents (Elt F)),
    unary main_call13_v0 main_call13_v1 (((broadcastInDim S4x2048x5504 ![] bcast_S_S4x2048x5504)) : (⟨S_, .f32⟩ : BufTy).Contents (Elt F) → (⟨S4x2048x5504, .f32⟩ : BufTy).Contents (Elt F)),
    binary main_call13_v1 main_v74 main_call13_v2 ((maximumf) : (⟨S4x2048x5504, .f32⟩ : BufTy).Contents (Elt F) → (⟨S4x2048x5504, .f32⟩ : BufTy).Contents (Elt F) → (⟨S4x2048x5504, .f32⟩ : BufTy).Contents (Elt F)),
    unary main_cst_23 main_call13_v3 ((id) : (⟨S_, .f32⟩ : BufTy).Contents (Elt F) → (⟨S_, .f32⟩ : BufTy).Contents (Elt F)),
    unary main_call13_v3 main_call13_v4 (((broadcastInDim S4x2048x5504 ![] bcast_S_S4x2048x5504)) : (⟨S_, .f32⟩ : BufTy).Contents (Elt F) → (⟨S4x2048x5504, .f32⟩ : BufTy).Contents (Elt F)),
    binary main_call13_v4 main_call13_v2 main_v75 ((minimumf) : (⟨S4x2048x5504, .f32⟩ : BufTy).Contents (Elt F) → (⟨S4x2048x5504, .f32⟩ : BufTy).Contents (Elt F) → (⟨S4x2048x5504, .f32⟩ : BufTy).Contents (Elt F)),
    unary main_v71 main_v76 (broadcastInDim S4x2048x5504 ![0, 1, 2] bcast_S4x2048x1_S4x2048x5504_0_1_2 : (⟨S4x2048x1, .f32⟩ : BufTy).Contents (Elt F) → (⟨S4x2048x5504, .f32⟩ : BufTy).Contents (Elt F)),
    binary main_v75 main_v76 main_v77 (Host.divf : (⟨S4x2048x5504, .f32⟩ : BufTy).Contents (Elt F) → (⟨S4x2048x5504, .f32⟩ : BufTy).Contents (Elt F) → (⟨S4x2048x5504, .f32⟩ : BufTy).Contents (Elt F)),
    binary main_v77 main_v65 main_v78 (subf : (⟨S4x2048x5504, .f32⟩ : BufTy).Contents (Elt F) → (⟨S4x2048x5504, .f32⟩ : BufTy).Contents (Elt F) → (⟨S4x2048x5504, .f32⟩ : BufTy).Contents (Elt F)),
    binary main_v65 main_v78 main_v79 (addf : (⟨S4x2048x5504, .f32⟩ : BufTy).Contents (Elt F) → (⟨S4x2048x5504, .f32⟩ : BufTy).Contents (Elt F) → (⟨S4x2048x5504, .f32⟩ : BufTy).Contents (Elt F)) ]

/-- Operations 145–171: the down weights `%arg3` on their groups' ternary grids, straight through: → `%96`. -/
abbrev c8 : List (HloOp τ sig (Elt F)) :=
  [
    reshape main_arg3 main_v80 rfl shapeCasts_S2048x5504_S2048x43x128,
    unary main_v80 main_v81 (Host.absf : (⟨S2048x43x128, .f32⟩ : BufTy).Contents (Elt F) → (⟨S2048x43x128, .f32⟩ : BufTy).Contents (Elt F)),
    nullary main_cst_24 (constant S_ .f32 0x00000000#32),
    binary main_v81 main_cst_24 main_v82 ((fun x v => Host.reduceAdd x v reducesTo_S2048x43x128_S2048x43_d2 h_S_) : (⟨S2048x43x128, .f32⟩ : BufTy).Contents (Elt F) → (⟨S_, .f32⟩ : BufTy).Contents (Elt F) → (⟨S2048x43, .f32⟩ : BufTy).Contents (Elt F)),
    unary main_v82 main_v83 (broadcastInDim S2048x43x1 ![0, 1] bcast_S2048x43_S2048x43x1_0_1 : (⟨S2048x43, .f32⟩ : BufTy).Contents (Elt F) → (⟨S2048x43x1, .f32⟩ : BufTy).Contents (Elt F)),
    nullary main_cst_25 (constant S_ .f32 0x43000000#32),
    unary main_cst_25 main_v84 (broadcastInDim S2048x43x1 ![] bcast_S_S2048x43x1 : (⟨S_, .f32⟩ : BufTy).Contents (Elt F) → (⟨S2048x43x1, .f32⟩ : BufTy).Contents (Elt F)),
    binary main_v83 main_v84 main_v85 (Host.divf : (⟨S2048x43x1, .f32⟩ : BufTy).Contents (Elt F) → (⟨S2048x43x1, .f32⟩ : BufTy).Contents (Elt F) → (⟨S2048x43x1, .f32⟩ : BufTy).Contents (Elt F)),
    nullary main_cst_26 (constant S_ .f32 0x3727C5AC#32),
    unary main_cst_26 main_v86 (broadcastInDim S2048x43x1 ![] bcast_S_S2048x43x1 : (⟨S_, .f32⟩ : BufTy).Contents (Elt F) → (⟨S2048x43x1, .f32⟩ : BufTy).Contents (Elt F)),
    binary main_v85 main_v86 main_v87 (addf : (⟨S2048x43x1, .f32⟩ : BufTy).Contents (Elt F) → (⟨S2048x43x1, .f32⟩ : BufTy).Contents (Elt F) → (⟨S2048x43x1, .f32⟩ : BufTy).Contents (Elt F)),
    unary main_v87 main_v88 (broadcastInDim S2048x43x128 ![0, 1, 2] bcast_S2048x43x1_S2048x43x128_0_1_2 : (⟨S2048x43x1, .f32⟩ : BufTy).Contents (Elt F) → (⟨S2048x43x128, .f32⟩ : BufTy).Contents (Elt F)),
    binary main_v80 main_v88 main_v89 (Host.divf : (⟨S2048x43x128, .f32⟩ : BufTy).Contents (Elt F) → (⟨S2048x43x128, .f32⟩ : BufTy).Contents (Elt F) → (⟨S2048x43x128, .f32⟩ : BufTy).Contents (Elt F)),
    nullary main_cst_27 (constant S_ .f32 0xBF800000#32),
    nullary main_cst_28 (constant S_ .f32 0x3F800000#32),
    unary main_cst_27 main_call14_v0 ((id) : (⟨S_, .f32⟩ : BufTy).Contents (Elt F) → (⟨S_, .f32⟩ : BufTy).Contents (Elt F)),
    unary main_call14_v0 main_call14_v1 (((broadcastInDim S2048x43x128 ![] bcast_S_S2048x43x128)) : (⟨S_, .f32⟩ : BufTy).Contents (Elt F) → (⟨S2048x43x128, .f32⟩ : BufTy).Contents (Elt F)),
    binary main_call14_v1 main_v89 main_call14_v2 ((maximumf) : (⟨S2048x43x128, .f32⟩ : BufTy).Contents (Elt F) → (⟨S2048x43x128, .f32⟩ : BufTy).Contents (Elt F) → (⟨S2048x43x128, .f32⟩ : BufTy).Contents (Elt F)),
    unary main_cst_28 main_call14_v3 ((id) : (⟨S_, .f32⟩ : BufTy).Contents (Elt F) → (⟨S_, .f32⟩ : BufTy).Contents (Elt F)),
    unary main_call14_v3 main_call14_v4 (((broadcastInDim S2048x43x128 ![] bcast_S_S2048x43x128)) : (⟨S_, .f32⟩ : BufTy).Contents (Elt F) → (⟨S2048x43x128, .f32⟩ : BufTy).Contents (Elt F)),
    binary main_call14_v4 main_call14_v2 main_v90 ((minimumf) : (⟨S2048x43x128, .f32⟩ : BufTy).Contents (Elt F) → (⟨S2048x43x128, .f32⟩ : BufTy).Contents (Elt F) → (⟨S2048x43x128, .f32⟩ : BufTy).Contents (Elt F)),
    unary main_v90 main_v91 ((Host.roundeven) : (⟨S2048x43x128, .f32⟩ : BufTy).Contents (Elt F) → (⟨S2048x43x128, .f32⟩ : BufTy).Contents (Elt F)),
    unary main_v87 main_v92 (broadcastInDim S2048x43x128 ![0, 1, 2] bcast_S2048x43x1_S2048x43x128_0_1_2 : (⟨S2048x43x1, .f32⟩ : BufTy).Contents (Elt F) → (⟨S2048x43x128, .f32⟩ : BufTy).Contents (Elt F)),
    binary main_v91 main_v92 main_v93 (mulf : (⟨S2048x43x128, .f32⟩ : BufTy).Contents (Elt F) → (⟨S2048x43x128, .f32⟩ : BufTy).Contents (Elt F) → (⟨S2048x43x128, .f32⟩ : BufTy).Contents (Elt F)),
    reshape main_v93 main_v94 rfl shapeCasts_S2048x43x128_S2048x5504,
    binary main_v94 main_arg3 main_v95 (subf : (⟨S2048x5504, .f32⟩ : BufTy).Contents (Elt F) → (⟨S2048x5504, .f32⟩ : BufTy).Contents (Elt F) → (⟨S2048x5504, .f32⟩ : BufTy).Contents (Elt F)),
    binary main_arg3 main_v95 main_v96 (addf : (⟨S2048x5504, .f32⟩ : BufTy).Contents (Elt F) → (⟨S2048x5504, .f32⟩ : BufTy).Contents (Elt F) → (⟨S2048x5504, .f32⟩ : BufTy).Contents (Elt F)) ]

/-- Operations 172–172: the down product: the result `%97`. -/
abbrev c9 : List (HloOp τ sig (Elt F)) :=
  [
    binary main_v79 main_v96 main_v97 ((fun l r => Host.dotGeneral dot_S4x2048x5504_S2048x5504_S4x2048x2048_2_1_01_0_n_n none l r) : (⟨S4x2048x5504, .f32⟩ : BufTy).Contents (Elt F) → (⟨S2048x5504, .f32⟩ : BufTy).Contents (Elt F) → (⟨S4x2048x2048, .f32⟩ : BufTy).Contents (Elt F)) ]

/-- The nine stretches, in order, are the whole program. -/
theorem ops_eq : (Value.ops (F := F)) = c1 ++ (c2 ++ (c3 ++ (c4 ++ (c5 ++ (c6 ++ (c7 ++ (c8 ++ c9))))))) := rfl

/-- Reads a buffer out of the fold of a literal stretch: each operation's result at its own buffer is its function's
    value and at any other buffer what was there; what is left is the composed term, closed by computation. -/
macro "read_fold" : tactic =>
  `(tactic| ((conv_lhs => simp (disch := decide) only [after_cons, after_nil, nullary_result', unary_result', binary_result',
               reshape_result', nullary_result_ne', unary_result_ne', binary_result_ne', reshape_result_ne']) <;> rfl))

/-- A buffer that none of the listed operations writes: each operation writes one buffer, and it is another one. -/
macro "not_written " c:ident : tactic =>
  `(tactic| (refine StableHlo.after_of_forall_not_mem _ _ (List.forall_iff_forall_mem.mp ?_)
             simp only [$c:ident, List.Forall, StableHlo.nullary_writes, StableHlo.unary_writes, StableHlo.binary_writes,
               StableHlo.reshape_writes, Finset.mem_singleton]
             repeat' apply And.intro
             all_goals exact StableHlo.devRef_ne_of_ne (by decide)))

end Cert.ReferenceIdeal.HandRun

end
-- ==== Proof.RefRun1.lean ====
/-
  What each of the first three stretches of the reference leaves in the buffer the later ones read, from arbitrary
  contents `W`, and the buffers it leaves as they were.
-/
import proofs.«173558_j15058155339839_2_alg».proof.Proof.RefRun0

noncomputable section

namespace Cert.ReferenceIdeal.HandRun

open Cert.ReferenceIdeal Cert.ReferenceIdeal.Gen Cert.ReferenceIdeal.Spec Idealize.ShloMosaic Idealize.ShloMosaic.TcCoe Idealize.SL.Sem
  Idealize.ShloMosaic.StableHlo Cert.Mlp Cert.Mlp.Chains Cert.Lib.QuantChains

variable (W : Valuation τ sig (Elt Ideal))

/-! ## Stretch 1 -/

/-- The first stretch leaves in `%13` the activations `%arg0` in straight-through form over their rows' grids. -/
theorem c1_v13 : after (c1 (F := Ideal)) W (Proc.devRef .tc main_v13) = stF (W (Proc.devRef .tc main_arg0) : FVec Ideal T3 .f32) (aqTok3 (W (Proc.devRef .tc main_arg0) : FVec Ideal T3 .f32)) := by
  read_fold

theorem c1_arg0 : after (c1 (F := Ideal)) W (Proc.devRef .tc main_arg0) = W (Proc.devRef .tc main_arg0) := by
  not_written c1

theorem c1_arg1 : after (c1 (F := Ideal)) W (Proc.devRef .tc main_arg1) = W (Proc.devRef .tc main_arg1) := by
  not_written c1

theorem c1_arg2 : after (c1 (F := Ideal)) W (Proc.devRef .tc main_arg2) = W (Proc.devRef .tc main_arg2) := by
  not_written c1

theorem c1_arg3 : after (c1 (F := Ideal)) W (Proc.devRef .tc main_arg3) = W (Proc.devRef .tc main_arg3) := by
  not_written c1

/-! ## Stretch 2 -/

/-- The second stretch leaves in `%30` the gate weights `%arg1` in straight-through form over their groups' ternary grids. -/
theorem c2_v30 : after (c2 (F := Ideal)) W (Proc.devRef .tc main_v30) = stF (W (Proc.devRef .tc main_arg1) : FVec Ideal WA .f32) (wqGU (W (Proc.devRef .tc main_arg1) : FVec Ideal WA .f32)) := by
  read_fold

theorem c2_v13 : after (c2 (F := Ideal)) W (Proc.devRef .tc main_v13) = W (Proc.devRef .tc main_v13) := by
  not_written c2

theorem c2_arg0 : after (c2 (F := Ideal)) W (Proc.devRef .tc main_arg0) = W (Proc.devRef .tc main_arg0) := by
  not_written c2

theorem c2_arg1 : after (c2 (F := Ideal)) W (Proc.devRef .tc main_arg1) = W (Proc.devRef .tc main_arg1) := by
  not_written c2

theorem c2_arg2 : after (c2 (F := Ideal)) W (Proc.devRef .tc main_arg2) = W (Proc.devRef .tc main_arg2) := by
  not_written c2

theorem c2_arg3 : after (c2 (F := Ideal)) W (Proc.devRef .tc main_arg3) = W (Proc.devRef .tc main_arg3) := by
  not_written c2

/-! ## Stretch 3 -/

/-- The third stretch leaves in `%31` the product of `%13` and `%30` contracted along the features. -/
theorem c3_v31 : after (c3 (F := Ideal)) W (Proc.devRef .tc main_v31) = Host.dotGeneral (F := Ideal) (φ₁ := .f32) (φ₂ := .f32) dot_S4x2048x2048_S5504x2048_S4x2048x5504_2_1_01_0_n_n none (W (Proc.devRef .tc main_v13) : FVec Ideal T3 .f32) (W (Proc.devRef .tc main_v30) : FVec Ideal WA .f32) := by
  read_fold

theorem c3_arg0 : after (c3 (F := Ideal)) W (Proc.devRef .tc main_arg0) = W (Proc.devRef .tc main_arg0) := by
  not_written c3

theorem c3_arg1 : after (c3 (F := Ideal)) W (Proc.devRef .tc main_arg1) = W (Proc.devRef .tc main_arg1) := by
  not_written c3

theorem c3_arg2 : after (c3 (F := Ideal)) W (Proc.devRef .tc main_arg2) = W (Proc.devRef .tc main_arg2) := by
  not_written c3

theorem c3_arg3 : after (c3 (F := Ideal)) W (Proc.devRef .tc main_arg3) = W (Proc.devRef .tc main_arg3) := by
  not_written c3

end Cert.ReferenceIdeal.HandRun

end
-- ==== Proof.RefRun2.lean ====
/-
  What each of the fourth, fifth and sixth stretches of the reference leaves in the buffer the later ones read, from
  arbitrary contents `W`, and the buffers it leaves as they were.
-/
import proofs.«173558_j15058155339839_2_alg».proof.Proof.RefRun0

noncomputable section

namespace Cert.ReferenceIdeal.HandRun

open Cert.ReferenceIdeal Cert.ReferenceIdeal.Gen Cert.ReferenceIdeal.Spec Idealize.ShloMosaic Idealize.ShloMosaic.TcCoe Idealize.SL.Sem
  Idealize.ShloMosaic.StableHlo Cert.Mlp Cert.Mlp.Chains Cert.Lib.QuantChains

variable (W : Valuation τ sig (Elt Ideal))

/-! ## Stretch 4 -/

/-- The fourth stretch leaves in `%45` the same quantized activations as the first left in `%13`. -/
theorem c4_v45 : after (c4 (F := Ideal)) W (Proc.devRef .tc main_v45) = stF (W (Proc.devRef .tc main_arg0) : FVec Ideal T3 .f32) (aqTok3 (W (Proc.devRef .tc main_arg0) : FVec Ideal T3 .f32)) := by
  read_fold

theorem c4_v31 : after (c4 (F := Ideal)) W (Proc.devRef .tc main_v31) = W (Proc.devRef .tc main_v31) := by
  not_written c4

theorem c4_arg0 : after (c4 (F := Ideal)) W (Proc.devRef .tc main_arg0) = W (Proc.devRef .tc main_arg0) := by
  not_written c4

theorem c4_arg1 : after (c4 (F := Ideal)) W (Proc.devRef .tc main_arg1) = W (Proc.devRef .tc main_arg1) := by
  not_written c4

theorem c4_arg2 : after (c4 (F := Ideal)) W (Proc.devRef .tc main_arg2) = W (Proc.devRef .tc main_arg2) := by
  not_written c4

theorem c4_arg3 : after (c4 (F := Ideal)) W (Proc.devRef .tc main_arg3) = W (Proc.devRef .tc main_arg3) := by
  not_written c4

/-! ## Stretch 5 -/

/-- The fifth stretch leaves in `%62` the up weights `%arg2` in straight-through form over their groups' ternary grids. -/
theorem c5_v62 : after (c5 (F := Ideal)) W (Proc.devRef .tc main_v62) = stF (W (Proc.devRef .tc main_arg2) : FVec Ideal WA .f32) (wqGU (W (Proc.devRef .tc main_arg2) : FVec Ideal WA .f32)) := by
  read_fold

theorem c5_v31 : after (c5 (F := Ideal)) W (Proc.devRef .tc main_v31) = W (Proc.devRef .tc main_v31) := by
  not_written c5

theorem c5_v45 : after (c5 (F := Ideal)) W (Proc.devRef .tc main_v45) = W (Proc.devRef .tc main_v45) := by
  not_written c5

theorem c5_arg0 : after (c5 (F := Ideal)) W (Proc.devRef .tc main_arg0) = W (Proc.devRef .tc main_arg0) := by
  not_written c5

theorem c5_arg1 : after (c5 (F := Ideal)) W (Proc.devRef .tc main_arg1) = W (Proc.devRef .tc main_arg1) := by
  not_written c5

theorem c5_arg2 : after (c5 (F := Ideal)) W (Proc.devRef .tc main_arg2) = W (Proc.devRef .tc main_arg2) := by
  not_written c5

theorem c5_arg3 : after (c5 (F := Ideal)) W (Proc.devRef .tc main_arg3) = W (Proc.devRef .tc main_arg3) := by
  not_written c5

/-! ## Stretch 6 -/

/-- The sixth stretch leaves in `%65` the silu of the gate product `%31` times the up product of `%45` and `%62`. -/
theorem c6_v65 : after (c6 (F := Ideal)) W (Proc.devRef .tc main_v65) = mulf (siluHost b_S0_H3 (W (Proc.devRef .tc main_v31) : FVec Ideal H3 .f32)) (Host.dotGeneral (F := Ideal) (φ₁ := .f32) (φ₂ := .f32) dot_S4x2048x2048_S5504x2048_S4x2048x5504_2_1_01_0_n_n none (W (Proc.devRef .tc main_v45) : FVec Ideal T3 .f32) (W (Proc.devRef .tc main_v62) : FVec Ideal WA .f32)) := by
  read_fold

theorem c6_arg0 : after (c6 (F := Ideal)) W (Proc.devRef .tc main_arg0) = W (Proc.devRef .tc main_arg0) := by
  not_written c6

theorem c6_arg1 : after (c6 (F := Ideal)) W (Proc.devRef .tc main_arg1) = W (Proc.devRef .tc main_arg1) := by
  not_written c6

theorem c6_arg2 : after (c6 (F := Ideal)) W (Proc.devRef .tc main_arg2) = W (Proc.devRef .tc main_arg2) := by
  not_written c6

theorem c6_arg3 : after (c6 (F := Ideal)) W (Proc.devRef .tc main_arg3) = W (Proc.devRef .tc main_arg3) := by
  not_written c6

end Cert.ReferenceIdeal.HandRun

end
-- ==== Proof.RefRun3.lean ====
/-
  What each of the last three stretches of the reference leaves in the buffer the later ones read, from arbitrary
  contents `W`, and the buffers it leaves as they were.
-/
import proofs.«173558_j15058155339839_2_alg».proof.Proof.RefRun0

noncomputable section

namespace Cert.ReferenceIdeal.HandRun

open Cert.ReferenceIdeal Cert.ReferenceIdeal.Gen Cert.ReferenceIdeal.Spec Idealize.ShloMosaic Idealize.ShloMosaic.TcCoe Idealize.SL.Sem
  Idealize.ShloMosaic.StableHlo Cert.Mlp Cert.Mlp.Chains Cert.Lib.QuantChains

variable (W : Valuation τ sig (Elt Ideal))

/-! ## Stretch 7 -/

/-- The seventh stretch leaves in `%79` the hidden activations `%65` in straight-through form over their rows' grids. -/
theorem c7_v79 : after (c7 (F := Ideal)) W (Proc.devRef .tc main_v79) = stF (W (Proc.devRef .tc main_v65) : FVec Ideal H3 .f32) (aqHid3 (W (Proc.devRef .tc main_v65) : FVec Ideal H3 .f32)) := by
  read_fold

theorem c7_arg0 : after (c7 (F := Ideal)) W (Proc.devRef .tc main_arg0) = W (Proc.devRef .tc main_arg0) := by
  not_written c7

theorem c7_arg1 : after (c7 (F := Ideal)) W (Proc.devRef .tc main_arg1) = W (Proc.devRef .tc main_arg1) := by
  not_written c7

theorem c7_arg2 : after (c7 (F := Ideal)) W (Proc.devRef .tc main_arg2) = W (Proc.devRef .tc main_arg2) := by
  not_written c7

theorem c7_arg3 : after (c7 (F := Ideal)) W (Proc.devRef .tc main_arg3) = W (Proc.devRef .tc main_arg3) := by
  not_written c7

/-! ## Stretch 8 -/

/-- The eighth stretch leaves in `%96` the down weights `%arg3` in straight-through form over their groups' ternary grids. -/
theorem c8_v96 : after (c8 (F := Ideal)) W (Proc.devRef .tc main_v96) = stF (W (Proc.devRef .tc main_arg3) : FVec Ideal WD .f32) (wqD (W (Proc.devRef .tc main_arg3) : FVec Ideal WD .f32)) := by
  read_fold

theorem c8_v79 : after (c8 (F := Ideal)) W (Proc.devRef .tc main_v79) = W (Proc.devRef .tc main_v79) := by
  not_written c8

theorem c8_arg0 : after (c8 (F := Ideal)) W (Proc.devRef .tc main_arg0) = W (Proc.devRef .tc main_arg0) := by
  not_written c8

theorem c8_arg1 : after (c8 (F := Ideal)) W (Proc.devRef .tc main_arg1) = W (Proc.devRef .tc main_arg1) := by
  not_written c8

theorem c8_arg2 : after (c8 (F := Ideal)) W (Proc.devRef .tc main_arg2) = W (Proc.devRef .tc main_arg2) := by
  not_written c8

theorem c8_arg3 : after (c8 (F := Ideal)) W (Proc.devRef .tc main_arg3) = W (Proc.devRef .tc main_arg3) := by
  not_written c8

/-! ## Stretch 9 -/

/-- The last operation leaves in `%97` the product of `%79` and `%96` contracted along the hidden features. -/
theorem c9_v97 : after (c9 (F := Ideal)) W (Proc.devRef .tc main_v97) = Host.dotGeneral (F := Ideal) (φ₁ := .f32) (φ₂ := .f32) dot_S4x2048x5504_S2048x5504_S4x2048x2048_2_1_01_0_n_n none (W (Proc.devRef .tc main_v79) : FVec Ideal H3 .f32) (W (Proc.devRef .tc main_v96) : FVec Ideal WD .f32) := by
  read_fold

theorem c9_arg0 : after (c9 (F := Ideal)) W (Proc.devRef .tc main_arg0) = W (Proc.devRef .tc main_arg0) := by
  not_written c9

theorem c9_arg1 : after (c9 (F := Ideal)) W (Proc.devRef .tc main_arg1) = W (Proc.devRef .tc main_arg1) := by
  not_written c9

theorem c9_arg2 : after (c9 (F := Ideal)) W (Proc.devRef .tc main_arg2) = W (Proc.devRef .tc main_arg2) := by
  not_written c9

theorem c9_arg3 : after (c9 (F := Ideal)) W (Proc.devRef .tc main_arg3) = W (Proc.devRef .tc main_arg3) := by
  not_written c9

end Cert.ReferenceIdeal.HandRun

end
-- ==== Proof.RefRun.lean ====
/-
  The reference's run, read stretch by stretch: from any launch memory the program ends with its result buffer at the
  one term `refTerm` of its four arguments and the arguments as launched.
-/
import proofs.«173558_j15058155339839_2_alg».proof.Proof.RefRun1
import proofs.«173558_j15058155339839_2_alg».proof.Proof.RefRun2
import proofs.«173558_j15058155339839_2_alg».proof.Proof.RefRun3

noncomputable section

namespace Cert.ReferenceIdeal.HandRun

open Cert.ReferenceIdeal Cert.ReferenceIdeal.Gen Cert.ReferenceIdeal.Spec Idealize.ShloMosaic Idealize.ShloMosaic.TcCoe Idealize.SL.Sem
  Idealize.ShloMosaic.StableHlo Cert.Mlp Cert.Mlp.Chains Cert.Lib.QuantChains

variable (V : Valuation τ sig (Elt Ideal))

/-- The fold of the whole program is the nine stretches' folds, one over the other. -/
theorem after_ops : after (Value.ops (F := Ideal)) V
    = after c9 (after c8 (after c7 (after c6 (after c5 (after c4 (after c3 (after c2 (after c1 V)))))))) := by
  rw [ops_eq]
  simp only [after_append]

/-- From any contents `V`, the program leaves in its result buffer the reference's term of the four arguments' contents:
    the last product reads `%79` and `%96`, which the eighth stretch kept and wrote, `%79` is the seventh's reading of
    `%65`, and so on down to the arguments, which no stretch writes. The two quantizations of `%arg0` are one term. -/
theorem ops_v97 : after (Value.ops (F := Ideal)) V (Proc.devRef .tc main_v97)
    = refTerm (V (Proc.devRef .tc main_arg0)) (V (Proc.devRef .tc main_arg1)) (V (Proc.devRef .tc main_arg2)) (V (Proc.devRef .tc main_arg3)) := by
  rw [after_ops]
  rw [c9_v97]
  rw [c8_v79, c8_v96]
  rw [c7_v79, c7_arg3]
  rw [c6_v65, c6_arg3]
  rw [c5_v31, c5_v45, c5_v62, c5_arg3]
  rw [c4_v31, c4_v45, c4_arg2, c4_arg3]
  rw [c3_v31, c3_arg0, c3_arg2, c3_arg3]
  rw [c2_v13, c2_v30, c2_arg0, c2_arg2, c2_arg3]
  rw [c1_v13, c1_arg0, c1_arg1, c1_arg2, c1_arg3]
  rfl

/-- No operation writes `%arg0`. -/
theorem ops_arg0 : after (Value.ops (F := Ideal)) V (Proc.devRef .tc main_arg0) = V (Proc.devRef .tc main_arg0) := by
  rw [after_ops, c9_arg0, c8_arg0, c7_arg0, c6_arg0, c5_arg0, c4_arg0, c3_arg0, c2_arg0, c1_arg0]

/-- No operation writes `%arg1`. -/
theorem ops_arg1 : after (Value.ops (F := Ideal)) V (Proc.devRef .tc main_arg1) = V (Proc.devRef .tc main_arg1) := by
  rw [after_ops, c9_arg1, c8_arg1, c7_arg1, c6_arg1, c5_arg1, c4_arg1, c3_arg1, c2_arg1, c1_arg1]

/-- No operation writes `%arg2`. -/
theorem ops_arg2 : after (Value.ops (F := Ideal)) V (Proc.devRef .tc main_arg2) = V (Proc.devRef .tc main_arg2) := by
  rw [after_ops, c9_arg2, c8_arg2, c7_arg2, c6_arg2, c5_arg2, c4_arg2, c3_arg2, c2_arg2, c1_arg2]

/-- No operation writes `%arg3`. -/
theorem ops_arg3 : after (Value.ops (F := Ideal)) V (Proc.devRef .tc main_arg3) = V (Proc.devRef .tc main_arg3) := by
  rw [after_ops, c9_arg3, c8_arg3, c7_arg3, c6_arg3, c5_arg3, c4_arg3, c3_arg3, c2_arg3, c1_arg3]

/-- On every device, at the exact values, from any memory with zero counters: every weakly fair execution of the
    reference terminates with its result buffer at `refTerm` of the four arguments' launch contents and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v97)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v97).trans (ops_v97 (launchContents m c)),
       (h c main_arg0).trans (ops_arg0 (launchContents m c)),
       (h c main_arg1).trans (ops_arg1 (launchContents m c)),
       (h c main_arg2).trans (ops_arg2 (launchContents m c)),
       (h c main_arg3).trans (ops_arg3 (launchContents m c))⟩)
    (Value.run_raw (F := Ideal) m ρ)

end Cert.ReferenceIdeal.HandRun

end
-- ==== Proof.RefValue.lean ====
/-
  The reference's result read at one index: the output entry of one token's row.

  * For real arguments the straight-through form of every quantized operand is the quantized operand itself.
  * Each of the two contractions, read at a token and an output feature, is the sum of products of that token's row with
    the weight matrix's row of that feature.
  * So the hidden entry is the gated product of the row form, it is a real number, and the result entry is the row
    form's output entry.
-/
import proofs.«173558_j15058155339839_2_alg».proof.Proof.RefSpec

noncomputable section

namespace Cert.ReferenceIdeal.Spec

open Idealize.ShloMosaic Idealize.ShloMosaic.ValueIdx Cert.ReferenceIdeal Cert.ReferenceIdeal.Gen Cert.Mlp Cert.Mlp.Chains
  Cert.Lib.QuantChains

/-- With every entry of x real, the straight-through form x + (q - x) is q. -/
theorem stF_eq {S : Shape} (x q : FVec Ideal S .f32) (hx : ∀ i, IsR (x i)) : stF x q = q := by
  funext i
  unfold stF
  rw [addf_apply, subf_apply]
  exact ste (hx i) (q i)

/-! ### The coordinates of the operand indices of the two contractions -/

theorem lhsGU_0 (i : S4x2048x5504.Idx) (q : dot_S4x2048x2048_S5504x2048_S4x2048x5504_2_1_01_0_n_n.contr.Idx) : (dot_S4x2048x2048_S5504x2048_S4x2048x5504_2_1_01_0_n_n.lhsIdx i q 0).val = (i 0).val := by
  unfold DotDims.lhsIdx
  rw [dif_neg (show ¬(0 : Fin S4x2048x2048.rank) ∈ dot_S4x2048x2048_S5504x2048_S4x2048x5504_2_1_01_0_n_n.lhsBatch by decide),
    dif_pos (show (0 : Fin S4x2048x2048.rank) ∈ dot_S4x2048x2048_S5504x2048_S4x2048x5504_2_1_01_0_n_n.lhsNonContracting by decide)]
  rfl
theorem lhsGU_1 (i : S4x2048x5504.Idx) (q : dot_S4x2048x2048_S5504x2048_S4x2048x5504_2_1_01_0_n_n.contr.Idx) : (dot_S4x2048x2048_S5504x2048_S4x2048x5504_2_1_01_0_n_n.lhsIdx i q 1).val = (i 1).val := by
  unfold DotDims.lhsIdx
  rw [dif_neg (show ¬(1 : Fin S4x2048x2048.rank) ∈ dot_S4x2048x2048_S5504x2048_S4x2048x5504_2_1_01_0_n_n.lhsBatch by decide),
    dif_pos (show (1 : Fin S4x2048x2048.rank) ∈ dot_S4x2048x2048_S5504x2048_S4x2048x5504_2_1_01_0_n_n.lhsNonContracting by decide)]
  rfl
theorem lhsGU_2 (i : S4x2048x5504.Idx) (q : dot_S4x2048x2048_S5504x2048_S4x2048x5504_2_1_01_0_n_n.contr.Idx) : (dot_S4x2048x2048_S5504x2048_S4x2048x5504_2_1_01_0_n_n.lhsIdx i q 2).val = (q ⟨0, by decide⟩).val :=
  dot_S4x2048x2048_S5504x2048_S4x2048x5504_2_1_01_0_n_n.lhsIdx_val_of_single rfl i q
theorem rhsGU_0 (i : S4x2048x5504.Idx) (q : dot_S4x2048x2048_S5504x2048_S4x2048x5504_2_1_01_0_n_n.contr.Idx) : (dot_S4x2048x2048_S5504x2048_S4x2048x5504_2_1_01_0_n_n.rhsIdx i q 0).val = (i 2).val := by
  unfold DotDims.rhsIdx
  rw [dif_neg (show ¬(0 : Fin S5504x2048.rank) ∈ dot_S4x2048x2048_S5504x2048_S4x2048x5504_2_1_01_0_n_n.rhsBatch by decide),
    dif_pos (show (0 : Fin S5504x2048.rank) ∈ dot_S4x2048x2048_S5504x2048_S4x2048x5504_2_1_01_0_n_n.rhsNonContracting by decide)]
  rfl
theorem rhsGU_1 (i : S4x2048x5504.Idx) (q : dot_S4x2048x2048_S5504x2048_S4x2048x5504_2_1_01_0_n_n.contr.Idx) : (dot_S4x2048x2048_S5504x2048_S4x2048x5504_2_1_01_0_n_n.rhsIdx i q 1).val = (q ⟨0, by decide⟩).val :=
  dot_S4x2048x2048_S5504x2048_S4x2048x5504_2_1_01_0_n_n.rhsIdx_val_of_single rfl i q

theorem lhsD_0 (i : S4x2048x2048.Idx) (q : dot_S4x2048x5504_S2048x5504_S4x2048x2048_2_1_01_0_n_n.contr.Idx) : (dot_S4x2048x5504_S2048x5504_S4x2048x2048_2_1_01_0_n_n.lhsIdx i q 0).val = (i 0).val := by
  unfold DotDims.lhsIdx
  rw [dif_neg (show ¬(0 : Fin S4x2048x5504.rank) ∈ dot_S4x2048x5504_S2048x5504_S4x2048x2048_2_1_01_0_n_n.lhsBatch by decide),
    dif_pos (show (0 : Fin S4x2048x5504.rank) ∈ dot_S4x2048x5504_S2048x5504_S4x2048x2048_2_1_01_0_n_n.lhsNonContracting by decide)]
  rfl
theorem lhsD_1 (i : S4x2048x2048.Idx) (q : dot_S4x2048x5504_S2048x5504_S4x2048x2048_2_1_01_0_n_n.contr.Idx) : (dot_S4x2048x5504_S2048x5504_S4x2048x2048_2_1_01_0_n_n.lhsIdx i q 1).val = (i 1).val := by
  unfold DotDims.lhsIdx
  rw [dif_neg (show ¬(1 : Fin S4x2048x5504.rank) ∈ dot_S4x2048x5504_S2048x5504_S4x2048x2048_2_1_01_0_n_n.lhsBatch by decide),
    dif_pos (show (1 : Fin S4x2048x5504.rank) ∈ dot_S4x2048x5504_S2048x5504_S4x2048x2048_2_1_01_0_n_n.lhsNonContracting by decide)]
  rfl
theorem lhsD_2 (i : S4x2048x2048.Idx) (q : dot_S4x2048x5504_S2048x5504_S4x2048x2048_2_1_01_0_n_n.contr.Idx) : (dot_S4x2048x5504_S2048x5504_S4x2048x2048_2_1_01_0_n_n.lhsIdx i q 2).val = (q ⟨0, by decide⟩).val :=
  dot_S4x2048x5504_S2048x5504_S4x2048x2048_2_1_01_0_n_n.lhsIdx_val_of_single rfl i q
theorem rhsD_0 (i : S4x2048x2048.Idx) (q : dot_S4x2048x5504_S2048x5504_S4x2048x2048_2_1_01_0_n_n.contr.Idx) : (dot_S4x2048x5504_S2048x5504_S4x2048x2048_2_1_01_0_n_n.rhsIdx i q 0).val = (i 2).val := by
  unfold DotDims.rhsIdx
  rw [dif_neg (show ¬(0 : Fin S2048x5504.rank) ∈ dot_S4x2048x5504_S2048x5504_S4x2048x2048_2_1_01_0_n_n.rhsBatch by decide),
    dif_pos (show (0 : Fin S2048x5504.rank) ∈ dot_S4x2048x5504_S2048x5504_S4x2048x2048_2_1_01_0_n_n.rhsNonContracting by decide)]
  rfl
theorem rhsD_1 (i : S4x2048x2048.Idx) (q : dot_S4x2048x5504_S2048x5504_S4x2048x2048_2_1_01_0_n_n.contr.Idx) : (dot_S4x2048x5504_S2048x5504_S4x2048x2048_2_1_01_0_n_n.rhsIdx i q 1).val = (q ⟨0, by decide⟩).val :=
  dot_S4x2048x5504_S2048x5504_S4x2048x2048_2_1_01_0_n_n.rhsIdx_val_of_single rfl i q

/-! ### The two contractions read at a token and an output feature -/

/-- [4, 2048, 2048] × [5504, 2048] → [4, 2048, 5504] at (b, s, k): the token's row times the weight row k. -/
theorem dotGU_apply (l : FVec Ideal T3 .f32) (r : FVec Ideal WA .f32) (b : Fin 4) (s : Fin 2048) (k : Fin 5504) :
    Host.dotGeneral (F := Ideal) dot_S4x2048x2048_S5504x2048_S4x2048x5504_2_1_01_0_n_n none l r (ix3 b s k)
      = dotRow (fun t : Fin 2048 => l (ix3 b s t)) (fun t : Fin 2048 => r (ix2 k t)) := by
  simp only [Host.dotGeneral]
  rw [Ideal.dotGeneral_apply, ← Equiv.sum_comp (contrEquiv1 dot_S4x2048x2048_S5504x2048_S4x2048x5504_2_1_01_0_n_n 2048 rfl rfl).symm]
  unfold dotRow
  refine Finset.sum_congr rfl fun t _ => ?_
  have hk := contrEquiv1_symm_val dot_S4x2048x2048_S5504x2048_S4x2048x5504_2_1_01_0_n_n 2048 rfl rfl t
  have el : dot_S4x2048x2048_S5504x2048_S4x2048x5504_2_1_01_0_n_n.lhsIdx (ix3 b s k) ((contrEquiv1 dot_S4x2048x2048_S5504x2048_S4x2048x5504_2_1_01_0_n_n 2048 rfl rfl).symm t) = ix3 b s t :=
    funext fun a => Fin.ext (by
      match a with
      | ⟨0, _⟩ => exact lhsGU_0 _ _
      | ⟨1, _⟩ => exact lhsGU_1 _ _
      | ⟨2, _⟩ => exact (lhsGU_2 _ _).trans hk)
  have er : dot_S4x2048x2048_S5504x2048_S4x2048x5504_2_1_01_0_n_n.rhsIdx (ix3 b s k) ((contrEquiv1 dot_S4x2048x2048_S5504x2048_S4x2048x5504_2_1_01_0_n_n 2048 rfl rfl).symm t) = ix2 k t :=
    funext fun a => Fin.ext (by
      match a with
      | ⟨0, _⟩ => exact rhsGU_0 _ _
      | ⟨1, _⟩ => exact (rhsGU_1 _ _).trans hk)
  rw [el, er]

/-- [4, 2048, 5504] × [2048, 5504] → [4, 2048, 2048] at (b, s, n): the token's hidden row times the weight row n. -/
theorem dotD_apply (l : FVec Ideal H3 .f32) (r : FVec Ideal WD .f32) (b : Fin 4) (s : Fin 2048) (n : Fin 2048) :
    Host.dotGeneral (F := Ideal) dot_S4x2048x5504_S2048x5504_S4x2048x2048_2_1_01_0_n_n none l r (ix3 b s n)
      = dotRow (fun t : Fin 5504 => l (ix3 b s t)) (fun t : Fin 5504 => r (ix2 n t)) := by
  simp only [Host.dotGeneral]
  rw [Ideal.dotGeneral_apply, ← Equiv.sum_comp (contrEquiv1 dot_S4x2048x5504_S2048x5504_S4x2048x2048_2_1_01_0_n_n 5504 rfl rfl).symm]
  unfold dotRow
  refine Finset.sum_congr rfl fun t _ => ?_
  have hk := contrEquiv1_symm_val dot_S4x2048x5504_S2048x5504_S4x2048x2048_2_1_01_0_n_n 5504 rfl rfl t
  have el : dot_S4x2048x5504_S2048x5504_S4x2048x2048_2_1_01_0_n_n.lhsIdx (ix3 b s n) ((contrEquiv1 dot_S4x2048x5504_S2048x5504_S4x2048x2048_2_1_01_0_n_n 5504 rfl rfl).symm t) = ix3 b s t :=
    funext fun a => Fin.ext (by
      match a with
      | ⟨0, _⟩ => exact lhsD_0 _ _
      | ⟨1, _⟩ => exact lhsD_1 _ _
      | ⟨2, _⟩ => exact (lhsD_2 _ _).trans hk)
  have er : dot_S4x2048x5504_S2048x5504_S4x2048x2048_2_1_01_0_n_n.rhsIdx (ix3 b s n) ((contrEquiv1 dot_S4x2048x5504_S2048x5504_S4x2048x2048_2_1_01_0_n_n 5504 rfl rfl).symm t) = ix2 n t :=
    funext fun a => Fin.ext (by
      match a with
      | ⟨0, _⟩ => exact rhsD_0 _ _
      | ⟨1, _⟩ => exact (rhsD_1 _ _).trans hk)
  rw [el, er]

/-! ### The hidden row and the result -/

/-- The quantized input row of a token. -/
theorem aqTok3_row (X : FVec Ideal T3 .f32) (b : Fin 4) (s : Fin 2048) :
    (fun t : Fin 2048 => aqTok3 X (ix3 b s t)) = aqRow (fun j : Fin 2048 => X (ix3 b s j)) :=
  funext fun t => aqTok3_apply X b s t

/-- A hidden entry is the gated product of the token's row form. -/
theorem hidden_apply (X : FVec Ideal T3 .f32) (Wg Wu : FVec Ideal WA .f32)
    (hX : ∀ i, IsR (X i)) (hg : ∀ i, IsR (Wg i)) (hu : ∀ i, IsR (Wu i))
    (b : Fin 4) (s : Fin 2048) (k : Fin 5504) :
    hidden X Wg Wu (ix3 b s k)
      = hiddenRow (fun j : Fin 2048 => X (ix3 b s j))
          (fun (k : Fin 5504) (j : Fin 2048) => wqGU Wg (ix2 k j)) (fun (k : Fin 5504) (j : Fin 2048) => wqGU Wu (ix2 k j)) k := by
  unfold hidden
  rw [stF_eq X _ hX, stF_eq Wg _ hg, stF_eq Wu _ hu, mulf_apply, siluHost_apply, dotGU_apply, dotGU_apply, aqTok3_row]
  rfl

/-- Every hidden entry is a real number. -/
theorem isR_hidden (X : FVec Ideal T3 .f32) (Wg Wu : FVec Ideal WA .f32)
    (hX : ∀ i, IsR (X i)) (hg : ∀ i, IsR (Wg i)) (hu : ∀ i, IsR (Wu i)) (i : H3.Idx) : IsR (hidden X Wg Wu i) := by
  obtain ⟨b, s, k, rfl⟩ : ∃ (b : Fin 4) (s : Fin 2048) (k : Fin 5504), i = ix3 b s k := ⟨_, _, _, eq_ix3 i⟩
  rw [hidden_apply X Wg Wu hX hg hu]
  exact isR_hiddenRow _ _ _ (fun j => hX _) (fun k j => isR_wqGU Wg hg _) (fun k j => isR_wqGU Wu hu _) k

/-- The reference's result entry is the row form's output entry of its token. -/
theorem refTerm_apply (X : FVec Ideal T3 .f32) (Wg Wu : FVec Ideal WA .f32) (Wd : FVec Ideal WD .f32)
    (hX : ∀ i, IsR (X i)) (hg : ∀ i, IsR (Wg i)) (hu : ∀ i, IsR (Wu i)) (hd : ∀ i, IsR (Wd i))
    (b : Fin 4) (s : Fin 2048) (n : Fin 2048) :
    refTerm X Wg Wu Wd (ix3 b s n)
      = mlpRow (fun j : Fin 2048 => X (ix3 b s j))
          (fun (k : Fin 5504) (j : Fin 2048) => wqGU Wg (ix2 k j)) (fun (k : Fin 5504) (j : Fin 2048) => wqGU Wu (ix2 k j))
          (fun (n : Fin 2048) (k : Fin 5504) => wqD Wd (ix2 n k)) n := by
  have e : (fun t : Fin 5504 => aqHid3 (hidden X Wg Wu) (ix3 b s t))
      = aqRow (hiddenRow (fun j : Fin 2048 => X (ix3 b s j))
          (fun (k : Fin 5504) (j : Fin 2048) => wqGU Wg (ix2 k j)) (fun (k : Fin 5504) (j : Fin 2048) => wqGU Wu (ix2 k j))) := by
    funext t
    rw [aqHid3_apply]
    congr 1
    funext k
    exact hidden_apply X Wg Wu hX hg hu b s k
  unfold refTerm
  rw [stF_eq (hidden X Wg Wu) _ (isR_hidden X Wg Wu hX hg hu), stF_eq Wd _ hd, dotD_apply, e]
  rfl

end Cert.ReferenceIdeal.Spec

end
-- ==== Proof.PreReal.lean ====
/-
  From the precondition to real arguments.

  The precondition says, of each of the four argument arrays, that every entry's absolute value is below +∞, and joins
  the four statements by "and". On the extended reals |x| = max x (-x) is +∞ at both infinities, so an entry with
  |x| < +∞ is a real number.
-/
import proofs.«173558_j15058155339839_2_alg».proof.Defs
import proofs.«173558_j15058155339839_2_alg».proof.Proof.Gen.KernelIdeal
import proofs.«173558_j15058155339839_2_alg».proof.Proof.Gen.Pre_finite_inputs
import proofs.«173558_j15058155339839_2_alg».proof.Proof.MlpMath
import Idealize.ShloMosaic.Lib.ReduceAll
import Idealize.ShloMosaic.Lib.ValueIdx
import Idealize.ShloMosaic.Lib.IdealHost

noncomputable section

namespace Cert.Proof.PreReal

open Idealize.ShloMosaic Idealize.ShloMosaic.ValueIdx Idealize.SL.Sem Cert.Mlp

/-- The pattern of +∞. -/
theorem ofBits_inf : Ideal.ofBits .f32 0x7F800000#32 = (⊤ : EReal) := by
  simp [Ideal.ofBits, Ideal.ieee]

/-- An extended real whose absolute value is below +∞ is a real number. -/
theorem isR_of_abs_lt_top {x : EReal} (h : max x (-x) < ⊤) : IsR x := by
  induction x using EReal.rec with
  | bot => simp at h
  | top => simp at h
  | coe r => exact ⟨r, rfl⟩

/-- A one-bit word built from a boolean is 1 only for "true". -/
theorem ofBool_eq_one {b : Bool} (h : BitVec.ofBool b = 1#1) : b = true := by
  revert h; cases b <;> decide

instance : Subsingleton (⟨0, ![]⟩ : Shape).Idx := ⟨fun _ _ => funext fun d => d.elim0⟩

/-- "Every entry's absolute value is below +∞" read back: every entry is a real number. -/
theorem all_finite_real {s : Shape} {axes : List (Fin s.rank)} (x : FVec Ideal s .f32)
    (bc : (⟨0, ![]⟩ : Shape).BroadcastsInDim s ![]) (rt : s.ReducesTo axes ⟨0, ![]⟩) (hu : 0 < (⟨0, ![]⟩ : Shape).numel)
    (e : Host.reduce IntOp.andi
        (cmpf .olt (Host.absf x) (broadcastInDim s ![] bc (constant (F := Ideal) ⟨0, ![]⟩ .f32 0x7F800000#32)))
        (constantI ⟨0, ![]⟩ 1 1#1) rt hu ix0 = 1#1) (i : s.Idx) : IsR (x i) := by
  have h1 := Host.reduce_andi_all _ _ rt hu ix0 e i
  rw [cmpf_apply, broadcastInDim_scalar_apply, constant_apply, ofBits_inf] at h1
  have h2 : Ideal.cmp .olt (max (x i) (-(x i))) ⊤ = 1#1 := h1
  have h3 : BitVec.ofBool (decide (max (x i) (-(x i)) < ⊤)) = 1#1 := h2
  exact isR_of_abs_lt_top (of_decide_eq_true (ofBool_eq_one h3))

/-- The printed predicate being all ones makes every entry of its four arguments a real number. -/
theorem fn_real (a0 : FVec Ideal Cert.Pre_finite_inputs.S4x2048x2048 .f32) (a1 a2 : FVec Ideal Cert.Pre_finite_inputs.S5504x2048 .f32)
    (a3 : FVec Ideal Cert.Pre_finite_inputs.S2048x5504 .f32)
    (h : @Cert.Pre_finite_inputs.fn Cert.Pre_finite_inputs.Gen.facts Ideal _ a0 a1 a2 a3 = fun _ => 1#1) :
    (∀ i, IsR (a0 i)) ∧ (∀ i, IsR (a1 i)) ∧ (∀ i, IsR (a2 i)) ∧ (∀ i, IsR (a3 i)) := by
  have h0 := congrFun h ix0
  dsimp only [Cert.Pre_finite_inputs.fn, Cert.Pre_finite_inputs.fn_part1] at h0
  have split : ∀ (A B : IVec (⟨0, ![]⟩ : Shape) 1), andi A B ix0 = 1#1 → A ix0 = 1#1 ∧ B ix0 = 1#1 :=
    fun A B hAB => IntOp.andi_eq_one.1 hAB
  obtain ⟨h012, e3⟩ := split _ _ h0
  obtain ⟨h01, e2⟩ := split _ _ h012
  obtain ⟨e0, e1⟩ := split _ _ h01
  exact ⟨all_finite_real a0 _ _ _ e0, all_finite_real a1 _ _ _ e1, all_finite_real a2 _ _ _ e2, all_finite_real a3 _ _ _ e3⟩

/-- Under the precondition every entry of the kernel program's four argument arrays is a real number, on every device. -/
theorem args_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, IsR (m ((c.tc : Thread Cert.KernelIdeal.nD Cert.KernelIdeal.τ).loc Cert.KernelIdeal.main_arg0) i))
    ∧ (∀ i, IsR (m ((c.tc : Thread Cert.KernelIdeal.nD Cert.KernelIdeal.τ).loc Cert.KernelIdeal.main_arg1) i))
    ∧ (∀ i, IsR (m ((c.tc : Thread Cert.KernelIdeal.nD Cert.KernelIdeal.τ).loc Cert.KernelIdeal.main_arg2) i))
    ∧ (∀ i, IsR (m ((c.tc : Thread Cert.KernelIdeal.nD Cert.KernelIdeal.τ).loc Cert.KernelIdeal.main_arg3) i)) :=
  fn_real _ _ _ _ (h c)

end Cert.Proof.PreReal

end
-- ==== Proof.lean ====
/-
  A SwiGLU feed-forward block whose three projections take fake-quantized operands, computed by two pipelined kernels
  among host operations, against its plain reference — equal at the exact values, entry by entry.

  Both programs quantize the activations of each token row onto the row's own grid (step 127 / max(ε, largest absolute
  value), rounding to nearest even, clamped to [-128, 127]) and the weights group by group onto a ternary grid (scale = mean
  absolute value of the group + ε), and both compute, for every token row x,

      hidden k = silu (q(x) · wg k) · (q(x) · wu k),        out n = q(hidden) · wd n.

  They differ in three ways, none of which changes a value:
  * the reference writes every quantized operand as x + (q(x) - x). On the extended reals this is q(x) whenever x is a
    real number. The four argument arrays are real by the precondition, and the hidden row is real because every
    operation on the way keeps real numbers real (both quantizer steps are positive real numbers);
  * the kernel program widens the hidden axis from 5504 to 5632 with zero weights. A widened hidden entry is
    silu 0 · 0 = 0, it does not move the row's largest absolute value past max(ε, ·), and it meets a zero weight in the
    last sum;
  * the kernel program flattens the tokens [4, 2048] to [8192] and computes the two products block by block over a grid;
    every row is computed from its own row only, and the blocks tile the arrays.

  The kernel program's run with every buffer named is the launch of its chain of host stretches and regions; the value
  its result buffer ends with is read back through that chain. The reference's run is read out of the fold of its
  operations. Changes of float format are the identity at the exact values, so `preserves` has nothing to state.
-/
import proofs.«173558_j15058155339839_2_alg».proof.Defs
import proofs.«173558_j15058155339839_2_alg».proof.Proof.Gen.Kernel
import proofs.«173558_j15058155339839_2_alg».proof.Proof.Gen.Kernel.Skeleton
import proofs.«173558_j15058155339839_2_alg».proof.Proof.Gen.Kernel.Launch
import proofs.«173558_j15058155339839_2_alg».proof.Proof.Gen.Kernel.Points
import proofs.«173558_j15058155339839_2_alg».proof.Proof.Gen.Kernel.Frame
import proofs.«173558_j15058155339839_2_alg».proof.Proof.Gen.KernelIdeal
import proofs.«173558_j15058155339839_2_alg».proof.Proof.Gen.KernelIdeal.Skeleton
import proofs.«173558_j15058155339839_2_alg».proof.Proof.Gen.KernelIdeal.Launch
import proofs.«173558_j15058155339839_2_alg».proof.Proof.Gen.KernelIdeal.Points
import proofs.«173558_j15058155339839_2_alg».proof.Proof.Gen.KernelIdeal.Frame
import proofs.«173558_j15058155339839_2_alg».proof.Proof.Gen.ReferenceIdeal
import proofs.«173558_j15058155339839_2_alg».proof.Proof.Gen.Pre_finite_inputs
import proofs.«173558_j15058155339839_2_alg».proof.Proof.KRunAll
import proofs.«173558_j15058155339839_2_alg».proof.Proof.KFold
import proofs.«173558_j15058155339839_2_alg».proof.Proof.KValue
import proofs.«173558_j15058155339839_2_alg».proof.Proof.RefRun
import proofs.«173558_j15058155339839_2_alg».proof.Proof.RefValue
import proofs.«173558_j15058155339839_2_alg».proof.Proof.PreReal
import Idealize.ShloMosaic.Adequacy
import Idealize.ShloMosaic.Init

noncomputable section

namespace Cert.Proof

open Idealize.ShloMosaic Idealize.ShloMosaic.ValueIdx Idealize.SL.Sem

/-- The three programs run, fault nowhere, and leave their argument arrays as launched. -/
theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HandRun.run m ρ)

/-- The idealization rewrote no operation. -/
theorem preserves : Cert.preserves_Kernel_KernelIdeal := trivial

/-- The idealized kernel program's run: its result buffer ends at `kernTerm` of the argument arrays, which end unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v81)
            = Cert.KernelIdeal.Spec.kernTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run (Cert.KernelIdeal.defs (F := Ideal)) _ _).mono (fun r h c =>
    ⟨(h c _ (Cert.KernelIdeal.Gen.mem_uc Cert.KernelIdeal.main_v81 (by decide))).trans (Cert.KernelIdeal.HandRun.W32_v81 m ρ c),
     (h c _ (Cert.KernelIdeal.Gen.mem_uc Cert.KernelIdeal.main_arg0 (by decide))).trans (Cert.KernelIdeal.Gen.W32_main_arg0 m ρ c),
     (h c _ (Cert.KernelIdeal.Gen.mem_uc Cert.KernelIdeal.main_arg1 (by decide))).trans (Cert.KernelIdeal.Gen.W32_main_arg1 m ρ c),
     (h c _ (Cert.KernelIdeal.Gen.mem_uc Cert.KernelIdeal.main_arg2 (by decide))).trans (Cert.KernelIdeal.Gen.W32_main_arg2 m ρ c),
     (h c _ (Cert.KernelIdeal.Gen.mem_uc Cert.KernelIdeal.main_arg3 (by decide))).trans (Cert.KernelIdeal.Gen.W32_main_arg3 m ρ c)⟩)
    (Cert.KernelIdeal.HandRun.run_all (F := Ideal) m ρ)

/-- From memories agreeing on the arguments both programs end with one result: at every entry both are the same row
    form of the token's row and the three quantized weight matrices. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Spec.kernTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    kernel_run m ρ, ?_⟩
  refine (θ_run (Cert.ReferenceIdeal.defs (F := Ideal)) _ _).mono (fun _ h c => ⟨(h c).1.trans ?_, (h c).2⟩)
    (Cert.ReferenceIdeal.HandRun.run m' ρ')
  obtain ⟨e0, e1, e2, e3⟩ := hagree c
  obtain ⟨h0, h1, h2, h3⟩ := Cert.Proof.PreReal.args_real m hpre c
  rw [e0, e1, e2, e3]
  funext i
  obtain ⟨b, s, n, rfl⟩ : ∃ (b : Fin 4) (s : Fin 2048) (n : Fin 2048), i = ix3 b s n := ⟨i 0, i 1, i 2, eq_ix3 i⟩
  exact (Cert.ReferenceIdeal.Spec.refTerm_apply _ _ _ _ h0 h1 h2 h3 b s n).trans
    (Cert.KernelIdeal.Spec.kernTerm_apply _ _ _ _ b s n).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
